-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2 : Shape := ⟨2, ![1, 2]⟩
abbrev S9x2 : Shape := ⟨2, ![9, 2]⟩
abbrev S9 : Shape := ⟨1, ![9]⟩
abbrev S18x9x9 : Shape := ⟨3, ![18, 9, 9]⟩
abbrev S18x9 : Shape := ⟨2, ![18, 9]⟩
abbrev S3x9 : Shape := ⟨2, ![3, 9]⟩
abbrev S3 : Shape := ⟨1, ![3]⟩
abbrev S_ : Shape := ⟨0, ![]⟩

class Facts : Prop where
  bcast_S_S1x2 : S_.BroadcastsInDim S1x2 (![] : Fin 0 → Fin S1x2.rank)
  reducesTo_S1x2_S_d0_1 : S1x2.ReducesTo [0, 1] S_
  h_S_ : 0 < S_.numel
  bcast_S_S9x2 : S_.BroadcastsInDim S9x2 (![] : Fin 0 → Fin S9x2.rank)
  reducesTo_S9x2_S_d0_1 : S9x2.ReducesTo [0, 1] S_
  bcast_S_S9 : S_.BroadcastsInDim S9 (![] : Fin 0 → Fin S9.rank)
  reducesTo_S9_S_d0 : S9.ReducesTo [0] S_
  bcast_S_S18x9x9 : S_.BroadcastsInDim S18x9x9 (![] : Fin 0 → Fin S18x9x9.rank)
  reducesTo_S18x9x9_S_d0_1_2 : S18x9x9.ReducesTo [0, 1, 2] S_
  bcast_S_S18x9 : S_.BroadcastsInDim S18x9 (![] : Fin 0 → Fin S18x9.rank)
  reducesTo_S18x9_S_d0_1 : S18x9.ReducesTo [0, 1] S_
  bcast_S_S3x9 : S_.BroadcastsInDim S3x9 (![] : Fin 0 → Fin S3x9.rank)
  reducesTo_S3x9_S_d0_1 : S3x9.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S18x9 .f32) (main_arg5 : FVec F S3x9 .f32) (main_arg6 : FVec F S3 .f32) (main_v13 : IVec S_ 1) (main_v16 : IVec S18x9x9 1) : IVec S_ 1 :=
  let main_c_5 : IVec S_ 1 := constantI S_ 1 1#1
  let main_v17 : IVec S_ 1 := (fun x v => Host.reduce IntOp.andi x v reducesTo_S18x9x9_S_d0_1_2 h_S_) main_v16 main_c_5
  let main_v18 : IVec S_ 1 := andi main_v13 main_v17
  let main_v19 : FVec F S18x9 .f32 := Host.absf main_arg4
  let main_cst_6 : FVec F S_ .f32 := constant S_ .f32 0x7F800000#32
  let main_v20 : FVec F S18x9 .f32 := broadcastInDim S18x9 ![] bcast_S_S18x9 main_cst_6
  let main_v21 : IVec S18x9 1 := cmpf .olt main_v19 main_v20
  let main_c_7 : IVec S_ 1 := constantI S_ 1 1#1
  let main_v22 : IVec S_ 1 := (fun x v => Host.reduce IntOp.andi x v reducesTo_S18x9_S_d0_1 h_S_) main_v21 main_c_7
  let main_v23 : IVec S_ 1 := andi main_v18 main_v22
  let main_v24 : FVec F S3x9 .f32 := Host.absf main_arg5
  let main_cst_8 : FVec F S_ .f32 := constant S_ .f32 0x7F800000#32
  let main_v25 : FVec F S3x9 .f32 := broadcastInDim S3x9 ![] bcast_S_S3x9 main_cst_8
  let main_v26 : IVec S3x9 1 := cmpf .olt main_v24 main_v25
  let main_c_9 : IVec S_ 1 := constantI S_ 1 1#1
  let main_v27 : IVec S_ 1 := (fun x v => Host.reduce IntOp.andi x v reducesTo_S3x9_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S1x2 .f32) (main_arg1 : FVec F S9x2 .f32) (main_arg2 : FVec F S9 .f32) (main_arg3 : FVec F S18x9x9 .f32) (main_arg4 : FVec F S18x9 .f32) (main_arg5 : FVec F S3x9 .f32) (main_arg6 : FVec F S3 .f32) : IVec S_ 1 :=
  let main_v0 : FVec F S1x2 .f32 := Host.absf main_arg0
  let main_cst : FVec F S_ .f32 := constant S_ .f32 0x7F800000#32
  let main_v1 : FVec F S1x2 .f32 := broadcastInDim S1x2 ![] bcast_S_S1x2 main_cst
  let main_v2 : IVec S1x2 1 := cmpf .olt main_v0 main_v1
  let main_c : IVec S_ 1 := constantI S_ 1 1#1
  let main_v3 : IVec S_ 1 := (fun x v => Host.reduce IntOp.andi x v reducesTo_S1x2_S_d0_1 h_S_) main_v2 main_c
  let main_v4 : FVec F S9x2 .f32 := Host.absf main_arg1
  let main_cst_0 : FVec F S_ .f32 := constant S_ .f32 0x7F800000#32
  let main_v5 : FVec F S9x2 .f32 := broadcastInDim S9x2 ![] bcast_S_S9x2 main_cst_0
  let main_v6 : IVec S9x2 1 := cmpf .olt main_v4 main_v5
  let main_c_1 : IVec S_ 1 := constantI S_ 1 1#1
  let main_v7 : IVec S_ 1 := (fun x v => Host.reduce IntOp.andi x v reducesTo_S9x2_S_d0_1 h_S_) main_v6 main_c_1
  let main_v8 : IVec S_ 1 := andi main_v3 main_v7
  let main_v9 : FVec F S9 .f32 := Host.absf main_arg2
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_c_3 : IVec S_ 1 := constantI S_ 1 1#1
  let main_v12 : IVec S_ 1 := (fun x v => Host.reduce IntOp.andi x v reducesTo_S9_S_d0 h_S_) main_v11 main_c_3
  let main_v13 : IVec S_ 1 := andi main_v8 main_v12
  let main_v14 : FVec F S18x9x9 .f32 := Host.absf main_arg3
  let main_cst_4 : FVec F S_ .f32 := constant S_ .f32 0x7F800000#32
  let main_v15 : FVec F S18x9x9 .f32 := broadcastInDim S18x9x9 ![] bcast_S_S18x9x9 main_cst_4
  let main_v16 : IVec S18x9x9 1 := cmpf .olt main_v14 main_v15
  fn_part1 (F := F) main_arg4 main_arg5 main_arg6 main_v13 main_v16
-- ==== Kernel.lean ====
abbrev S1x2 : Shape := ⟨2, ![1, 2]⟩
abbrev S9x2 : Shape := ⟨2, ![9, 2]⟩
abbrev S9 : Shape := ⟨1, ![9]⟩
abbrev S18x9x9 : Shape := ⟨3, ![18, 9, 9]⟩
abbrev S18x9 : Shape := ⟨2, ![18, 9]⟩
abbrev S3x9 : Shape := ⟨2, ![3, 9]⟩
abbrev S3 : Shape := ⟨1, ![3]⟩
abbrev S2x9 : Shape := ⟨2, ![2, 9]⟩
abbrev S9x3 : Shape := ⟨2, ![9, 3]⟩
abbrev S1x9 : Shape := ⟨2, ![1, 9]⟩
abbrev S18x1x9 : Shape := ⟨3, ![18, 1, 9]⟩
abbrev S1x3 : Shape := ⟨2, ![1, 3]⟩
abbrev S1x9x9 : Shape := ⟨3, ![1, 9, 9]⟩
abbrev S9x9 : Shape := ⟨2, ![9, 9]⟩
abbrev S1x1x9 : Shape := ⟨3, ![1, 1, 9]⟩
abbrev S3x6x3x3 : Shape := ⟨4, ![3, 6, 3, 3]⟩

abbrev nBuf : Space → Nat
  | .hbm => 17
  | .vmem => 9
  | .smem => 0
  | _ => 0

abbrev bufTy : (tb : Table) → Fin (tcTables nBuf tb) → BufTy
  | .hbm, ⟨0, _⟩ => ⟨S1x2, .f32⟩
  | .hbm, ⟨1, _⟩ => ⟨S9x2, .f32⟩
  | .hbm, ⟨2, _⟩ => ⟨S9, .f32⟩
  | .hbm, ⟨3, _⟩ => ⟨S18x9x9, .f32⟩
  | .hbm, ⟨4, _⟩ => ⟨S18x9, .f32⟩
  | .hbm, ⟨5, _⟩ => ⟨S3x9, .f32⟩
  | .hbm, ⟨6, _⟩ => ⟨S3, .f32⟩
  | .hbm, ⟨7, _⟩ => ⟨S2x9, .f32⟩
  | .hbm, ⟨8, _⟩ => ⟨S18x9x9, .f32⟩
  | .hbm, ⟨9, _⟩ => ⟨S9x3, .f32⟩
  | .hbm, ⟨10, _⟩ => ⟨S1x9, .f32⟩
  | .hbm, ⟨11, _⟩ => ⟨S18x1x9, .f32⟩
  | .hbm, ⟨12, _⟩ => ⟨S1x3, .f32⟩
  | .hbm, ⟨13, _⟩ => ⟨S18x9, .f32⟩
  | .hbm, ⟨14, _⟩ => ⟨S1x3, .f32⟩
  | .hbm, ⟨15, _⟩ => ⟨S3x6x3x3, .f32⟩
  | .hbm, ⟨16, _⟩ => ⟨S3, .f32⟩
  | .local _ .vmem, ⟨0, _⟩ => ⟨S1x2, .f32⟩
  | .local _ .vmem, ⟨1, _⟩ => ⟨S2x9, .f32⟩
  | .local _ .vmem, ⟨2, _⟩ => ⟨S1x9, .f32⟩
  | .local _ .vmem, ⟨3, _⟩ => ⟨S18x9x9, .f32⟩
  | .local _ .vmem, ⟨4, _⟩ => ⟨S18x1x9, .f32⟩
  | .local _ .vmem, ⟨5, _⟩ => ⟨S9x3, .f32⟩
  | .local _ .vmem, ⟨6, _⟩ => ⟨S1x3, .f32⟩
  | .local _ .vmem, ⟨7, _⟩ => ⟨S18x9, .f32⟩
  | .local _ .vmem, ⟨8, _⟩ => ⟨S1x3, .f32⟩
  | _, _ => ⟨S1x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x9x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18x1x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

class Facts₀ : Prop where
  transposes_S9x2_S2x9_1_0 : S9x2.Transposes [1, 0] S2x9
  transposes_S18x9x9_S18x9x9_0_2_1 : S18x9x9.Transposes [0, 2, 1] S18x9x9
  transposes_S3x9_S9x3_1_0 : S3x9.Transposes [1, 0] S9x3
  shapeCasts_S9_S1x9 : S9.ShapeCasts S1x9
  shapeCasts_S18x9_S18x1x9 : S18x9.ShapeCasts S18x1x9
  shapeCasts_S3_S1x3 : S3.ShapeCasts S1x3
  inb_S1x2_S1x2_0_0 : ∀ a, (![0, 0] : Fin 2 → Nat) a + S1x2.size a ≤ S1x2.size a
  h_S1x2 : 0 < S1x2.numel
  inb_S2x9_S2x9_0_0 : ∀ a, (![0, 0] : Fin 2 → Nat) a + S2x9.size a ≤ S2x9.size a
  h_S2x9 : 0 < S2x9.numel
  shapeCasts_S2x9_S2x9 : S2x9.ShapeCasts S2x9
  inb_S1x9_S1x9_0_0 : ∀ a, (![0, 0] : Fin 2 → Nat) a + S1x9.size a ≤ S1x9.size a
  h_S1x9 : 0 < S1x9.numel
  shapeCasts_S1x9_S1x9 : S1x9.ShapeCasts S1x9
  inb_S18x9x9_S1x9x9_0_0_0 : ∀ a, (![0, 0, 0] : Fin 3 → Nat) a + S1x9x9.size a ≤ S18x9x9.size a
  h_S1x9x9 : 0 < S1x9x9.numel
  shapeCasts_S1x9x9_S9x9 : S1x9x9.ShapeCasts S9x9
  inb_S18x1x9_S1x1x9_0_0_0 : ∀ a, (![0, 0, 0] : Fin 3 → Nat) a + S1x1x9.size a ≤ S18x1x9.size a
  h_S1x1x9 : 0 < S1x1x9.numel
  shapeCasts_S1x1x9_S1x9 : S1x1x9.ShapeCasts S1x9
  shapeCasts_S1x9_S9 : S1x9.ShapeCasts S9
  inb_S18x9_S1x9_0_0 : ∀ a, (![0, 0] : Fin 2 → Nat) a + S1x9.size a ≤ S18x9.size a
  inb_S18x9x9_S1x9x9_1_0_0 : ∀ a, (![1, 0, 0] : Fin 3 → Nat) a + S1x9x9.size a ≤ S18x9x9.size a
  inb_S18x1x9_S1x1x9_1_0_0 : ∀ a, (![1, 0, 0] : Fin 3 → Nat) a + S1x1x9.size a ≤ S18x1x9.size a
  inb_S18x9_S1x9_1_0 : ∀ a, (![1, 0] : Fin 2 → Nat) a + S1x9.size a ≤ S18x9.size a
  inb_S18x9x9_S1x9x9_2_0_0 : ∀ a, (![2, 0, 0] : Fin 3 → Nat) a + S1x9x9.size a ≤ S18x9x9.size a
  inb_S18x1x9_S1x1x9_2_0_0 : ∀ a, (![2, 0, 0] : Fin 3 → Nat) a + S1x1x9.size a ≤ S18x1x9.size a
  inb_S18x9_S1x9_2_0 : ∀ a, (![2, 0] : Fin 2 → Nat) a + S1x9.size a ≤ S18x9.size a
  inb_S18x9x9_S1x9x9_3_0_0 : ∀ a, (![3, 0, 0] : Fin 3 → Nat) a + S1x9x9.size a ≤ S18x9x9.size a
  inb_S18x1x9_S1x1x9_3_0_0 : ∀ a, (![3, 0, 0] : Fin 3 → Nat) a + S1x1x9.size a ≤ S18x1x9.size a
  inb_S18x9_S1x9_3_0 : ∀ a, (![3, 0] : Fin 2 → Nat) a + S1x9.size a ≤ S18x9.size a
  inb_S18x9x9_S1x9x9_4_0_0 : ∀ a, (![4, 0, 0] : Fin 3 → Nat) a + S1x9x9.size a ≤ S18x9x9.size a
  inb_S18x1x9_S1x1x9_4_0_0 : ∀ a, (![4, 0, 0] : Fin 3 → Nat) a + S1x1x9.size a ≤ S18x1x9.size a
  inb_S18x9_S1x9_4_0 : ∀ a, (![4, 0] : Fin 2 → Nat) a + S1x9.size a ≤ S18x9.size a
  inb_S18x9x9_S1x9x9_5_0_0 : ∀ a, (![5, 0, 0] : Fin 3 → Nat) a + S1x9x9.size a ≤ S18x9x9.size a
  inb_S18x1x9_S1x1x9_5_0_0 : ∀ a, (![5, 0, 0] : Fin 3 → Nat) a + S1x1x9.size a ≤ S18x1x9.size a
  inb_S18x9_S1x9_5_0 : ∀ a, (![5, 0] : Fin 2 → Nat) a + S1x9.size a ≤ S18x9.size a
  inb_S18x9x9_S1x9x9_6_0_0 : ∀ a, (![6, 0, 0] : Fin 3 → Nat) a + S1x9x9.size a ≤ S18x9x9.size a
  inb_S18x1x9_S1x1x9_6_0_0 : ∀ a, (![6, 0, 0] : Fin 3 → Nat) a + S1x1x9.size a ≤ S18x1x9.size a
  inb_S18x9_S1x9_6_0 : ∀ a, (![6, 0] : Fin 2 → Nat) a + S1x9.size a ≤ S18x9.size a
  inb_S18x9x9_S1x9x9_7_0_0 : ∀ a, (![7, 0, 0] : Fin 3 → Nat) a + S1x9x9.size a ≤ S18x9x9.size a
  inb_S18x1x9_S1x1x9_7_0_0 : ∀ a, (![7, 0, 0] : Fin 3 → Nat) a + S1x1x9.size a ≤ S18x1x9.size a
  inb_S18x9_S1x9_7_0 : ∀ a, (![7, 0] : Fin 2 → Nat) a + S1x9.size a ≤ S18x9.size a
  inb_S18x9x9_S1x9x9_8_0_0 : ∀ a, (![8, 0, 0] : Fin 3 → Nat) a + S1x9x9.size a ≤ S18x9x9.size a
  inb_S18x1x9_S1x1x9_8_0_0 : ∀ a, (![8, 0, 0] : Fin 3 → Nat) a + S1x1x9.size a ≤ S18x1x9.size a
  inb_S18x9_S1x9_8_0 : ∀ a, (![8, 0] : Fin 2 → Nat) a + S1x9.size a ≤ S18x9.size a
  inb_S18x9x9_S1x9x9_9_0_0 : ∀ a, (![9, 0, 0] : Fin 3 → Nat) a + S1x9x9.size a ≤ S18x9x9.size a
  inb_S18x1x9_S1x1x9_9_0_0 : ∀ a, (![9, 0, 0] : Fin 3 → Nat) a + S1x1x9.size a ≤ S18x1x9.size a
  inb_S18x9_S1x9_9_0 : ∀ a, (![9, 0] : Fin 2 → Nat) a + S1x9.size a ≤ S18x9.size a
  inb_S18x9x9_S1x9x9_10_0_0 : ∀ a, (![10, 0, 0] : Fin 3 → Nat) a + S1x9x9.size a ≤ S18x9x9.size a
  inb_S18x1x9_S1x1x9_10_0_0 : ∀ a, (![10, 0, 0] : Fin 3 → Nat) a + S1x1x9.size a ≤ S18x1x9.size a
  inb_S18x9_S1x9_10_0 : ∀ a, (![10, 0] : Fin 2 → Nat) a + S1x9.size a ≤ S18x9.size a
  inb_S18x9x9_S1x9x9_11_0_0 : ∀ a, (![11, 0, 0] : Fin 3 → Nat) a + S1x9x9.size a ≤ S18x9x9.size a
  inb_S18x1x9_S1x1x9_11_0_0 : ∀ a, (![11, 0, 0] : Fin 3 → Nat) a + S1x1x9.size a ≤ S18x1x9.size a
  inb_S18x9_S1x9_11_0 : ∀ a, (![11, 0] : Fin 2 → Nat) a + S1x9.size a ≤ S18x9.size a
  inb_S18x9x9_S1x9x9_12_0_0 : ∀ a, (![12, 0, 0] : Fin 3 → Nat) a + S1x9x9.size a ≤ S18x9x9.size a
  inb_S18x1x9_S1x1x9_12_0_0 : ∀ a, (![12, 0, 0] : Fin 3 → Nat) a + S1x1x9.size a ≤ S18x1x9.size a
  inb_S18x9_S1x9_12_0 : ∀ a, (![12, 0] : Fin 2 → Nat) a + S1x9.size a ≤ S18x9.size a
  inb_S18x9x9_S1x9x9_13_0_0 : ∀ a, (![13, 0, 0] : Fin 3 → Nat) a + S1x9x9.size a ≤ S18x9x9.size a
  inb_S18x1x9_S1x1x9_13_0_0 : ∀ a, (![13, 0, 0] : Fin 3 → Nat) a + S1x1x9.size a ≤ S18x1x9.size a
  inb_S18x9_S1x9_13_0 : ∀ a, (![13, 0] : Fin 2 → Nat) a + S1x9.size a ≤ S18x9.size a
  inb_S18x9x9_S1x9x9_14_0_0 : ∀ a, (![14, 0, 0] : Fin 3 → Nat) a + S1x9x9.size a ≤ S18x9x9.size a
  inb_S18x1x9_S1x1x9_14_0_0 : ∀ a, (![14, 0, 0] : Fin 3 → Nat) a + S1x1x9.size a ≤ S18x1x9.size a
  inb_S18x9_S1x9_14_0 : ∀ a, (![14, 0] : Fin 2 → Nat) a + S1x9.size a ≤ S18x9.size a
  inb_S18x9x9_S1x9x9_15_0_0 : ∀ a, (![15, 0, 0] : Fin 3 → Nat) a + S1x9x9.size a ≤ S18x9x9.size a
  inb_S18x1x9_S1x1x9_15_0_0 : ∀ a, (![15, 0, 0] : Fin 3 → Nat) a + S1x1x9.size a ≤ S18x1x9.size a
  inb_S18x9_S1x9_15_0 : ∀ a, (![15, 0] : Fin 2 → Nat) a + S1x9.size a ≤ S18x9.size a
  inb_S18x9x9_S1x9x9_16_0_0 : ∀ a, (![16, 0, 0] : Fin 3 → Nat) a + S1x9x9.size a ≤ S18x9x9.size a
  inb_S18x1x9_S1x1x9_16_0_0 : ∀ a, (![16, 0, 0] : Fin 3 → Nat) a + S1x1x9.size a ≤ S18x1x9.size a
  inb_S18x9_S1x9_16_0 : ∀ a, (![16, 0] : Fin 2 → Nat) a + S1x9.size a ≤ S18x9.size a
  inb_S18x9x9_S1x9x9_17_0_0 : ∀ a, (![17, 0, 0] : Fin 3 → Nat) a + S1x9x9.size a ≤ S18x9x9.size a
  inb_S18x1x9_S1x1x9_17_0_0 : ∀ a, (![17, 0, 0] : Fin 3 → Nat) a + S1x1x9.size a ≤ S18x1x9.size a
  inb_S18x9_S1x9_17_0 : ∀ a, (![17, 0] : Fin 2 → Nat) a + S1x9.size a ≤ S18x9.size a
  inb_S9x3_S9x3_0_0 : ∀ a, (![0, 0] : Fin 2 → Nat) a + S9x3.size a ≤ S9x3.size a
  h_S9x3 : 0 < S9x3.numel
  shapeCasts_S9x3_S9x3 : S9x3.ShapeCasts S9x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  shapeCasts_S18x9_S3x6x3x3 : S18x9.ShapeCasts S3x6x3x3
  shapeCasts_S1x3_S3 : S1x3.ShapeCasts S3
  dot_S1x2_S2x9_S1x9_1_0_0_1_n_n_wf : DotDims.WF S1x2 S2x9 S1x9 [1] [0] [0] [1] [] []
  dot_S1x9_S9x9_S1x9_1_0_0_1_n_n_wf : DotDims.WF S1x9 S9x9 S1x9 [1] [0] [0] [1] [] []
  dot_S1x9_S9x3_S1x3_1_0_0_1_n_n_wf : DotDims.WF S1x9 S9x3 S1x3 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole

variable [Facts₀]

def dot_S1x2_S2x9_S1x9_1_0_0_1_n_n : DotDims S1x2 S2x9 S1x9 where
  lhsContracting := [1]
  rhsContracting := [0]
  lhsNonContracting := [0]
  rhsNonContracting := [1]
  lhsBatch := []
  rhsBatch := []
  wf := dot_S1x2_S2x9_S1x9_1_0_0_1_n_n_wf
def dot_S1x9_S9x9_S1x9_1_0_0_1_n_n : DotDims S1x9 S9x9 S1x9 where
  lhsContracting := [1]
  rhsContracting := [0]
  lhsNonContracting := [0]
  rhsNonContracting := [1]
  lhsBatch := []
  rhsBatch := []
  wf := dot_S1x9_S9x9_S1x9_1_0_0_1_n_n_wf
def dot_S1x9_S9x3_S1x3_1_0_0_1_n_n : DotDims S1x9 S9x3 S1x3 where
  lhsContracting := [1]
  rhsContracting := [0]
  lhsNonContracting := [0]
  rhsNonContracting := [1]
  lhsBatch := []
  rhsBatch := []
  wf := dot_S1x9_S9x3_S1x3_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v3) false false (stage0_2 0) (sem0_2 0) (Memref.isWhole_whole _) (hstage0_2 0)

abbrev win0_3 : Pipeline.Window sig grid0 :=
  Pipeline.Window.whole (Memref.whole main_v1) false false (stage0_3 0) (sem0_3 0) (Memref.isWhole_whole _) (hstage0_3 0)

abbrev win0_4 : Pipeline.Window sig grid0 :=
  Pipeline.Window.whole (Memref.whole main_v4) false false (stage0_4 0) (sem0_4 0) (Memref.isWhole_whole _) (hstage0_4 0)

abbrev win0_5 : Pipeline.Window sig grid0 :=
  Pipeline.Window.whole (Memref.whole main_v2) false false (stage0_5 0) (sem0_5 0) (Memref.isWhole_whole _) (hstage0_5 0)

abbrev win0_6 : Pipeline.Window sig grid0 :=
  Pipeline.Window.whole (Memref.whole main_v5) false false (stage0_6 0) (sem0_6 0) (Memref.isWhole_whole _) (hstage0_6 0)

abbrev win0_7 : Pipeline.Window sig grid0 :=
  Pipeline.Window.whole (Memref.whole main_v6_0) true false (stage0_7 0) (sem0_7 0) (Memref.isWhole_whole _) (hstage0_7 0)

abbrev win0_8 : Pipeline.Window sig grid0 :=
  Pipeline.Window.whole (Memref.whole main_v6_1) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1x2 : Shape := ⟨2, ![1, 2]⟩
abbrev S9x2 : Shape := ⟨2, ![9, 2]⟩
abbrev S9 : Shape := ⟨1, ![9]⟩
abbrev S18x9x9 : Shape := ⟨3, ![18, 9, 9]⟩
abbrev S18x9 : Shape := ⟨2, ![18, 9]⟩
abbrev S3x9 : Shape := ⟨2, ![3, 9]⟩
abbrev S3 : Shape := ⟨1, ![3]⟩
abbrev S2x9 : Shape := ⟨2, ![2, 9]⟩
abbrev S1x9 : Shape := ⟨2, ![1, 9]⟩
abbrev S1x9x9 : Shape := ⟨3, ![1, 9, 9]⟩
abbrev S9x9 : Shape := ⟨2, ![9, 9]⟩
abbrev S_ : Shape := ⟨0, ![]⟩
abbrev S1x144 : Shape := ⟨2, ![1, 144]⟩
abbrev S1x18 : Shape := ⟨2, ![1, 18]⟩
abbrev S1x162 : Shape := ⟨2, ![1, 162]⟩
abbrev S3x6x3x3 : Shape := ⟨4, ![3, 6, 3, 3]⟩
abbrev S9x3 : Shape := ⟨2, ![9, 3]⟩
abbrev S1x3 : Shape := ⟨2, ![1, 3]⟩

abbrev nBuf : Space → Nat
  | .hbm => 218
  | .vmem => 0
  | .smem => 0
  | _ => 0

abbrev hbmTy0_0 (i : Nat) : BufTy := match i % 128 with
  | 0 => ⟨S1x2, .f32⟩
  | 1 => ⟨S9x2, .f32⟩
  | 2 => ⟨S9, .f32⟩
  | 3 => ⟨S18x9x9, .f32⟩
  | 4 => ⟨S18x9, .f32⟩
  | 5 => ⟨S3x9, .f32⟩
  | 6 => ⟨S3, .f32⟩
  | 7 => ⟨S2x9, .f32⟩
  | 8 => ⟨S1x9, .f32⟩
  | 9 => ⟨S1x9, .f32⟩
  | 10 => ⟨S1x9, .f32⟩
  | 11 => ⟨S1x9x9, .f32⟩
  | 12 => ⟨S9x9, .f32⟩
  | 13 => ⟨S9x9, .f32⟩
  | 14 => ⟨S1x9, .f32⟩
  | 15 => ⟨S1x9, .f32⟩
  | 16 => ⟨S9, .f32⟩
  | 17 => ⟨S1x9, .f32⟩
  | 18 => ⟨S1x9, .f32⟩
  | 19 => ⟨S_, .f32⟩
  | 20 => ⟨S1x9, .f32⟩
  | 21 => ⟨S1x9, .f32⟩
  | 22 => ⟨S1x9x9, .f32⟩
  | 23 => ⟨S9x9, .f32⟩
  | 24 => ⟨S9x9, .f32⟩
  | 25 => ⟨S1x9, .f32⟩
  | 26 => ⟨S1x9, .f32⟩
  | 27 => ⟨S9, .f32⟩
  | 28 => ⟨S1x9, .f32⟩
  | 29 => ⟨S1x9, .f32⟩
  | 30 => ⟨S_, .f32⟩
  | 31 => ⟨S1x9, .f32⟩
  | 32 => ⟨S1x9, .f32⟩
  | 33 => ⟨S1x9x9, .f32⟩
  | 34 => ⟨S9x9, .f32⟩
  | 35 => ⟨S9x9, .f32⟩
  | 36 => ⟨S1x9, .f32⟩
  | 37 => ⟨S1x9, .f32⟩
  | 38 => ⟨S9, .f32⟩
  | 39 => ⟨S1x9, .f32⟩
  | 40 => ⟨S1x9, .f32⟩
  | 41 => ⟨S_, .f32⟩
  | 42 => ⟨S1x9, .f32⟩
  | 43 => ⟨S1x9, .f32⟩
  | 44 => ⟨S1x9x9, .f32⟩
  | 45 => ⟨S9x9, .f32⟩
  | 46 => ⟨S9x9, .f32⟩
  | 47 => ⟨S1x9, .f32⟩
  | 48 => ⟨S1x9, .f32⟩
  | 49 => ⟨S9, .f32⟩
  | 50 => ⟨S1x9, .f32⟩
  | 51 => ⟨S1x9, .f32⟩
  | 52 => ⟨S_, .f32⟩
  | 53 => ⟨S1x9, .f32⟩
  | 54 => ⟨S1x9, .f32⟩
  | 55 => ⟨S1x9x9, .f32⟩
  | 56 => ⟨S9x9, .f32⟩
  | 57 => ⟨S9x9, .f32⟩
  | 58 => ⟨S1x9, .f32⟩
  | 59 => ⟨S1x9, .f32⟩
  | 60 => ⟨S9, .f32⟩
  | 61 => ⟨S1x9, .f32⟩
  | 62 => ⟨S1x9, .f32⟩
  | 63 => ⟨S_, .f32⟩
  | 64 => ⟨S1x9, .f32⟩
  | 65 => ⟨S1x9, .f32⟩
  | 66 => ⟨S1x9x9, .f32⟩
  | 67 => ⟨S9x9, .f32⟩
  | 68 => ⟨S9x9, .f32⟩
  | 69 => ⟨S1x9, .f32⟩
  | 70 => ⟨S1x9, .f32⟩
  | 71 => ⟨S9, .f32⟩
  | 72 => ⟨S1x9, .f32⟩
  | 73 => ⟨S1x9, .f32⟩
  | 74 => ⟨S_, .f32⟩
  | 75 => ⟨S1x9, .f32⟩
  | 76 => ⟨S1x9, .f32⟩
  | 77 => ⟨S1x9x9, .f32⟩
  | 78 => ⟨S9x9, .f32⟩
  | 79 => ⟨S9x9, .f32⟩
  | 80 => ⟨S1x9, .f32⟩
  | 81 => ⟨S1x9, .f32⟩
  | 82 => ⟨S9, .f32⟩
  | 83 => ⟨S1x9, .f32⟩
  | 84 => ⟨S1x9, .f32⟩
  | 85 => ⟨S_, .f32⟩
  | 86 => ⟨S1x9, .f32⟩
  | 87 => ⟨S1x9, .f32⟩
  | 88 => ⟨S1x9x9, .f32⟩
  | 89 => ⟨S9x9, .f32⟩
  | 90 => ⟨S9x9, .f32⟩
  | 91 => ⟨S1x9, .f32⟩
  | 92 => ⟨S1x9, .f32⟩
  | 93 => ⟨S9, .f32⟩
  | 94 => ⟨S1x9, .f32⟩
  | 95 => ⟨S1x9, .f32⟩
  | 96 => ⟨S_, .f32⟩
  | 97 => ⟨S1x9, .f32⟩
  | 98 => ⟨S1x9, .f32⟩
  | 99 => ⟨S1x9x9, .f32⟩
  | 100 => ⟨S9x9, .f32⟩
  | 101 => ⟨S9x9, .f32⟩
  | 102 => ⟨S1x9, .f32⟩
  | 103 => ⟨S1x9, .f32⟩
  | 104 => ⟨S9, .f32⟩
  | 105 => ⟨S1x9, .f32⟩
  | 106 => ⟨S1x9, .f32⟩
  | 107 => ⟨S_, .f32⟩
  | 108 => ⟨S1x9, .f32⟩
  | 109 => ⟨S1x9, .f32⟩
  | 110 => ⟨S1x9x9, .f32⟩
  | 111 => ⟨S9x9, .f32⟩
  | 112 => ⟨S9x9, .f32⟩
  | 113 => ⟨S1x9, .f32⟩
  | 114 => ⟨S1x9, .f32⟩
  | 115 => ⟨S9, .f32⟩
  | 116 => ⟨S1x9, .f32⟩
  | 117 => ⟨S1x9, .f32⟩
  | 118 => ⟨S_, .f32⟩
  | 119 => ⟨S1x9, .f32⟩
  | 120 => ⟨S1x9, .f32⟩
  | 121 => ⟨S1x9x9, .f32⟩
  | 122 => ⟨S9x9, .f32⟩
  | 123 => ⟨S9x9, .f32⟩
  | 124 => ⟨S1x9, .f32⟩
  | 125 => ⟨S1x9, .f32⟩
  | 126 => ⟨S9, .f32⟩
  | 127 => ⟨S1x9, .f32⟩
  | _ => ⟨S1x2, .f32⟩

abbrev hbmTy0_1 (i : Nat) : BufTy := match i % 128 with
  | 0 => ⟨S1x9, .f32⟩
  | 1 => ⟨S_, .f32⟩
  | 2 => ⟨S1x9, .f32⟩
  | 3 => ⟨S1x9, .f32⟩
  | 4 => ⟨S1x9x9, .f32⟩
  | 5 => ⟨S9x9, .f32⟩
  | 6 => ⟨S9x9, .f32⟩
  | 7 => ⟨S1x9, .f32⟩
  | 8 => ⟨S1x9, .f32⟩
  | 9 => ⟨S9, .f32⟩
  | 10 => ⟨S1x9, .f32⟩
  | 11 => ⟨S1x9, .f32⟩
  | 12 => ⟨S_, .f32⟩
  | 13 => ⟨S1x9, .f32⟩
  | 14 => ⟨S1x9, .f32⟩
  | 15 => ⟨S1x9x9, .f32⟩
  | 16 => ⟨S9x9, .f32⟩
  | 17 => ⟨S9x9, .f32⟩
  | 18 => ⟨S1x9, .f32⟩
  | 19 => ⟨S1x9, .f32⟩
  | 20 => ⟨S9, .f32⟩
  | 21 => ⟨S1x9, .f32⟩
  | 22 => ⟨S1x9, .f32⟩
  | 23 => ⟨S_, .f32⟩
  | 24 => ⟨S1x9, .f32⟩
  | 25 => ⟨S1x9, .f32⟩
  | 26 => ⟨S1x9x9, .f32⟩
  | 27 => ⟨S9x9, .f32⟩
  | 28 => ⟨S9x9, .f32⟩
  | 29 => ⟨S1x9, .f32⟩
  | 30 => ⟨S1x9, .f32⟩
  | 31 => ⟨S9, .f32⟩
  | 32 => ⟨S1x9, .f32⟩
  | 33 => ⟨S1x9, .f32⟩
  | 34 => ⟨S_, .f32⟩
  | 35 => ⟨S1x9, .f32⟩
  | 36 => ⟨S1x9, .f32⟩
  | 37 => ⟨S1x9x9, .f32⟩
  | 38 => ⟨S9x9, .f32⟩
  | 39 => ⟨S9x9, .f32⟩
  | 40 => ⟨S1x9, .f32⟩
  | 41 => ⟨S1x9, .f32⟩
  | 42 => ⟨S9, .f32⟩
  | 43 => ⟨S1x9, .f32⟩
  | 44 => ⟨S1x9, .f32⟩
  | 45 => ⟨S_, .f32⟩
  | 46 => ⟨S1x9, .f32⟩
  | 47 => ⟨S1x9, .f32⟩
  | 48 => ⟨S1x9x9, .f32⟩
  | 49 => ⟨S9x9, .f32⟩
  | 50 => ⟨S9x9, .f32⟩
  | 51 => ⟨S1x9, .f32⟩
  | 52 => ⟨S1x9, .f32⟩
  | 53 => ⟨S9, .f32⟩
  | 54 => ⟨S1x9, .f32⟩
  | 55 => ⟨S1x9, .f32⟩
  | 56 => ⟨S_, .f32⟩
  | 57 => ⟨S1x9, .f32⟩
  | 58 => ⟨S1x9, .f32⟩
  | 59 => ⟨S1x9x9, .f32⟩
  | 60 => ⟨S9x9, .f32⟩
  | 61 => ⟨S9x9, .f32⟩
  | 62 => ⟨S1x9, .f32⟩
  | 63 => ⟨S1x9, .f32⟩
  | 64 => ⟨S9, .f32⟩
  | 65 => ⟨S1x9, .f32⟩
  | 66 => ⟨S1x9, .f32⟩
  | 67 => ⟨S_, .f32⟩
  | 68 => ⟨S1x9, .f32⟩
  | 69 => ⟨S1x9, .f32⟩
  | 70 => ⟨S1x9x9, .f32⟩
  | 71 => ⟨S9x9, .f32⟩
  | 72 => ⟨S9x9, .f32⟩
  | 73 => ⟨S1x9, .f32⟩
  | 74 => ⟨S1x9, .f32⟩
  | 75 => ⟨S9, .f32⟩
  | 76 => ⟨S1x9, .f32⟩
  | 77 => ⟨S1x9, .f32⟩
  | 78 => ⟨S1x144, .f32⟩
  | 79 => ⟨S1x18, .f32⟩
  | 80 => ⟨S1x162, .f32⟩
  | 81 => ⟨S3x6x3x3, .f32⟩
  | 82 => ⟨S_, .f32⟩
  | 83 => ⟨S1x9, .f32⟩
  | 84 => ⟨S1x9, .f32⟩
  | 85 => ⟨S9x3, .f32⟩
  | 86 => ⟨S1x3, .f32⟩
  | 87 => ⟨S1x3, .f32⟩
  | 88 => ⟨S1x3, .f32⟩
  | 89 => ⟨S3, .f32⟩
  | _ => ⟨S1x2, .f32⟩

abbrev hbmTy (i : Nat) : BufTy := match i / 128 with
  | 0 => hbmTy0_0 i
  | 1 => hbmTy0_1 i
  | _ => ⟨S1x2, .f32⟩

abbrev bufTy : (tb : Table) → Fin (tcTables nBuf tb) → BufTy
  | .hbm, ⟨i, _⟩ => hbmTy i
  | _, _ => ⟨S1x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call1_cst : Ref sig .tc := ⟨.hbm, 30, rfl⟩
abbrev main_call1_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call2_cst : Ref sig .tc := ⟨.hbm, 41, rfl⟩
abbrev main_call2_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call3_cst : Ref sig .tc := ⟨.hbm, 52, rfl⟩
abbrev main_call3_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call4_cst : Ref sig .tc := ⟨.hbm, 63, rfl⟩
abbrev main_call4_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call5_cst : Ref sig .tc := ⟨.hbm, 74, rfl⟩
abbrev main_call5_v0 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call6_cst : Ref sig .tc := ⟨.hbm, 85, rfl⟩
abbrev main_call6_v0 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call7_cst : Ref sig .tc := ⟨.hbm, 96, rfl⟩
abbrev main_call7_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_call8_cst : Ref sig .tc := ⟨.hbm, 107, rfl⟩
abbrev main_call8_v0 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_call9_cst : Ref sig .tc := ⟨.hbm, 118, rfl⟩
abbrev main_call9_v0 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_call10_cst : Ref sig .tc := ⟨.hbm, 129, rfl⟩
abbrev main_call10_v0 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_call11_cst : Ref sig .tc := ⟨.hbm, 140, rfl⟩
abbrev main_call11_v0 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_call12_cst : Ref sig .tc := ⟨.hbm, 151, rfl⟩
abbrev main_call12_v0 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_call13_cst : Ref sig .tc := ⟨.hbm, 162, rfl⟩
abbrev main_call13_v0 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_call14_cst : Ref sig .tc := ⟨.hbm, 173, rfl⟩
abbrev main_call14_v0 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_call15_cst : Ref sig .tc := ⟨.hbm, 184, rfl⟩
abbrev main_call15_v0 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_call16_cst : Ref sig .tc := ⟨.hbm, 195, rfl⟩
abbrev main_call16_v0 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_call17_cst : Ref sig .tc := ⟨.hbm, 210, rfl⟩
abbrev main_call17_v0 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩

abbrev nD : Nat := 1
abbrev τ : Topo := Topo.v7x

variable {F : FTy → Type} [FloatOps F]

class Facts₀ : Prop where
  transposes_S9x2_S2x9_1_0 : S9x2.Transposes [1, 0] S2x9
  bcast_S9_S1x9_1 : S9.BroadcastsInDim S1x9 (![1] : Fin 1 → Fin S1x9.rank)
  slices_S18x9x9_S1x9x9_0_0_0 : S18x9x9.Slices ![0, 0, 0] S1x9x9
  shapeCasts_S1x9x9_S9x9 : S1x9x9.ShapeCasts S9x9
  transposes_S9x9_S9x9_1_0 : S9x9.Transposes [1, 0] S9x9
  slices_S18x9_S1x9_0_0 : S18x9.Slices ![0, 0] S1x9
  shapeCasts_S1x9_S9 : S1x9.ShapeCasts S9
  bcast_S_S1x9 : S_.BroadcastsInDim S1x9 (![] : Fin 0 → Fin S1x9.rank)
  slices_S18x9x9_S1x9x9_1_0_0 : S18x9x9.Slices ![1, 0, 0] S1x9x9
  slices_S18x9_S1x9_1_0 : S18x9.Slices ![1, 0] S1x9
  slices_S18x9x9_S1x9x9_2_0_0 : S18x9x9.Slices ![2, 0, 0] S1x9x9
  slices_S18x9_S1x9_2_0 : S18x9.Slices ![2, 0] S1x9
  slices_S18x9x9_S1x9x9_3_0_0 : S18x9x9.Slices ![3, 0, 0] S1x9x9
  slices_S18x9_S1x9_3_0 : S18x9.Slices ![3, 0] S1x9
  slices_S18x9x9_S1x9x9_4_0_0 : S18x9x9.Slices ![4, 0, 0] S1x9x9
  slices_S18x9_S1x9_4_0 : S18x9.Slices ![4, 0] S1x9
  slices_S18x9x9_S1x9x9_5_0_0 : S18x9x9.Slices ![5, 0, 0] S1x9x9
  slices_S18x9_S1x9_5_0 : S18x9.Slices ![5, 0] S1x9
  slices_S18x9x9_S1x9x9_6_0_0 : S18x9x9.Slices ![6, 0, 0] S1x9x9
  slices_S18x9_S1x9_6_0 : S18x9.Slices ![6, 0] S1x9
  slices_S18x9x9_S1x9x9_7_0_0 : S18x9x9.Slices ![7, 0, 0] S1x9x9
  slices_S18x9_S1x9_7_0 : S18x9.Slices ![7, 0] S1x9
  slices_S18x9x9_S1x9x9_8_0_0 : S18x9x9.Slices ![8, 0, 0] S1x9x9
  slices_S18x9_S1x9_8_0 : S18x9.Slices ![8, 0] S1x9
  slices_S18x9x9_S1x9x9_9_0_0 : S18x9x9.Slices ![9, 0, 0] S1x9x9
  slices_S18x9_S1x9_9_0 : S18x9.Slices ![9, 0] S1x9
  slices_S18x9x9_S1x9x9_10_0_0 : S18x9x9.Slices ![10, 0, 0] S1x9x9
  slices_S18x9_S1x9_10_0 : S18x9.Slices ![10, 0] S1x9
  slices_S18x9x9_S1x9x9_11_0_0 : S18x9x9.Slices ![11, 0, 0] S1x9x9
  slices_S18x9_S1x9_11_0 : S18x9.Slices ![11, 0] S1x9
  slices_S18x9x9_S1x9x9_12_0_0 : S18x9x9.Slices ![12, 0, 0] S1x9x9
  slices_S18x9_S1x9_12_0 : S18x9.Slices ![12, 0] S1x9
  slices_S18x9x9_S1x9x9_13_0_0 : S18x9x9.Slices ![13, 0, 0] S1x9x9
  slices_S18x9_S1x9_13_0 : S18x9.Slices ![13, 0] S1x9
  slices_S18x9x9_S1x9x9_14_0_0 : S18x9x9.Slices ![14, 0, 0] S1x9x9
  slices_S18x9_S1x9_14_0 : S18x9.Slices ![14, 0] S1x9
  slices_S18x9x9_S1x9x9_15_0_0 : S18x9x9.Slices ![15, 0, 0] S1x9x9
  slices_S18x9_S1x9_15_0 : S18x9.Slices ![15, 0] S1x9
  slices_S18x9x9_S1x9x9_16_0_0 : S18x9x9.Slices ![16, 0, 0] S1x9x9
  slices_S18x9_S1x9_16_0 : S18x9.Slices ![16, 0] S1x9
  slices_S18x9x9_S1x9x9_17_0_0 : S18x9x9.Slices ![17, 0, 0] S1x9x9
  slices_S18x9_S1x9_17_0 : S18x9.Slices ![17, 0] S1x9
  concatenates_S1x9_S1x9_S1x9_S1x9_S1x9_S1x9_S1x9_S1x9_S1x9_S1x9_S1x9_S1x9_S1x9_S1x9_S1x9_S1x9_S1x144_d1 : Shape.Concatenates [S1x9, S1x9, S1x9, S1x9, S1x9, S1x9, S1x9, S1x9, S1x9, S1x9, S1x9, S1x9, S1x9, S1x9, S1x9, S1x9] S1x144 1
  concatenates_S1x9_S1x9_S1x18_d1 : Shape.Concatenates [S1x9, S1x9] S1x18 1
  concatenates_S1x144_S1x18_S1x162_d1 : Shape.Concatenates [S1x144, S1x18] S1x162 1
  shapeCasts_S1x162_S3x6x3x3 : S1x162.ShapeCasts S3x6x3x3
  transposes_S3x9_S9x3_1_0 : S3x9.Transposes [1, 0] S9x3
  bcast_S3_S1x3_1 : S3.BroadcastsInDim S1x3 (![1] : Fin 1 → Fin S1x3.rank)
  shapeCasts_S1x3_S3 : S1x3.ShapeCasts S3
  dot_S1x2_S2x9_S1x9_1_0_0_1_n_n_wf : DotDims.WF S1x2 S2x9 S1x9 [1] [0] [0] [1] [] []
  dot_S1x9_S9x9_S1x9_1_0_0_1_n_n_wf : DotDims.WF S1x9 S9x9 S1x9 [1] [0] [0] [1] [] []
  dot_S1x9_S9x3_S1x3_1_0_0_1_n_n_wf : DotDims.WF S1x9 S9x3 S1x3 [1] [0] [0] [1] [] []

variable [Facts₀]

def dot_S1x2_S2x9_S1x9_1_0_0_1_n_n : DotDims S1x2 S2x9 S1x9 where
  lhsContracting := [1]
  rhsContracting := [0]
  lhsNonContracting := [0]
  rhsNonContracting := [1]
  lhsBatch := []
  rhsBatch := []
  wf := dot_S1x2_S2x9_S1x9_1_0_0_1_n_n_wf
def dot_S1x9_S9x9_S1x9_1_0_0_1_n_n : DotDims S1x9 S9x9 S1x9 where
  lhsContracting := [1]
  rhsContracting := [0]
  lhsNonContracting := [0]
  rhsNonContracting := [1]
  lhsBatch := []
  rhsBatch := []
  wf := dot_S1x9_S9x9_S1x9_1_0_0_1_n_n_wf
def dot_S1x9_S9x3_S1x3_1_0_0_1_n_n : DotDims S1x9 S9x3 S1x3 where
  lhsContracting := [1]
  rhsContracting := [0]
  lhsNonContracting := [0]
  rhsNonContracting := [1]
  lhsBatch := []
  rhsBatch := []
  wf := dot_S1x9_S9x3_S1x3_1_0_0_1_n_n_wf

class Facts : Prop extends Facts₀ where

variable [Facts]
-- ==== Proof.KHost.lean ====
/-
  What the kernel's seven input windows hold when the region is entered.

  Before the call the program transposes the three weight arrays and adds a unit axis to the three bias vectors:
  window 1 is W0 with its axes swapped, window 3 is Ws with its last two axes swapped, window 5 is Wb with its
  axes swapped; windows 2, 4 and 6 are b0, bs and bb with a unit axis inserted; window 0 is the input row itself.
  Each is read here at an index, in the argument arrays' own coordinates.
-/
import proofs.«180207_j90924457656423_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Window 1's array: W0 with its two axes swapped. -/
theorem V_v0_apply (c : Dev nD) (k : Fin 2) (j : Fin 9) :
    V m c main_v0 (ix2 k j) = m ((c : Thread nD τ).loc main_arg1) (ix2 j k) := by
  have e : (V m c main_v0 : S2x9.Idx → Elt Ideal .f32)
      = transpose S2x9 [1, 0] (m ((c : Thread nD τ).loc main_arg1)) transposes_S9x2_S2x9_1_0 := by
    show StableHlo.after hostOps0 (fun b => m (c, b)) (Proc.devRef .tc main_v0) = _
    after_results
  rw [e]
  exact transpose_apply [1, 0] _ _ (ix2 k j) (ix2 j k) (fun b => match b with
    | ⟨0, _⟩ => rfl
    | ⟨1, _⟩ => rfl)

/-- Window 3's array: Ws with its last two axes swapped. -/
theorem V_v1_apply (c : Dev nD) (i : Fin 18) (k j : Fin 9) :
    V m c main_v1 (ix3 i k j) = m ((c : Thread nD τ).loc main_arg3) (ix3 i j k) := by
  have e : (V m c main_v1 : S18x9x9.Idx → Elt Ideal .f32)
      = transpose S18x9x9 [0, 2, 1] (m ((c : Thread nD τ).loc main_arg3)) transposes_S18x9x9_S18x9x9_0_2_1 := by
    show StableHlo.after hostOps0 (fun b => m (c, b)) (Proc.devRef .tc main_v1) = _
    after_results
  rw [e]
  exact transpose_apply [0, 2, 1] _ _ (ix3 i k j) (ix3 i j k) (fun b => match b with
    | ⟨0, _⟩ => rfl
    | ⟨1, _⟩ => rfl
    | ⟨2, _⟩ => rfl)

/-- Window 5's array: Wb with its two axes swapped. -/
theorem V_v2_apply (c : Dev nD) (k : Fin 9) (j : Fin 3) :
    V m c main_v2 (ix2 k j) = m ((c : Thread nD τ).loc main_arg5) (ix2 j k) := by
  have e : (V m c main_v2 : S9x3.Idx → Elt Ideal .f32)
      = transpose S9x3 [1, 0] (m ((c : Thread nD τ).loc main_arg5)) transposes_S3x9_S9x3_1_0 := by
    show StableHlo.after hostOps0 (fun b => m (c, b)) (Proc.devRef .tc main_v2) = _
    after_results
  rw [e]
  exact transpose_apply [1, 0] _ _ (ix2 k j) (ix2 j k) (fun b => match b with
    | ⟨0, _⟩ => rfl
    | ⟨1, _⟩ => rfl)

/-- Window 2's array: b0 as one row. -/
theorem V_v3_apply (c : Dev nD) (j : Fin 9) :
    V m c main_v3 (ix2 (0 : Fin 1) j) = m ((c : Thread nD τ).loc main_arg2) (ix1 j) := by
  have e : (V m c main_v3 : S1x9.Idx → Elt Ideal .f32)
      = shapeCast S1x9 (m ((c : Thread nD τ).loc main_arg2)) shapeCasts_S9_S1x9 := by
    show StableHlo.after hostOps0 (fun b => m (c, b)) (Proc.devRef .tc main_v3) = _
    after_results
    try rfl
  rw [e]
  exact shapeCast_apply _ shapeCasts_S9_S1x9 (ix2 (0 : Fin 1) j) (ix1 j)
    (by rewrite [Shape.rowMajor_val_one, Shape.rowMajor_val_two]; show j.val = 0 * 9 + j.val; omega)

/-- Window 4's array: bs with a unit axis between its two. -/
theorem V_v4_apply (c : Dev nD) (i : Fin 18) (j : Fin 9) :
    V m c main_v4 (ix3 i (0 : Fin 1) j) = m ((c : Thread nD τ).loc main_arg4) (ix2 i j) := by
  have e : (V m c main_v4 : S18x1x9.Idx → Elt Ideal .f32)
      = shapeCast S18x1x9 (m ((c : Thread nD τ).loc main_arg4)) shapeCasts_S18x9_S18x1x9 := by
    show StableHlo.after hostOps0 (fun b => m (c, b)) (Proc.devRef .tc main_v4) = _
    after_results
    try rfl
  rw [e]
  exact shapeCast_apply _ shapeCasts_S18x9_S18x1x9 (ix3 i (0 : Fin 1) j) (ix2 i j)
    (by rewrite [Shape.rowMajor_val_two, Shape.rowMajor_val_three]; show i.val * 9 + j.val = (i.val * 1 + 0) * 9 + j.val; omega)

/-- Window 6's array: bb as one row. -/
theorem V_v5_apply (c : Dev nD) (j : Fin 3) :
    V m c main_v5 (ix2 (0 : Fin 1) j) = m ((c : Thread nD τ).loc main_arg6) (ix1 j) := by
  have e : (V m c main_v5 : S1x3.Idx → Elt Ideal .f32)
      = shapeCast S1x3 (m ((c : Thread nD τ).loc main_arg6)) shapeCasts_S3_S1x3 := by
    show StableHlo.after hostOps0 (fun b => m (c, b)) (Proc.devRef .tc main_v5) = _
    after_results
    try rfl
  rw [e]
  exact shapeCast_apply _ shapeCasts_S3_S1x3 (ix2 (0 : Fin 1) j) (ix1 j)
    (by rewrite [Shape.rowMajor_val_one, Shape.rowMajor_val_two]; show j.val = 0 * 3 + j.val; omega)

end Cert.KernelIdeal.Host

end
-- ==== Proof.KBlocks.lean ====
/-
  From the body's result to the two output arrays.

  The call has no grid: one point, and every window's block is its whole array. So an input block read at an
  index is the window's array at the same index, and what the one point writes back to an output window is the
  whole output array. Hence, if the body's result for an output window agrees index by index with a function G
  of the buffer index, the array ends holding G.
-/
import proofs.«180207_j90924457656423_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## An input block is its array -/

theorem iblk0_apply (c : Dev nD) (t : Fin cfg0.N) (k : Fin 2) :
    (iblk m c 0 t : Vec Ideal S1x2 .f32) (ix2 (0 : Fin 1) k) = V m c main_arg0 (ix2 (0 : Fin 1) k) := by
  show V m c main_arg0 (((cfg0.win 0).blk t).view.emb (ix2 (0 : Fin 1) k)) = _
  refine congrArg (V m c main_arg0) (funext fun a => Fin.ext ?_)
  match a with
  | ⟨0, _⟩ => show 0 * 1 + 1 * 0 = 0; omega
  | ⟨1, _⟩ => show 0 * 2 + 1 * k.val = k.val; omega

theorem iblk1_apply (c : Dev nD) (t : Fin cfg0.N) (k : Fin 2) (j : Fin 9) :
    (iblk m c 1 t : Vec Ideal S2x9 .f32) (ix2 k j) = V m c main_v0 (ix2 k j) := by
  show V m c main_v0 (((cfg0.win 1).blk t).view.emb (ix2 k j)) = _
  refine congrArg (V m c main_v0) (funext fun a => Fin.ext ?_)
  match a with
  | ⟨0, _⟩ => show 0 * 2 + 1 * k.val = k.val; omega
  | ⟨1, _⟩ => show 0 * 9 + 1 * j.val = j.val; omega

theorem iblk2_apply (c : Dev nD) (t : Fin cfg0.N) (j : Fin 9) :
    (iblk m c 2 t : Vec Ideal S1x9 .f32) (ix2 (0 : Fin 1) j) = V m c main_v3 (ix2 (0 : Fin 1) j) := by
  show V m c main_v3 (((cfg0.win 2).blk t).view.emb (ix2 (0 : Fin 1) j)) = _
  refine congrArg (V m c main_v3) (funext fun a => Fin.ext ?_)
  match a with
  | ⟨0, _⟩ => show 0 * 1 + 1 * 0 = 0; omega
  | ⟨1, _⟩ => show 0 * 9 + 1 * j.val = j.val; omega

theorem iblk3_apply (c : Dev nD) (t : Fin cfg0.N) (i : Fin 18) (k j : Fin 9) :
    (iblk m c 3 t : Vec Ideal S18x9x9 .f32) (ix3 i k j) = V m c main_v1 (ix3 i k j) := by
  show V m c main_v1 (((cfg0.win 3).blk t).view.emb (ix3 i k j)) = _
  refine congrArg (V m c main_v1) (funext fun a => Fin.ext ?_)
  match a with
  | ⟨0, _⟩ => show 0 * 18 + 1 * i.val = i.val; omega
  | ⟨1, _⟩ => show 0 * 9 + 1 * k.val = k.val; omega
  | ⟨2, _⟩ => show 0 * 9 + 1 * j.val = j.val; omega

theorem iblk4_apply (c : Dev nD) (t : Fin cfg0.N) (i : Fin 18) (j : Fin 9) :
    (iblk m c 4 t : Vec Ideal S18x1x9 .f32) (ix3 i (0 : Fin 1) j) = V m c main_v4 (ix3 i (0 : Fin 1) j) := by
  show V m c main_v4 (((cfg0.win 4).blk t).view.emb (ix3 i (0 : Fin 1) j)) = _
  refine congrArg (V m c main_v4) (funext fun a => Fin.ext ?_)
  match a with
  | ⟨0, _⟩ => show 0 * 18 + 1 * i.val = i.val; omega
  | ⟨1, _⟩ => show 0 * 1 + 1 * 0 = 0; omega
  | ⟨2, _⟩ => show 0 * 9 + 1 * j.val = j.val; omega

theorem iblk5_apply (c : Dev nD) (t : Fin cfg0.N) (k : Fin 9) (j : Fin 3) :
    (iblk m c 5 t : Vec Ideal S9x3 .f32) (ix2 k j) = V m c main_v2 (ix2 k j) := by
  show V m c main_v2 (((cfg0.win 5).blk t).view.emb (ix2 k j)) = _
  refine congrArg (V m c main_v2) (funext fun a => Fin.ext ?_)
  match a with
  | ⟨0, _⟩ => show 0 * 9 + 1 * k.val = k.val; omega
  | ⟨1, _⟩ => show 0 * 3 + 1 * j.val = j.val; omega

theorem iblk6_apply (c : Dev nD) (t : Fin cfg0.N) (j : Fin 3) :
    (iblk m c 6 t : Vec Ideal S1x3 .f32) (ix2 (0 : Fin 1) j) = V m c main_v5 (ix2 (0 : Fin 1) j) := by
  show V m c main_v5 (((cfg0.win 6).blk t).view.emb (ix2 (0 : Fin 1) j)) = _
  refine congrArg (V m c main_v5) (funext fun a => Fin.ext ?_)
  match a with
  | ⟨0, _⟩ => show 0 * 1 + 1 * 0 = 0; omega
  | ⟨1, _⟩ => show 0 * 3 + 1 * j.val = j.val; omega

/-! ## An output array after the run -/

/-- The [18,9] output array ends at any function `G` the body's result agrees with index by index. -/
theorem final7 (c : Dev nD) (G : S18x9.Idx → Elt Ideal .f32)
    (hG : ∀ (t : Fin cfg0.N) (r : Fin 18) (q : Fin 9),
      out0_7 (iblk m c 0 t) (iblk m c 1 t) (iblk m c 2 t) (iblk m c 3 t) (iblk m c 4 t) (iblk m c 5 t) (iblk m c 6 t) (ix2 r q)
        = G (ix2 r q)) :
    (dats m 0 c).arrAt 7 cfg0.N = G := by
  refine (dats m 0 c).arrAt_eq_of_cover 7 G (fun t _ => ?_) (fun i => ?_)
  · show (cfg0.win 7).cut (grid0.coords t) ((dats m 0 c).after 7 t) = _
    rw [after0_7]
    funext y
    have hy0 : (y 0).val < 18 := (y 0).isLt
    have hy1 : (y 1).val < 9 := (y 1).isLt
    have e1 : (cfg0.win 7).xinj (grid0.coords t) y = ix2 (⟨(y 0).val, hy0⟩ : Fin 18) (⟨(y 1).val, hy1⟩ : Fin 9) :=
      funext fun a => Fin.ext (by
        match a with
        | ⟨0, _⟩ => rfl
        | ⟨1, _⟩ => rfl)
    have e2 : ((cfg0.win 7).blk t).view.emb y = ix2 (⟨(y 0).val, hy0⟩ : Fin 18) (⟨(y 1).val, hy1⟩ : Fin 9) :=
      funext fun a => Fin.ext (by
        match a with
        | ⟨0, _⟩ => show 0 * 18 + 1 * (y 0).val = (y 0).val; omega
        | ⟨1, _⟩ => show 0 * 9 + 1 * (y 1).val = (y 1).val; omega)
    show out0_7 (iblk m c 0 t) (iblk m c 1 t) (iblk m c 2 t) (iblk m c 3 t) (iblk m c 4 t) (iblk m c 5 t) (iblk m c 6 t)
        ((cfg0.win 7).xinj (grid0.coords t) y) = G (((cfg0.win 7).blk t).view.emb y)
    rw [e1, e2]
    exact hG t _ _
  · refine ⟨t0_0, flush0_7 t0_0, ?_⟩
    show i ∈ ((View.whole main_v6_0).slice (win0_7.rect t0_0)).set
    rw [View.set_slice_whole, Rect.mem_set_unit]
    intro a
    match a with
    | ⟨0, _⟩ => exact ⟨by show 0 * 18 ≤ (i 0).val; omega, by have h : (i 0).val < 18 := (i 0).isLt; show (i 0).val < 0 * 18 + 18; omega⟩
    | ⟨1, _⟩ => exact ⟨by show 0 * 9 ≤ (i 1).val; omega, by have h : (i 1).val < 9 := (i 1).isLt; show (i 1).val < 0 * 9 + 9; omega⟩

/-- The [1,3] output array ends at any function `G` the body's result agrees with index by index. -/
theorem final8 (c : Dev nD) (G : S1x3.Idx → Elt Ideal .f32)
    (hG : ∀ (t : Fin cfg0.N) (q : Fin 3),
      out0_8 (iblk m c 0 t) (iblk m c 1 t) (iblk m c 2 t) (iblk m c 3 t) (iblk m c 4 t) (iblk m c 5 t) (iblk m c 6 t) (ix2 (0 : Fin 1) q)
        = G (ix2 (0 : Fin 1) q)) :
    (dats m 0 c).arrAt 8 cfg0.N = G := by
  refine (dats m 0 c).arrAt_eq_of_cover 8 G (fun t _ => ?_) (fun i => ?_)
  · show (cfg0.win 8).cut (grid0.coords t) ((dats m 0 c).after 8 t) = _
    rw [after0_8]
    funext y
    have hy0 : (y 0).val < 1 := (y 0).isLt
    have hy1 : (y 1).val < 3 := (y 1).isLt
    have e1 : (cfg0.win 8).xinj (grid0.coords t) y = ix2 (0 : Fin 1) (⟨(y 1).val, hy1⟩ : Fin 3) :=
      funext fun a => Fin.ext (by
        match a with
        | ⟨0, _⟩ => show (y 0).val = 0; omega
        | ⟨1, _⟩ => rfl)
    have e2 : ((cfg0.win 8).blk t).view.emb y = ix2 (0 : Fin 1) (⟨(y 1).val, hy1⟩ : Fin 3) :=
      funext fun a => Fin.ext (by
        match a with
        | ⟨0, _⟩ => show 0 * 1 + 1 * (y 0).val = 0; omega
        | ⟨1, _⟩ => show 0 * 3 + 1 * (y 1).val = (y 1).val; omega)
    show out0_8 (iblk m c 0 t) (iblk m c 1 t) (iblk m c 2 t) (iblk m c 3 t) (iblk m c 4 t) (iblk m c 5 t) (iblk m c 6 t)
        ((cfg0.win 8).xinj (grid0.coords t) y) = G (((cfg0.win 8).blk t).view.emb y)
    rw [e1, e2]
    exact hG t _
  · refine ⟨t0_0, flush0_8 t0_0, ?_⟩
    show i ∈ ((View.whole main_v6_1).slice (win0_8.rect t0_0)).set
    rw [View.set_slice_whole, Rect.mem_set_unit]
    intro a
    match a with
    | ⟨0, _⟩ => exact ⟨by show 0 * 1 ≤ (i 0).val; omega, by have h : (i 0).val < 1 := (i 0).isLt; show (i 0).val < 0 * 1 + 1; omega⟩
    | ⟨1, _⟩ => exact ⟨by show 0 * 3 ≤ (i 1).val; omega, by have h : (i 1).val < 3 := (i 1).isLt; show (i 1).val < 0 * 3 + 3; omega⟩

end Cert.KernelIdeal.Blocks

end
-- ==== Proof.KRun.lean ====
/-
  The idealized kernel's run, with both results named.

  After the region the program only reshapes: the [18,9] table to [3,6,3,3] and the [1,3] row to [3]. So each
  result is the reshape of the corresponding output array, and the output arrays are what the one grid point
  wrote back (KBlocks). Reading the reshapes at an index: entry (a,b,c,e) of the first result is entry
  (6a+b, 3c+e) of the table (both are position 54a+9b+3c+e in row-major order), and entry j of the second is
  entry (0,j) of the row. The arguments end as they were launched.
-/
import proofs.«180207_j90924457656423_2_alg».proof.Proof.KBlocks
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

/-! ## The two reshapes read at an index -/

/-- The [18,9] table reshaped to [3,6,3,3]: entry (a,b,c,e) is the table's entry (6a+b, 3c+e). -/
theorem cast_table {α : Type} (G : S18x9.Idx → α) (h : S18x9.ShapeCasts S3x6x3x3) (i : S3x6x3x3.Idx) :
    shapeCast S3x6x3x3 G h i
      = G (ix2 (⟨6 * (i 0).val + (i 1).val, by
              have h0 : (i 0).val < 3 := (i 0).isLt
              have h1 : (i 1).val < 6 := (i 1).isLt
              omega⟩ : Fin 18)
            (⟨3 * (i 2).val + (i 3).val, by
              have h2 : (i 2).val < 3 := (i 2).isLt
              have h3 : (i 3).val < 3 := (i 3).isLt
              omega⟩ : Fin 9)) :=
  shapeCast_apply G h i _ (by
    rewrite [Shape.rowMajor_val_two, Shape.rowMajor_val_four]
    show (6 * (i 0).val + (i 1).val) * 9 + (3 * (i 2).val + (i 3).val)
      = (((i 0).val * 6 + (i 1).val) * 3 + (i 2).val) * 3 + (i 3).val
    omega)

/-- The [1,3] row reshaped to [3]: entry j is the row's entry (0,j). -/
theorem cast_row {α : Type} (G : S1x3.Idx → α) (h : S1x3.ShapeCasts S3) (i : S3.Idx) :
    shapeCast S3 G h i = G (ix2 (0 : Fin 1) (i 0)) :=
  shapeCast_apply G h i _ (by
    rewrite [Shape.rowMajor_val_two, Shape.rowMajor_val_one]
    show 0 * 3 + (i 0).val = (i 0).val
    omega)

variable (m : (ℓ : Loc nD τ sig) → Buf (Elt Ideal) ℓ) (ρ : Dev nD → PrngReg)

/-! ## The lines after the region -/

/-- The first result is the [18,9] output array reshaped to [3,6,3,3]. -/
theorem tail7 (c : Dev nD) :
    Pipeline.afterTail₀ cfgs (dats m) 0 (V0 m) [hostOps1] c main_v7
      = shapeCast S3x6x3x3 ((dats m 0 c).arrAt 7 cfg0.N) shapeCasts_S18x9_S3x6x3x3 := by
  unfold Pipeline.afterTail₀
  show StableHlo.after hostOps1 _ (Proc.devRef .tc main_v7) = _
  after_results
  rw [Pipeline.withArrays_arr spec0 launch0.win.arr_inj c _ _ 7]
  try rfl

/-- The second result is the [1,3] output array reshaped to [3]. -/
theorem tail8 (c : Dev nD) :
    Pipeline.afterTail₀ cfgs (dats m) 0 (V0 m) [hostOps1] c main_v8
      = shapeCast S3 ((dats m 0 c).arrAt 8 cfg0.N) shapeCasts_S1x3_S3 := by
  unfold Pipeline.afterTail₀
  show StableHlo.after hostOps1 _ (Proc.devRef .tc main_v8) = _
  after_results
  rw [Pipeline.withArrays_arr spec0 launch0.win.arr_inj c _ _ 8]
  try rfl

/-! ## The run -/

/-- Every weakly fair execution of the idealized kernel terminates with the first result the reshape of `G7`
    and the second the reshape of `G8`, for any functions the body's two results agree with index by index,
    and with the arguments unchanged. -/
theorem run (G7 : Dev nD → S18x9.Idx → Elt Ideal .f32) (G8 : Dev nD → S1x3.Idx → Elt Ideal .f32)
    (hG7 : ∀ (c : Dev nD) (t : Fin cfg0.N) (r : Fin 18) (q : Fin 9),
      out0_7 (iblk m c 0 t) (iblk m c 1 t) (iblk m c 2 t) (iblk m c 3 t) (iblk m c 4 t) (iblk m c 5 t) (iblk m c 6 t) (ix2 r q)
        = G7 c (ix2 r q))
    (hG8 : ∀ (c : Dev nD) (t : Fin cfg0.N) (q : Fin 3),
      out0_8 (iblk m c 0 t) (iblk m c 1 t) (iblk m c 2 t) (iblk m c 3 t) (iblk m c 4 t) (iblk m c 5 t) (iblk m c 6 t) (ix2 (0 : Fin 1) q)
        = G8 c (ix2 (0 : Fin 1) q)) :
    θ_run defs (onTc (τ := τ) (main (F := Ideal))) ⟨m, fun _ => 0, ρ⟩ (fun r => ∀ c : Dev nD,
      r.2.mem ((c.tc : Thread nD τ).loc main_v7) = shapeCast S3x6x3x3 (G7 c) shapeCasts_S18x9_S3x6x3x3
      ∧ r.2.mem ((c.tc : Thread nD τ).loc main_v8) = shapeCast S3 (G8 c) shapeCasts_S1x3_S3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v7 (Pipeline.mem_restRefs_of main_v7 (by decide) (by decide))).trans
        ((tail7 m c).trans (by rw [Blocks.final7 m c (G7 c) (hG7 c)])),
      ((h c).2 main_v8 (Pipeline.mem_restRefs_of main_v8 (by decide) (by decide))).trans
        ((tail8 m c).trans (by rw [Blocks.final8 m c (G8 c) (hG8 c)])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.Spec.lean ====
/-
  The function both programs compute, stated once over the seven argument arrays.

  A chain of nineteen affine layers on a row vector of nine lanes. The first, `fc0`, maps the two input lanes
  to nine: lane j is Σ_k d[0,k]·W0[j,k] + b0[j]. Layer i of the eighteen that follow maps nine lanes to nine:
  lane j is Σ_k h[k]·Ws[i,j,k] + bs[i,j], where h is the previous layer's output, passed through max(·,0) for
  every layer but the first. `act n` is the output of layer n (n = 0 … 17). The first result stacks the
  eighteen outputs as rows of an [18,9] table and lays it out row-major as [3,6,3,3]; the second is one more
  affine map of max(act 17, 0) to three lanes.
  Everything is over the extended reals; no law beyond the definitions is used, since both programs form the
  same sums of the same products in the same order.
-/
import Idealize.ShloMosaic.PureOps.Ideal
import Idealize.ShloMosaic.Lib.ValueIdx

noncomputable section

namespace Cert.Mlp

open Idealize.ShloMosaic Idealize.ShloMosaic.ValueIdx

abbrev ShD : Shape := ⟨2, ![1, 2]⟩
abbrev ShW0 : Shape := ⟨2, ![9, 2]⟩
abbrev ShB0 : Shape := ⟨1, ![9]⟩
abbrev ShWs : Shape := ⟨3, ![18, 9, 9]⟩
abbrev ShBs : Shape := ⟨2, ![18, 9]⟩
abbrev ShWb : Shape := ⟨2, ![3, 9]⟩
abbrev ShBb : Shape := ⟨1, ![3]⟩
abbrev ShOut : Shape := ⟨4, ![3, 6, 3, 3]⟩

/-- Layer number `n` as an index of the stacked weights (`n < 18` wherever it is used). -/
abbrev layer (n : Nat) : Fin 18 := ⟨n % 18, Nat.mod_lt n (by decide)⟩

/-- max(·, 0) lane by lane; the zero is the float word of +0.0, the same word in both programs. -/
def relu (h : Fin 9 → EReal) : Fin 9 → EReal := fun k => max (h k) (Ideal.ofBits .f32 0x00000000#32)

/-- The first affine map: two lanes to nine. -/
def fc0 (d : ShD.Idx → EReal) (W0 : ShW0.Idx → EReal) (b0 : ShB0.Idx → EReal) : Fin 9 → EReal :=
  fun j => (∑ k : Fin 2, d (ix2 0 k) * W0 (ix2 j k)) + b0 (ix1 j)

/-- One of the eighteen stacked affine maps: nine lanes to nine, with slice `i` of the weights and biases. -/
def dense (Ws : ShWs.Idx → EReal) (bs : ShBs.Idx → EReal) (i : Fin 18) (h : Fin 9 → EReal) : Fin 9 → EReal :=
  fun j => (∑ k : Fin 9, h k * Ws (ix3 i j k)) + bs (ix2 i j)

/-- The output of layer `n`: layer 0 reads `fc0` as it is, every later layer reads max(previous, 0). -/
def act (d : ShD.Idx → EReal) (W0 : ShW0.Idx → EReal) (b0 : ShB0.Idx → EReal) (Ws : ShWs.Idx → EReal)
    (bs : ShBs.Idx → EReal) : Nat → Fin 9 → EReal
  | 0 => dense Ws bs 0 (fc0 d W0 b0)
  | n + 1 => dense Ws bs (layer (n + 1)) (relu (act d W0 b0 Ws bs n))

theorem act_zero (d : ShD.Idx → EReal) (W0 : ShW0.Idx → EReal) (b0 : ShB0.Idx → EReal) (Ws : ShWs.Idx → EReal)
    (bs : ShBs.Idx → EReal) : act d W0 b0 Ws bs 0 = dense Ws bs 0 (fc0 d W0 b0) := rfl

theorem act_succ (d : ShD.Idx → EReal) (W0 : ShW0.Idx → EReal) (b0 : ShB0.Idx → EReal) (Ws : ShWs.Idx → EReal)
    (bs : ShBs.Idx → EReal) (n : Nat) :
    act d W0 b0 Ws bs (n + 1) = dense Ws bs (layer (n + 1)) (relu (act d W0 b0 Ws bs n)) := rfl

/-- The first result: entry (a,b,c,e) of the [3,6,3,3] array is lane 3c+e of layer 6a+b's output (the [18,9]
    table of rows read row-major). -/
def kernelOut (d : ShD.Idx → EReal) (W0 : ShW0.Idx → EReal) (b0 : ShB0.Idx → EReal) (Ws : ShWs.Idx → EReal)
    (bs : ShBs.Idx → EReal) : ShOut.Idx → EReal :=
  fun i => act d W0 b0 Ws bs (6 * (i 0).val + (i 1).val)
    ⟨3 * (i 2).val + (i 3).val, by
      have h2 : (i 2).val < 3 := (i 2).isLt
      have h3 : (i 3).val < 3 := (i 3).isLt
      omega⟩

/-- The second result: three lanes, lane j is Σ_k max(act 17, 0)[k]·Wb[j,k] + bb[j]. -/
def biasOut (d : ShD.Idx → EReal) (W0 : ShW0.Idx → EReal) (b0 : ShB0.Idx → EReal) (Ws : ShWs.Idx → EReal)
    (bs : ShBs.Idx → EReal) (Wb : ShWb.Idx → EReal) (bb : ShBb.Idx → EReal) : ShBb.Idx → EReal :=
  fun i => (∑ k : Fin 9, relu (act d W0 b0 Ws bs 17) k * Wb (ix2 (i 0) k)) + bb (ix1 (i 0))

end Cert.Mlp

end
-- ==== Proof.KLayer.lean ====
/-
  One affine layer of the kernel body, read at a lane.

  At the extended reals the body's matrix product into a zero accumulator is a finite sum of products, its
  shape casts only rename indices, and a load through a unit-stride rectangle reads the array at offset plus
  coordinate. So each layer term the body forms is, at output lane j, Σ_k (input lane k)·(weight at (k, j))
  plus the bias at lane j. Nothing here depends on which layer it is.
-/
import proofs.«180207_j90924457656423_2_alg».proof.Proof.Gen.KernelIdeal.Frame
import proofs.«180207_j90924457656423_2_alg».proof.Proof.Spec
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-! ## A row times a matrix into a zero accumulator, read at a lane

At the extended reals a matrix product accumulated into the zero splat is, at output lane `j`, the sum over
the one contraction coordinate `k` of (row at `k`) · (matrix at `(k, j)`). First where the operand
indices of an output index and a contraction index sit, coordinate by coordinate; then the sum. -/

theorem lhs_2x9_0 (i : S1x9.Idx) (q : dot_S1x2_S2x9_S1x9_1_0_0_1_n_n.contr.Idx) :
    (dot_S1x2_S2x9_S1x9_1_0_0_1_n_n.lhsIdx i q 0).val = (i 0).val := by
  unfold DotDims.lhsIdx
  rw [dif_neg (show ¬(0 : Fin S1x2.rank) ∈ dot_S1x2_S2x9_S1x9_1_0_0_1_n_n.lhsBatch by decide),
    dif_pos (show (0 : Fin S1x2.rank) ∈ dot_S1x2_S2x9_S1x9_1_0_0_1_n_n.lhsNonContracting by decide)]
  rfl
theorem lhs_2x9_1 (i : S1x9.Idx) (q : dot_S1x2_S2x9_S1x9_1_0_0_1_n_n.contr.Idx) :
    (dot_S1x2_S2x9_S1x9_1_0_0_1_n_n.lhsIdx i q 1).val = (q ⟨0, by decide⟩).val :=
  dot_S1x2_S2x9_S1x9_1_0_0_1_n_n.lhsIdx_val_of_single rfl i q
theorem rhs_2x9_0 (i : S1x9.Idx) (q : dot_S1x2_S2x9_S1x9_1_0_0_1_n_n.contr.Idx) :
    (dot_S1x2_S2x9_S1x9_1_0_0_1_n_n.rhsIdx i q 0).val = (q ⟨0, by decide⟩).val :=
  dot_S1x2_S2x9_S1x9_1_0_0_1_n_n.rhsIdx_val_of_single rfl i q
theorem rhs_2x9_1 (i : S1x9.Idx) (q : dot_S1x2_S2x9_S1x9_1_0_0_1_n_n.contr.Idx) :
    (dot_S1x2_S2x9_S1x9_1_0_0_1_n_n.rhsIdx i q 1).val = (i 1).val := by
  unfold DotDims.rhsIdx
  rw [dif_neg (show ¬(1 : Fin S2x9.rank) ∈ dot_S1x2_S2x9_S1x9_1_0_0_1_n_n.rhsBatch by decide),
    dif_pos (show (1 : Fin S2x9.rank) ∈ dot_S1x2_S2x9_S1x9_1_0_0_1_n_n.rhsNonContracting by decide)]
  rfl

theorem lhs_9x9_0 (i : S1x9.Idx) (q : dot_S1x9_S9x9_S1x9_1_0_0_1_n_n.contr.Idx) :
    (dot_S1x9_S9x9_S1x9_1_0_0_1_n_n.lhsIdx i q 0).val = (i 0).val := by
  unfold DotDims.lhsIdx
  rw [dif_neg (show ¬(0 : Fin S1x9.rank) ∈ dot_S1x9_S9x9_S1x9_1_0_0_1_n_n.lhsBatch by decide),
    dif_pos (show (0 : Fin S1x9.rank) ∈ dot_S1x9_S9x9_S1x9_1_0_0_1_n_n.lhsNonContracting by decide)]
  rfl
theorem lhs_9x9_1 (i : S1x9.Idx) (q : dot_S1x9_S9x9_S1x9_1_0_0_1_n_n.contr.Idx) :
    (dot_S1x9_S9x9_S1x9_1_0_0_1_n_n.lhsIdx i q 1).val = (q ⟨0, by decide⟩).val :=
  dot_S1x9_S9x9_S1x9_1_0_0_1_n_n.lhsIdx_val_of_single rfl i q
theorem rhs_9x9_0 (i : S1x9.Idx) (q : dot_S1x9_S9x9_S1x9_1_0_0_1_n_n.contr.Idx) :
    (dot_S1x9_S9x9_S1x9_1_0_0_1_n_n.rhsIdx i q 0).val = (q ⟨0, by decide⟩).val :=
  dot_S1x9_S9x9_S1x9_1_0_0_1_n_n.rhsIdx_val_of_single rfl i q
theorem rhs_9x9_1 (i : S1x9.Idx) (q : dot_S1x9_S9x9_S1x9_1_0_0_1_n_n.contr.Idx) :
    (dot_S1x9_S9x9_S1x9_1_0_0_1_n_n.rhsIdx i q 1).val = (i 1).val := by
  unfold DotDims.rhsIdx
  rw [dif_neg (show ¬(1 : Fin S9x9.rank) ∈ dot_S1x9_S9x9_S1x9_1_0_0_1_n_n.rhsBatch by decide),
    dif_pos (show (1 : Fin S9x9.rank) ∈ dot_S1x9_S9x9_S1x9_1_0_0_1_n_n.rhsNonContracting by decide)]
  rfl

theorem lhs_9x3_0 (i : S1x3.Idx) (q : dot_S1x9_S9x3_S1x3_1_0_0_1_n_n.contr.Idx) :
    (dot_S1x9_S9x3_S1x3_1_0_0_1_n_n.lhsIdx i q 0).val = (i 0).val := by
  unfold DotDims.lhsIdx
  rw [dif_neg (show ¬(0 : Fin S1x9.rank) ∈ dot_S1x9_S9x3_S1x3_1_0_0_1_n_n.lhsBatch by decide),
    dif_pos (show (0 : Fin S1x9.rank) ∈ dot_S1x9_S9x3_S1x3_1_0_0_1_n_n.lhsNonContracting by decide)]
  rfl
theorem lhs_9x3_1 (i : S1x3.Idx) (q : dot_S1x9_S9x3_S1x3_1_0_0_1_n_n.contr.Idx) :
    (dot_S1x9_S9x3_S1x3_1_0_0_1_n_n.lhsIdx i q 1).val = (q ⟨0, by decide⟩).val :=
  dot_S1x9_S9x3_S1x3_1_0_0_1_n_n.lhsIdx_val_of_single rfl i q
theorem rhs_9x3_0 (i : S1x3.Idx) (q : dot_S1x9_S9x3_S1x3_1_0_0_1_n_n.contr.Idx) :
    (dot_S1x9_S9x3_S1x3_1_0_0_1_n_n.rhsIdx i q 0).val = (q ⟨0, by decide⟩).val :=
  dot_S1x9_S9x3_S1x3_1_0_0_1_n_n.rhsIdx_val_of_single rfl i q
theorem rhs_9x3_1 (i : S1x3.Idx) (q : dot_S1x9_S9x3_S1x3_1_0_0_1_n_n.contr.Idx) :
    (dot_S1x9_S9x3_S1x3_1_0_0_1_n_n.rhsIdx i q 1).val = (i 1).val := by
  unfold DotDims.rhsIdx
  rw [dif_neg (show ¬(1 : Fin S9x3.rank) ∈ dot_S1x9_S9x3_S1x3_1_0_0_1_n_n.rhsBatch by decide),
    dif_pos (show (1 : Fin S9x3.rank) ∈ dot_S1x9_S9x3_S1x3_1_0_0_1_n_n.rhsNonContracting by decide)]
  rfl

/-- Two lanes into nine. -/
theorem matmul_2x9_apply (h : FVec Ideal S1x2 .f32) (w : FVec Ideal S2x9 .f32) (j : Fin 9) :
    matmul (F := Ideal) dot_S1x2_S2x9_S1x9_1_0_0_1_n_n none h w (constant S1x9 .f32 0x00000000#32) (ix2 0 j)
      = ∑ k : Fin 2, h (ix2 0 k) * w (ix2 k j) := by
  show FloatOps.matmul dot_S1x2_S2x9_S1x9_1_0_0_1_n_n none h w (constant S1x9 .f32 0x00000000#32) (ix2 0 j) = _
  rw [Ideal.matmul_constant_zero_apply,
    ← Equiv.sum_comp (ValueIdx.contrEquiv1 dot_S1x2_S2x9_S1x9_1_0_0_1_n_n 2 rfl rfl).symm]
  refine Finset.sum_congr rfl fun k _ => ?_
  have hk := ValueIdx.contrEquiv1_symm_val dot_S1x2_S2x9_S1x9_1_0_0_1_n_n 2 rfl rfl k
  have el : dot_S1x2_S2x9_S1x9_1_0_0_1_n_n.lhsIdx (ix2 0 j) ((ValueIdx.contrEquiv1 dot_S1x2_S2x9_S1x9_1_0_0_1_n_n 2 rfl rfl).symm k) = ix2 0 k :=
    funext fun a => Fin.ext (by
      match a with
      | ⟨0, _⟩ => exact lhs_2x9_0 _ _
      | ⟨1, _⟩ => exact (lhs_2x9_1 _ _).trans hk)
  have er : dot_S1x2_S2x9_S1x9_1_0_0_1_n_n.rhsIdx (ix2 0 j) ((ValueIdx.contrEquiv1 dot_S1x2_S2x9_S1x9_1_0_0_1_n_n 2 rfl rfl).symm k) = ix2 k j :=
    funext fun a => Fin.ext (by
      match a with
      | ⟨0, _⟩ => exact (rhs_2x9_0 _ _).trans hk
      | ⟨1, _⟩ => exact rhs_2x9_1 _ _)
  rw [el, er]

/-- Nine lanes into nine. -/
theorem matmul_9x9_apply (h : FVec Ideal S1x9 .f32) (w : FVec Ideal S9x9 .f32) (j : Fin 9) :
    matmul (F := Ideal) dot_S1x9_S9x9_S1x9_1_0_0_1_n_n none h w (constant S1x9 .f32 0x00000000#32) (ix2 0 j)
      = ∑ k : Fin 9, h (ix2 0 k) * w (ix2 k j) := by
  show FloatOps.matmul dot_S1x9_S9x9_S1x9_1_0_0_1_n_n none h w (constant S1x9 .f32 0x00000000#32) (ix2 0 j) = _
  rw [Ideal.matmul_constant_zero_apply,
    ← Equiv.sum_comp (ValueIdx.contrEquiv1 dot_S1x9_S9x9_S1x9_1_0_0_1_n_n 9 rfl rfl).symm]
  refine Finset.sum_congr rfl fun k _ => ?_
  have hk := ValueIdx.contrEquiv1_symm_val dot_S1x9_S9x9_S1x9_1_0_0_1_n_n 9 rfl rfl k
  have el : dot_S1x9_S9x9_S1x9_1_0_0_1_n_n.lhsIdx (ix2 0 j) ((ValueIdx.contrEquiv1 dot_S1x9_S9x9_S1x9_1_0_0_1_n_n 9 rfl rfl).symm k) = ix2 0 k :=
    funext fun a => Fin.ext (by
      match a with
      | ⟨0, _⟩ => exact lhs_9x9_0 _ _
      | ⟨1, _⟩ => exact (lhs_9x9_1 _ _).trans hk)
  have er : dot_S1x9_S9x9_S1x9_1_0_0_1_n_n.rhsIdx (ix2 0 j) ((ValueIdx.contrEquiv1 dot_S1x9_S9x9_S1x9_1_0_0_1_n_n 9 rfl rfl).symm k) = ix2 k j :=
    funext fun a => Fin.ext (by
      match a with
      | ⟨0, _⟩ => exact (rhs_9x9_0 _ _).trans hk
      | ⟨1, _⟩ => exact rhs_9x9_1 _ _)
  rw [el, er]

/-- Nine lanes into three. -/
theorem matmul_9x3_apply (h : FVec Ideal S1x9 .f32) (w : FVec Ideal S9x3 .f32) (j : Fin 3) :
    matmul (F := Ideal) dot_S1x9_S9x3_S1x3_1_0_0_1_n_n none h w (constant S1x3 .f32 0x00000000#32) (ix2 0 j)
      = ∑ k : Fin 9, h (ix2 0 k) * w (ix2 k j) := by
  show FloatOps.matmul dot_S1x9_S9x3_S1x3_1_0_0_1_n_n none h w (constant S1x3 .f32 0x00000000#32) (ix2 0 j) = _
  rw [Ideal.matmul_constant_zero_apply,
    ← Equiv.sum_comp (ValueIdx.contrEquiv1 dot_S1x9_S9x3_S1x3_1_0_0_1_n_n 9 rfl rfl).symm]
  refine Finset.sum_congr rfl fun k _ => ?_
  have hk := ValueIdx.contrEquiv1_symm_val dot_S1x9_S9x3_S1x3_1_0_0_1_n_n 9 rfl rfl k
  have el : dot_S1x9_S9x3_S1x3_1_0_0_1_n_n.lhsIdx (ix2 0 j) ((ValueIdx.contrEquiv1 dot_S1x9_S9x3_S1x3_1_0_0_1_n_n 9 rfl rfl).symm k) = ix2 0 k :=
    funext fun a => Fin.ext (by
      match a with
      | ⟨0, _⟩ => exact lhs_9x3_0 _ _
      | ⟨1, _⟩ => exact (lhs_9x3_1 _ _).trans hk)
  have er : dot_S1x9_S9x3_S1x3_1_0_0_1_n_n.rhsIdx (ix2 0 j) ((ValueIdx.contrEquiv1 dot_S1x9_S9x3_S1x3_1_0_0_1_n_n 9 rfl rfl).symm k) = ix2 k j :=
    funext fun a => Fin.ext (by
      match a with
      | ⟨0, _⟩ => exact (rhs_9x3_0 _ _).trans hk
      | ⟨1, _⟩ => exact rhs_9x3_1 _ _)
  rw [el, er]

/-! ## The body's shape casts and loads, read at an index

A loaded weight slice is a [1,9,9] block and a loaded bias slice a [1,1,9] block; the body views them as
[9,9] and [1,9] by dropping the leading unit axis. A row cast to a bare [9] vector and back is the row. A load
through a unit-stride rectangle reads the array at offset + coordinate. -/

theorem cast_S1x9x9_S9x9_apply (w : Vec Ideal S1x9x9 .f32) (k j : Fin 9) :
    shapeCast S9x9 w shapeCasts_S1x9x9_S9x9 (ix2 k j) = w (ix3 0 k j) :=
  (shapeCast_dropUnit_apply ![9, 9] w shapeCasts_S1x9x9_S9x9 (ix2 k j)).trans
    (congrArg w (funext fun a => match a with | ⟨0, _⟩ => rfl | ⟨1, _⟩ => rfl | ⟨2, _⟩ => rfl))

theorem cast_S1x1x9_S1x9_apply (b : Vec Ideal S1x1x9 .f32) (j : Fin 9) :
    shapeCast S1x9 b shapeCasts_S1x1x9_S1x9 (ix2 0 j) = b (ix3 0 0 j) :=
  (shapeCast_dropUnit_apply ![1, 9] b shapeCasts_S1x1x9_S1x9 (ix2 0 j)).trans
    (congrArg b (funext fun a => match a with | ⟨0, _⟩ => rfl | ⟨1, _⟩ => rfl | ⟨2, _⟩ => rfl))

/-- A row viewed as a bare vector and viewed back as a row. -/
def recast (v : FVec Ideal S1x9 .f32) : FVec Ideal S1x9 .f32 :=
  shapeCast S1x9 (shapeCast S9 v shapeCasts_S1x9_S9) shapeCasts_S9_S1x9

theorem recast_eq (v : FVec Ideal S1x9 .f32) : recast v = v :=
  shapeCast_shapeCast v shapeCasts_S1x9_S9 shapeCasts_S9_S1x9

theorem ld_S18x9x9_apply (X : Vec Ideal S18x9x9 .f32) (n : Nat) (hn : n < 18)
    (inb : ∀ a, (![n, 0, 0] : Fin 3 → Nat) a + S1x9x9.size a ≤ S18x9x9.size a) (k j : Fin 9) :
    View.ld X (Rect.unit (s := S18x9x9) ![n, 0, 0] S1x9x9.size inb) (ix3 0 k j) = X (ix3 ⟨n, hn⟩ k j) :=
  congrArg X (funext fun a => Fin.ext (by
    match a with
    | ⟨0, _⟩ => show n + 1 * 0 = n; omega
    | ⟨1, _⟩ => show 0 + 1 * k.val = k.val; omega
    | ⟨2, _⟩ => show 0 + 1 * j.val = j.val; omega))

theorem ld_S18x1x9_apply (X : Vec Ideal S18x1x9 .f32) (n : Nat) (hn : n < 18)
    (inb : ∀ a, (![n, 0, 0] : Fin 3 → Nat) a + S1x1x9.size a ≤ S18x1x9.size a) (j : Fin 9) :
    View.ld X (Rect.unit (s := S18x1x9) ![n, 0, 0] S1x1x9.size inb) (ix3 0 0 j) = X (ix3 ⟨n, hn⟩ 0 j) :=
  congrArg X (funext fun a => Fin.ext (by
    match a with
    | ⟨0, _⟩ => show n + 1 * 0 = n; omega
    | ⟨1, _⟩ => show 0 + 1 * 0 = 0; omega
    | ⟨2, _⟩ => show 0 + 1 * j.val = j.val; omega))

/-- Where local lane `q` of the row rectangle at row `n` sits in the [18,9] buffer. -/
theorem emb_row (n : Nat) (hn : n < 18)
    (inb : ∀ a, (![n, 0] : Fin 2 → Nat) a + S1x9.size a ≤ S18x9.size a) (q : Fin 9) :
    (Rect.unit (s := S18x9) ![n, 0] S1x9.size inb).emb (ix2 0 q) = ix2 ⟨n, hn⟩ q :=
  funext fun a => Fin.ext (by
    match a with
    | ⟨0, _⟩ => show n + 1 * 0 = n; omega
    | ⟨1, _⟩ => show 0 + 1 * q.val = q.val; omega)

/-! ## The body's layer terms

The terms the kernel body forms, named once: max(·, 0) on a row; one 9→9 affine layer from a row, a loaded
weight slice and a loaded bias slice; the first 2→9 layer; the last 9→3 layer. Each read at a lane is the
sum of products plus the bias lane. -/

/-- max(·, 0) on a row, as the body writes it: against the broadcast float word of +0.0. -/
def rl (h : FVec Ideal S1x9 .f32) : FVec Ideal S1x9 .f32 :=
  maximumf h (broadcast S1x9 (Scalar.ofBits .f32 0x00000000#32))

theorem rl_apply (h : FVec Ideal S1x9 .f32) (k : Fin 9) :
    rl h (ix2 0 k) = max (h (ix2 0 k)) (Ideal.ofBits .f32 0x00000000#32) := rfl

/-- One 9→9 layer: the row times the weight slice viewed [9,9], into a zero accumulator, plus the bias
    slice viewed [1,9]. -/
def lay (h : FVec Ideal S1x9 .f32) (w : Vec Ideal S1x9x9 .f32) (b : Vec Ideal S1x1x9 .f32) : FVec Ideal S1x9 .f32 :=
  addf (matmul dot_S1x9_S9x9_S1x9_1_0_0_1_n_n none h (shapeCast S9x9 w shapeCasts_S1x9x9_S9x9 : FVec Ideal S9x9 .f32)
    (constant S1x9 .f32 0x00000000#32)) (shapeCast S1x9 b shapeCasts_S1x1x9_S1x9 : FVec Ideal S1x9 .f32)

theorem lay_apply (h : FVec Ideal S1x9 .f32) (w : Vec Ideal S1x9x9 .f32) (b : Vec Ideal S1x1x9 .f32) (j : Fin 9) :
    lay h w b (ix2 0 j) = (∑ k : Fin 9, h (ix2 0 k) * w (ix3 0 k j)) + b (ix3 0 0 j) := by
  show matmul (F := Ideal) dot_S1x9_S9x9_S1x9_1_0_0_1_n_n none h (shapeCast S9x9 w shapeCasts_S1x9x9_S9x9 : FVec Ideal S9x9 .f32)
      (constant S1x9 .f32 0x00000000#32) (ix2 0 j) + (shapeCast S1x9 b shapeCasts_S1x1x9_S1x9 : FVec Ideal S1x9 .f32) (ix2 0 j) = _
  rw [matmul_9x9_apply, cast_S1x1x9_S1x9_apply]
  exact congrArg (· + b (ix3 0 0 j)) (Finset.sum_congr rfl fun k _ => by rw [cast_S1x9x9_S9x9_apply])

/-- The first layer: the two input lanes times the [2,9] weights, into a zero accumulator, plus the bias row. -/
def fc (v0 : Vec Ideal S1x2 .f32) (v1 : Vec Ideal S2x9 .f32) (v4 : Vec Ideal S1x9 .f32) : FVec Ideal S1x9 .f32 :=
  addf (matmul (φ₁ := .f32) (φ₂ := .f32) dot_S1x2_S2x9_S1x9_1_0_0_1_n_n none v0 (shapeCast S2x9 v1 shapeCasts_S2x9_S2x9 : FVec Ideal S2x9 .f32)
    (constant S1x9 .f32 0x00000000#32)) (shapeCast S1x9 v4 shapeCasts_S1x9_S1x9 : FVec Ideal S1x9 .f32)

theorem fc_apply (v0 : Vec Ideal S1x2 .f32) (v1 : Vec Ideal S2x9 .f32) (v4 : Vec Ideal S1x9 .f32) (j : Fin 9) :
    fc v0 v1 v4 (ix2 0 j) = (∑ k : Fin 2, v0 (ix2 0 k) * v1 (ix2 k j)) + v4 (ix2 0 j) := by
  unfold fc
  rw [shapeCast_self, shapeCast_self]
  show matmul (F := Ideal) (φ₁ := .f32) (φ₂ := .f32) dot_S1x2_S2x9_S1x9_1_0_0_1_n_n none v0 v1 (constant S1x9 .f32 0x00000000#32) (ix2 0 j)
      + v4 (ix2 0 j) = _
  rw [matmul_2x9_apply]

/-- The last layer: max(row, 0) times the [9,3] weights, into a zero accumulator, plus the bias row. -/
def fin (h : FVec Ideal S1x9 .f32) (v223 : Vec Ideal S9x3 .f32) (v226 : Vec Ideal S1x3 .f32) : FVec Ideal S1x3 .f32 :=
  addf (matmul dot_S1x9_S9x3_S1x3_1_0_0_1_n_n none (rl h) (shapeCast S9x3 v223 shapeCasts_S9x3_S9x3 : FVec Ideal S9x3 .f32)
    (constant S1x3 .f32 0x00000000#32)) (shapeCast S1x3 v226 shapeCasts_S1x3_S1x3 : FVec Ideal S1x3 .f32)

theorem fin_apply (h : FVec Ideal S1x9 .f32) (v223 : Vec Ideal S9x3 .f32) (v226 : Vec Ideal S1x3 .f32) (j : Fin 3) :
    fin h v223 v226 (ix2 0 j)
      = (∑ k : Fin 9, max (h (ix2 0 k)) (Ideal.ofBits .f32 0x00000000#32) * v223 (ix2 k j)) + v226 (ix2 0 j) := by
  unfold fin
  rw [shapeCast_self, shapeCast_self]
  show matmul (F := Ideal) dot_S1x9_S9x3_S1x3_1_0_0_1_n_n none (rl h) (v223 : FVec Ideal S9x3 .f32) (constant S1x3 .f32 0x00000000#32) (ix2 0 j)
      + v226 (ix2 0 j) = _
  rw [matmul_9x3_apply]
  rfl

end Cert.KernelIdeal.Pay

end
-- ==== Proof.KChain.lean ====
/-
  The kernel's chain of layers, and its agreement with the specification.

  The kernel computes its eighteen rows one from the previous: row 0 from the first 2→9 layer's output, row
  n+1 from max(row n, 0), each through slice n of the stacked weights and biases. The weights reach the kernel
  with their last two axes exchanged and the biases with a unit axis inserted, so lane j of a layer is
  Σ_k (input lane k)·Ws[n,j,k] + bs[n,j]: the specification's `dense`, term for term and in the same order.
  By induction on the layer number the kernel's row n is the specification's `act n`.
-/
import proofs.«180207_j90924457656423_2_alg».proof.Proof.KLayer

noncomputable section

namespace Cert.KernelIdeal.Pay

open Idealize.ShloMosaic Idealize.ShloMosaic.ValueIdx Cert.KernelIdeal Cert.KernelIdeal.Gen
open scoped BigOperators

/-! ## The kernel's chain of layers over the seven input blocks

Layer n reads slice n of the stacked weights and biases through the row rectangle at offset n; the input of
layer 0 is the first 2→9 layer's row, the input of every later layer is max(previous output, 0). The
kernel's weights are stored with their last two axes exchanged and its biases with a unit axis inserted;
under those relabelings (`h1` … `h4`) the chain is the specification's `act`, lane by lane: each lane is
the same sum of the same products in the same order. -/

theorem inb_W (n : Nat) : ∀ a, (![n % 18, 0, 0] : Fin 3 → Nat) a + S1x9x9.size a ≤ S18x9x9.size a := fun a => by
  match a with
  | ⟨0, _⟩ => show n % 18 + 1 ≤ 18; omega
  | ⟨1, _⟩ => show 0 + 9 ≤ 9; omega
  | ⟨2, _⟩ => show 0 + 9 ≤ 9; omega

theorem inb_B (n : Nat) : ∀ a, (![n % 18, 0, 0] : Fin 3 → Nat) a + S1x1x9.size a ≤ S18x1x9.size a := fun a => by
  match a with
  | ⟨0, _⟩ => show n % 18 + 1 ≤ 18; omega
  | ⟨1, _⟩ => show 0 + 1 ≤ 1; omega
  | ⟨2, _⟩ => show 0 + 9 ≤ 9; omega

/-- Slice n of the stacked weights, as loaded: a [1,9,9] block. -/
def Wl (x3 : Vec Ideal S18x9x9 .f32) (n : Nat) : Vec Ideal S1x9x9 .f32 :=
  View.ld x3 (Rect.unit (s := S18x9x9) ![n % 18, 0, 0] S1x9x9.size (inb_W n))

/-- Slice n of the stacked biases, as loaded: a [1,1,9] block. -/
def Bl (x4 : Vec Ideal S18x1x9 .f32) (n : Nat) : Vec Ideal S1x1x9 .f32 :=
  View.ld x4 (Rect.unit (s := S18x1x9) ![n % 18, 0, 0] S1x1x9.size (inb_B n))

/-- The kernel's output row of layer n, as a term over the input blocks. -/
def kact (x0 : Vec Ideal S1x2 .f32) (x1 : Vec Ideal S2x9 .f32) (x2 : Vec Ideal S1x9 .f32)
    (x3 : Vec Ideal S18x9x9 .f32) (x4 : Vec Ideal S18x1x9 .f32) : Nat → FVec Ideal S1x9 .f32
  | 0 => lay (fc (View.ld x0 r0_0) (View.ld x1 r0_1) (View.ld x2 r0_2)) (Wl x3 0) (Bl x4 0)
  | n + 1 => lay (rl (kact x0 x1 x2 x3 x4 n)) (Wl x3 (n + 1)) (Bl x4 (n + 1))

section
variable (d : Vec Ideal S1x2 .f32) (x1 : Vec Ideal S2x9 .f32) (x2 : Vec Ideal S1x9 .f32)
  (x3 : Vec Ideal S18x9x9 .f32) (x4 : Vec Ideal S18x1x9 .f32)
  (W0 : Cert.Mlp.ShW0.Idx → EReal) (b0 : Cert.Mlp.ShB0.Idx → EReal) (Ws : Cert.Mlp.ShWs.Idx → EReal)
  (bs : Cert.Mlp.ShBs.Idx → EReal)

/-- One kernel layer on a row that reads `g` lane by lane is the specification's `dense` on `g`. -/
theorem lay_dense (h3 : ∀ (i : Fin 18) (k j : Fin 9), x3 (ix3 i k j) = Ws (ix3 i j k))
    (h4 : ∀ (i : Fin 18) (j : Fin 9), x4 (ix3 i 0 j) = bs (ix2 i j))
    (n : Nat) (h : FVec Ideal S1x9 .f32) (g : Fin 9 → EReal) (hg : ∀ k, h (ix2 0 k) = g k) (q : Fin 9) :
    lay h (Wl x3 n) (Bl x4 n) (ix2 0 q) = Cert.Mlp.dense Ws bs (Cert.Mlp.layer n) g q := by
  rw [lay_apply]
  unfold Cert.Mlp.dense Wl Bl
  rw [ld_S18x1x9_apply x4 (n % 18) (Nat.mod_lt n (by decide)), h4]
  refine congrArg (· + bs (ix2 (Cert.Mlp.layer n) q)) (Finset.sum_congr rfl fun k _ => ?_)
  rw [ld_S18x9x9_apply x3 (n % 18) (Nat.mod_lt n (by decide)), h3, hg]

theorem kact_apply (h1 : ∀ (k : Fin 2) (j : Fin 9), x1 (ix2 k j) = W0 (ix2 j k))
    (h2 : ∀ j : Fin 9, x2 (ix2 0 j) = b0 (ix1 j))
    (h3 : ∀ (i : Fin 18) (k j : Fin 9), x3 (ix3 i k j) = Ws (ix3 i j k))
    (h4 : ∀ (i : Fin 18) (j : Fin 9), x4 (ix3 i 0 j) = bs (ix2 i j)) :
    ∀ (n : Nat) (q : Fin 9), kact d x1 x2 x3 x4 n (ix2 0 q) = Cert.Mlp.act d W0 b0 Ws bs n q
  | 0, q => by
    show lay _ (Wl x3 0) (Bl x4 0) (ix2 0 q) = _
    refine lay_dense x3 x4 Ws bs h3 h4 0 _ (Cert.Mlp.fc0 d W0 b0) (fun k => ?_) q
    rw [fc_apply, View.ld_unit_zero (funext fun a => match a with | ⟨0, _⟩ => rfl | ⟨1, _⟩ => rfl),
      View.ld_unit_zero (funext fun a => match a with | ⟨0, _⟩ => rfl | ⟨1, _⟩ => rfl),
      View.ld_unit_zero (funext fun a => match a with | ⟨0, _⟩ => rfl | ⟨1, _⟩ => rfl), h2]
    unfold Cert.Mlp.fc0
    exact congrArg (· + b0 (ix1 k)) (Finset.sum_congr rfl fun k' _ => by rw [h1])
  | n + 1, q => by
    show lay (rl (kact d x1 x2 x3 x4 n)) (Wl x3 (n + 1)) (Bl x4 (n + 1)) (ix2 0 q) = _
    refine lay_dense x3 x4 Ws bs h3 h4 (n + 1) _ (Cert.Mlp.relu (Cert.Mlp.act d W0 b0 Ws bs n)) (fun k => ?_) q
    rw [rl_apply, kact_apply h1 h2 h3 h4 n k]
    rfl

end

/-! ## The body's payloads are these layer terms

The body's pure values are cut at its statement windows, not at layer boundaries; each is, by unfolding,
one of: a layer on a row (`lay`), max(·, 0) of a row (`rl`), a row cast to a bare vector and back
(`recast`), the first layer (`fc`) or the last (`fin`). -/

section
variable (v0 : Vec Ideal S1x2 .f32) (v1 : Vec Ideal S2x9 .f32) (v4 : Vec Ideal S1x9 .f32)
  (h : FVec Ideal S1x9 .f32) (w w' w'' : Vec Ideal S1x9x9 .f32) (b b' b'' : Vec Ideal S1x1x9 .f32)
  (m : FVec Ideal S9x9 .f32) (c : FVec Ideal S1x9 .f32)
  (v223 : Vec Ideal S9x3 .f32) (v226 : Vec Ideal S1x3 .f32)

theorem pay3_eq : k0_pay3 (F := Ideal) v0 v1 v4 w b = lay (fc v0 v1 v4) w b := rfl
theorem pay4_eq : k0_pay4 (F := Ideal) v0 v1 v4 w b = recast (k0_pay3 v0 v1 v4 w b) := rfl
theorem pay5_eq : k0_pay5 (F := Ideal) v0 v1 v4 w b w' b' = lay (rl (k0_pay3 v0 v1 v4 w b)) w' b' := rfl
theorem pay6_eq : k0_pay6 (F := Ideal) v0 v1 v4 w b w' b' = recast (k0_pay5 v0 v1 v4 w b w' b') := rfl
theorem pay7_eq : k0_pay7 (F := Ideal) v0 v1 v4 w b w' b' = rl (k0_pay5 v0 v1 v4 w b w' b') := rfl
theorem pay8_eq : k0_pay8 (F := Ideal) h w b = lay h w b := rfl
theorem pay9_eq : k0_pay9 (F := Ideal) h w b = recast (k0_pay8 h w b) := rfl
theorem pay10_eq : k0_pay10 (F := Ideal) h w b w' b' = lay (rl (k0_pay8 h w b)) w' b' := rfl
theorem pay11_eq : k0_pay11 (F := Ideal) h w b w' b' = recast (k0_pay10 h w b w' b') := rfl
theorem pay12_eq : k0_pay12 (F := Ideal) h w b w' b' w'' b'' = lay (rl (k0_pay10 h w b w' b')) w'' b'' := rfl
theorem pay14_eq : k0_pay14 (F := Ideal) (k0_pay13 h w b w' b' w'' b'') = recast (k0_pay12 h w b w' b' w'' b'') := rfl
theorem pay15_eq : k0_pay15 (F := Ideal) h w b = lay (rl h) w b := rfl
theorem pay16_eq : k0_pay16 (F := Ideal) h w b = recast (k0_pay15 h w b) := rfl
theorem pay17_eq : k0_pay17 (F := Ideal) h w b w' b' = lay (rl (k0_pay15 h w b)) w' b' := rfl
theorem pay18_eq : k0_pay18 (F := Ideal) h w b w' b' = recast (k0_pay17 h w b w' b') := rfl
theorem pay19_eq : k0_pay19 (F := Ideal) h w b w' b' = rl (k0_pay17 h w b w' b') := rfl
theorem pay21_eq : k0_pay21 (F := Ideal) h (k0_pay20 w) b = lay h w b := rfl
theorem pay22_eq : k0_pay22 (F := Ideal) h m b = recast (k0_pay21 h m b) := rfl
theorem pay23_eq : k0_pay23 (F := Ideal) h m b w' b' = lay (rl (k0_pay21 h m b)) w' b' := rfl
theorem pay24_eq : k0_pay24 (F := Ideal) h m b w' b' = recast (k0_pay23 h m b w' b') := rfl
theorem pay25_eq : k0_pay25 (F := Ideal) h m b w' b' w'' b'' = lay (rl (k0_pay23 h m b w' b')) w'' b'' := rfl
theorem pay26_eq : k0_pay26 (F := Ideal) h m b w' b' w'' b'' = recast (k0_pay25 h m b w' b' w'' b'') := rfl
theorem pay27_eq : k0_pay27 (F := Ideal) h w b = lay (rl h) w b := rfl
theorem pay28_eq : k0_pay28 (F := Ideal) h w b = recast (k0_pay27 h w b) := rfl
theorem pay29_eq : k0_pay29 (F := Ideal) h w b w' b' = lay (rl (k0_pay27 h w b)) w' b' := rfl
theorem pay30_eq : k0_pay30 (F := Ideal) h w b w' b' = recast (k0_pay29 h w b w' b') := rfl
theorem pay31_eq : k0_pay31 (F := Ideal) h w b w' b' = rl (k0_pay29 h w b w' b') := rfl
theorem pay34_eq : k0_pay34 (F := Ideal) h (k0_pay32 w) (k0_pay33 b) = lay h w b := rfl
theorem pay35_eq : k0_pay35 (F := Ideal) h m c = recast (k0_pay34 h m c) := rfl
theorem pay36_eq : k0_pay36 (F := Ideal) h m c w' b' = lay (rl (k0_pay34 h m c)) w' b' := rfl
theorem pay37_eq : k0_pay37 (F := Ideal) h m c w' b' = recast (k0_pay36 h m c w' b') := rfl
theorem pay38_eq : k0_pay38 (F := Ideal) h m c w' b' w'' b'' = lay (rl (k0_pay36 h m c w' b')) w'' b'' := rfl
theorem pay39_eq : k0_pay39 (F := Ideal) h m c w' b' w'' b'' = recast (k0_pay38 h m c w' b' w'' b'') := rfl
theorem pay40_eq : k0_pay40 (F := Ideal) h m c w' b' w'' b'' = rl (k0_pay38 h m c w' b' w'' b'') := rfl
theorem pay41_eq : k0_pay41 (F := Ideal) h w b = lay h w b := rfl
theorem pay42_eq : k0_pay42 (F := Ideal) h w b = recast (k0_pay41 h w b) := rfl
theorem pay43_eq : k0_pay43 (F := Ideal) h w b w' b' = lay (rl (k0_pay41 h w b)) w' b' := rfl
theorem pay44_eq : k0_pay44 (F := Ideal) h w b w' b' = recast (k0_pay43 h w b w' b') := rfl
theorem pay45_eq : k0_pay45 (F := Ideal) h w b w' b' w'' b'' = lay (rl (k0_pay43 h w b w' b')) w'' b'' := rfl
theorem pay1_eq : k0_pay1 (F := Ideal) (k0_pay46 h w b w' b' w'' b'') = recast (k0_pay45 h w b w' b' w'' b'') := rfl
theorem pay2_eq : k0_pay2 (F := Ideal) h v223 v226 = fin h v223 v226 := rfl

end

end Cert.KernelIdeal.Pay

end
-- ==== Proof.KPay.lean ====
/-
  What the kernel body leaves in its two output buffers, entry by entry.

  The [18,9] buffer receives eighteen row stores, one per layer, which tile it; the store of row r carries the
  chain's row r, so entry (r, q) is lane q of the specification's `act r`. The [1,3] buffer receives one
  whole store carrying the last 9→3 layer applied to max(row 17, 0), which is the specification's `biasOut`.
-/
import proofs.«180207_j90924457656423_2_alg».proof.Proof.KChain

noncomputable section

namespace Cert.KernelIdeal.Pay

open Idealize.ShloMosaic Idealize.ShloMosaic.ValueIdx Cert.KernelIdeal Cert.KernelIdeal.Gen
open scoped BigOperators

/-! ## What the body leaves in the two output buffers, over the chain

The running values the body carries from one statement window to the next are the chain's rows (or their
max(·, 0)); so the eighteen row stores write the chain's eighteen rows, and the one [1,3] store writes the
last layer of row 17. -/

section
variable (x0 : Vec Ideal S1x2 .f32) (x1 : Vec Ideal S2x9 .f32) (x2 : Vec Ideal S1x9 .f32)
  (x3 : Vec Ideal S18x9x9 .f32) (x4 : Vec Ideal S18x1x9 .f32) (x5 : Vec Ideal S9x3 .f32) (x6 : Vec Ideal S1x3 .f32)

theorem stage1 : k0_pay7 (F := Ideal) (View.ld x0 r0_0) (View.ld x1 r0_1) (View.ld x2 r0_2) (View.ld x3 r0_3) (View.ld x4 r0_4) (View.ld x3 r0_6) (View.ld x4 r0_7)
    = rl (kact x0 x1 x2 x3 x4 1) := rfl
theorem stage2 : k0_pay12 (F := Ideal) (rl (kact x0 x1 x2 x3 x4 1)) (View.ld x3 r0_9) (View.ld x4 r0_10) (View.ld x3 r0_12) (View.ld x4 r0_13) (View.ld x3 r0_15) (View.ld x4 r0_16)
    = (kact x0 x1 x2 x3 x4 4) := rfl
theorem stage2' : k0_pay13 (F := Ideal) (rl (kact x0 x1 x2 x3 x4 1)) (View.ld x3 r0_9) (View.ld x4 r0_10) (View.ld x3 r0_12) (View.ld x4 r0_13) (View.ld x3 r0_15) (View.ld x4 r0_16)
    = shapeCast S9 (kact x0 x1 x2 x3 x4 4) shapeCasts_S1x9_S9 := rfl
theorem stage3 : k0_pay19 (F := Ideal) (kact x0 x1 x2 x3 x4 4) (View.ld x3 r0_18) (View.ld x4 r0_19) (View.ld x3 r0_21) (View.ld x4 r0_22)
    = rl (kact x0 x1 x2 x3 x4 6) := rfl
theorem stage4 : k0_pay25 (F := Ideal) (rl (kact x0 x1 x2 x3 x4 6)) (k0_pay20 (View.ld x3 r0_24)) (View.ld x4 r0_25) (View.ld x3 r0_27) (View.ld x4 r0_28) (View.ld x3 r0_30) (View.ld x4 r0_31)
    = (kact x0 x1 x2 x3 x4 9) := rfl
theorem stage5 : k0_pay31 (F := Ideal) (kact x0 x1 x2 x3 x4 9) (View.ld x3 r0_33) (View.ld x4 r0_34) (View.ld x3 r0_36) (View.ld x4 r0_37)
    = rl (kact x0 x1 x2 x3 x4 11) := rfl
theorem stage6 : k0_pay40 (F := Ideal) (rl (kact x0 x1 x2 x3 x4 11)) (k0_pay32 (View.ld x3 r0_39)) (k0_pay33 (View.ld x4 r0_40)) (View.ld x3 r0_42) (View.ld x4 r0_43) (View.ld x3 r0_45) (View.ld x4 r0_46)
    = rl (kact x0 x1 x2 x3 x4 14) := rfl
theorem stage7 : k0_pay45 (F := Ideal) (rl (kact x0 x1 x2 x3 x4 14)) (View.ld x3 r0_48) (View.ld x4 r0_49) (View.ld x3 r0_51) (View.ld x4 r0_52) (View.ld x3 r0_54) (View.ld x4 r0_55)
    = (kact x0 x1 x2 x3 x4 17) := rfl
theorem stage7' : k0_pay46 (F := Ideal) (rl (kact x0 x1 x2 x3 x4 14)) (View.ld x3 r0_48) (View.ld x4 r0_49) (View.ld x3 r0_51) (View.ld x4 r0_52) (View.ld x3 r0_54) (View.ld x4 r0_55)
    = shapeCast S9 (kact x0 x1 x2 x3 x4 17) shapeCasts_S1x9_S9 := rfl

theorem out0_7_eq : Gen.out0_7 (F := Ideal) x0 x1 x2 x3 x4 x5 x6
    = View.canon [⟨r0_56, recast (kact x0 x1 x2 x3 x4 17)⟩,
      ⟨r0_53, recast (kact x0 x1 x2 x3 x4 16)⟩,
      ⟨r0_50, recast (kact x0 x1 x2 x3 x4 15)⟩,
      ⟨r0_47, recast (kact x0 x1 x2 x3 x4 14)⟩,
      ⟨r0_44, recast (kact x0 x1 x2 x3 x4 13)⟩,
      ⟨r0_41, recast (kact x0 x1 x2 x3 x4 12)⟩,
      ⟨r0_38, recast (kact x0 x1 x2 x3 x4 11)⟩,
      ⟨r0_35, recast (kact x0 x1 x2 x3 x4 10)⟩,
      ⟨r0_32, recast (kact x0 x1 x2 x3 x4 9)⟩,
      ⟨r0_29, recast (kact x0 x1 x2 x3 x4 8)⟩,
      ⟨r0_26, recast (kact x0 x1 x2 x3 x4 7)⟩,
      ⟨r0_23, recast (kact x0 x1 x2 x3 x4 6)⟩,
      ⟨r0_20, recast (kact x0 x1 x2 x3 x4 5)⟩,
      ⟨r0_17, recast (kact x0 x1 x2 x3 x4 4)⟩,
      ⟨r0_14, recast (kact x0 x1 x2 x3 x4 3)⟩,
      ⟨r0_11, recast (kact x0 x1 x2 x3 x4 2)⟩,
      ⟨r0_8, recast (kact x0 x1 x2 x3 x4 1)⟩,
      ⟨r0_5, recast (kact x0 x1 x2 x3 x4 0)⟩] := by
  unfold Gen.out0_7
  rw [stage1, stage2, stage2', stage3, stage4, stage5, stage6, stage7']
  rfl

theorem out0_8_eq : Gen.out0_8 (F := Ideal) x0 x1 x2 x3 x4 x5 x6
    = fin (kact x0 x1 x2 x3 x4 17) (View.ld x5 r0_57) (View.ld x6 r0_58) := by
  unfold Gen.out0_8
  rw [stage1, stage2, stage3, stage4, stage5, stage6, stage7]
  exact View.canon_unit_zero (funext fun a => match a with | ⟨0, _⟩ => rfl | ⟨1, _⟩ => rfl) _ _

end

/-! ## The two output buffers, read at an index

Row r of the [18,9] buffer is written by exactly the store through the row rectangle at offset r, whose
payload is the chain's row r; so entry (r, q) is lane q of layer r. The [1,3] buffer is written once, whole,
with the last layer of max(row 17, 0). -/

section
variable (d : Vec Ideal S1x2 .f32) (x1 : Vec Ideal S2x9 .f32) (x2 : Vec Ideal S1x9 .f32)
  (x3 : Vec Ideal S18x9x9 .f32) (x4 : Vec Ideal S18x1x9 .f32) (x5 : Vec Ideal S9x3 .f32) (x6 : Vec Ideal S1x3 .f32)
  (W0 : Cert.Mlp.ShW0.Idx → EReal) (b0 : Cert.Mlp.ShB0.Idx → EReal) (Ws : Cert.Mlp.ShWs.Idx → EReal)
  (bs : Cert.Mlp.ShBs.Idx → EReal)

/-- The store of row n: its payload at a local index is the specification's value at the buffer index the
    row rectangle sends it to. -/
theorem piece_row (h1 : ∀ (k : Fin 2) (j : Fin 9), x1 (ix2 k j) = W0 (ix2 j k)) (h2 : ∀ j : Fin 9, x2 (ix2 0 j) = b0 (ix1 j))
    (h3 : ∀ (i : Fin 18) (k j : Fin 9), x3 (ix3 i k j) = Ws (ix3 i j k)) (h4 : ∀ (i : Fin 18) (j : Fin 9), x4 (ix3 i 0 j) = bs (ix2 i j))
    (n : Nat) (hn : n < 18) (inb : ∀ a, (![n, 0] : Fin 2 → Nat) a + S1x9.size a ≤ S18x9.size a)
    (x : (Rect.unit (s := S18x9) ![n, 0] S1x9.size inb).shape.Idx) :
    recast (kact d x1 x2 x3 x4 n) x
      = (fun y : S18x9.Idx => Cert.Mlp.act d W0 b0 Ws bs (y 0).val (y 1))
          ((Rect.unit (s := S18x9) ![n, 0] S1x9.size inb).emb x) := by
  obtain ⟨p, q, rfl⟩ : ∃ (p : Fin 1) (q : Fin 9), x = ix2 p q := ⟨x 0, x 1, eq_ix2 x⟩
  obtain rfl : p = 0 := Subsingleton.elim _ _
  rw [recast_eq, kact_apply d x1 x2 x3 x4 W0 b0 Ws bs h1 h2 h3 h4, emb_row n hn]

theorem out7_apply (h1 : ∀ (k : Fin 2) (j : Fin 9), x1 (ix2 k j) = W0 (ix2 j k)) (h2 : ∀ j : Fin 9, x2 (ix2 0 j) = b0 (ix1 j))
    (h3 : ∀ (i : Fin 18) (k j : Fin 9), x3 (ix3 i k j) = Ws (ix3 i j k)) (h4 : ∀ (i : Fin 18) (j : Fin 9), x4 (ix3 i 0 j) = bs (ix2 i j))
    (r : Fin 18) (q : Fin 9) :
    Gen.out0_7 (F := Ideal) d x1 x2 x3 x4 x5 x6 (ix2 r q) = Cert.Mlp.act d W0 b0 Ws bs r.val q := by
  rw [out0_7_eq]
  refine View.canon_apply_of_pieces (Val := Elt Ideal) (S := S18x9) (e := .f32) (fun y : S18x9.Idx => Cert.Mlp.act d W0 b0 Ws bs (y 0).val (y 1)) _ ?_ (ix2 r q)
    (cover0_7 _ _ _ _ _ _ _ _ _ _ _ _ _ _ _ _ _ _ (ix2 r q))
  intro p hp x
  simp only [List.mem_cons, List.not_mem_nil, or_false] at hp
  rcases hp with rfl | rfl | rfl | rfl | rfl | rfl | rfl | rfl | rfl | rfl | rfl | rfl | rfl | rfl | rfl | rfl | rfl | rfl
  · exact piece_row d x1 x2 x3 x4 W0 b0 Ws bs h1 h2 h3 h4 17 (by decide) inb_S18x9_S1x9_17_0 x
  · exact piece_row d x1 x2 x3 x4 W0 b0 Ws bs h1 h2 h3 h4 16 (by decide) inb_S18x9_S1x9_16_0 x
  · exact piece_row d x1 x2 x3 x4 W0 b0 Ws bs h1 h2 h3 h4 15 (by decide) inb_S18x9_S1x9_15_0 x
  · exact piece_row d x1 x2 x3 x4 W0 b0 Ws bs h1 h2 h3 h4 14 (by decide) inb_S18x9_S1x9_14_0 x
  · exact piece_row d x1 x2 x3 x4 W0 b0 Ws bs h1 h2 h3 h4 13 (by decide) inb_S18x9_S1x9_13_0 x
  · exact piece_row d x1 x2 x3 x4 W0 b0 Ws bs h1 h2 h3 h4 12 (by decide) inb_S18x9_S1x9_12_0 x
  · exact piece_row d x1 x2 x3 x4 W0 b0 Ws bs h1 h2 h3 h4 11 (by decide) inb_S18x9_S1x9_11_0 x
  · exact piece_row d x1 x2 x3 x4 W0 b0 Ws bs h1 h2 h3 h4 10 (by decide) inb_S18x9_S1x9_10_0 x
  · exact piece_row d x1 x2 x3 x4 W0 b0 Ws bs h1 h2 h3 h4 9 (by decide) inb_S18x9_S1x9_9_0 x
  · exact piece_row d x1 x2 x3 x4 W0 b0 Ws bs h1 h2 h3 h4 8 (by decide) inb_S18x9_S1x9_8_0 x
  · exact piece_row d x1 x2 x3 x4 W0 b0 Ws bs h1 h2 h3 h4 7 (by decide) inb_S18x9_S1x9_7_0 x
  · exact piece_row d x1 x2 x3 x4 W0 b0 Ws bs h1 h2 h3 h4 6 (by decide) inb_S18x9_S1x9_6_0 x
  · exact piece_row d x1 x2 x3 x4 W0 b0 Ws bs h1 h2 h3 h4 5 (by decide) inb_S18x9_S1x9_5_0 x
  · exact piece_row d x1 x2 x3 x4 W0 b0 Ws bs h1 h2 h3 h4 4 (by decide) inb_S18x9_S1x9_4_0 x
  · exact piece_row d x1 x2 x3 x4 W0 b0 Ws bs h1 h2 h3 h4 3 (by decide) inb_S18x9_S1x9_3_0 x
  · exact piece_row d x1 x2 x3 x4 W0 b0 Ws bs h1 h2 h3 h4 2 (by decide) inb_S18x9_S1x9_2_0 x
  · exact piece_row d x1 x2 x3 x4 W0 b0 Ws bs h1 h2 h3 h4 1 (by decide) inb_S18x9_S1x9_1_0 x
  · exact piece_row d x1 x2 x3 x4 W0 b0 Ws bs h1 h2 h3 h4 0 (by decide) inb_S18x9_S1x9_0_0 x

theorem out8_apply (h1 : ∀ (k : Fin 2) (j : Fin 9), x1 (ix2 k j) = W0 (ix2 j k)) (h2 : ∀ j : Fin 9, x2 (ix2 0 j) = b0 (ix1 j))
    (h3 : ∀ (i : Fin 18) (k j : Fin 9), x3 (ix3 i k j) = Ws (ix3 i j k)) (h4 : ∀ (i : Fin 18) (j : Fin 9), x4 (ix3 i 0 j) = bs (ix2 i j))
    (Wb : Cert.Mlp.ShWb.Idx → EReal) (bb : Cert.Mlp.ShBb.Idx → EReal)
    (h5 : ∀ (k : Fin 9) (j : Fin 3), x5 (ix2 k j) = Wb (ix2 j k)) (h6 : ∀ j : Fin 3, x6 (ix2 0 j) = bb (ix1 j)) (j : Fin 3) :
    Gen.out0_8 (F := Ideal) d x1 x2 x3 x4 x5 x6 (ix2 0 j) = Cert.Mlp.biasOut d W0 b0 Ws bs Wb bb (ix1 j) := by
  rw [out0_8_eq, fin_apply, View.ld_unit_zero (funext fun a => match a with | ⟨0, _⟩ => rfl | ⟨1, _⟩ => rfl),
    View.ld_unit_zero (funext fun a => match a with | ⟨0, _⟩ => rfl | ⟨1, _⟩ => rfl), h6]
  show _ = (∑ k : Fin 9, Cert.Mlp.relu (Cert.Mlp.act d W0 b0 Ws bs 17) k * Wb (ix2 j k)) + bb (ix1 j)
  refine congrArg (· + bb (ix1 j)) (Finset.sum_congr rfl fun k _ => ?_)
  rw [kact_apply d x1 x2 x3 x4 W0 b0 Ws bs h1 h2 h3 h4, h5]
  rfl

end

end Cert.KernelIdeal.Pay

end
-- ==== Proof.KValue.lean ====
/-
  The idealized kernel's two results as the specification's functions of the argument arrays.

  The body's [18,9] result holds, in row n, the nine lanes of layer n's output (KPay, given what the seven input
  windows hold: KHost, KBlocks); its [1,3] result holds the final three lanes. Reshaped by the lines after the
  region (KRun) these are `kernelOut` and `biasOut` of the arguments.
-/
import proofs.«180207_j90924457656423_2_alg».proof.Proof.KHost
import proofs.«180207_j90924457656423_2_alg».proof.Proof.KRun
import proofs.«180207_j90924457656423_2_alg».proof.Proof.KPay
import proofs.«180207_j90924457656423_2_alg».proof.Proof.Spec

noncomputable section

namespace Cert.KernelIdeal.KValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The [18,9] table of the layers' outputs: row n, lane q is lane q of layer n's output. -/
def table (c : Dev nD) : S18x9.Idx → Elt Ideal .f32 := fun y =>
  Cert.Mlp.act (m ((c : Thread nD τ).loc main_arg0)) (m ((c : Thread nD τ).loc main_arg1)) (m ((c : Thread nD τ).loc main_arg2))
    (m ((c : Thread nD τ).loc main_arg3)) (m ((c : Thread nD τ).loc main_arg4)) (y 0).val (y 1)

/-- The [1,3] row of the final layer's output. -/
def row (c : Dev nD) : S1x3.Idx → Elt Ideal .f32 := fun y =>
  Cert.Mlp.biasOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (ix1 (y 1))

/-- Window 0's block is the input row itself. -/
theorem iblk0_eq (c : Dev nD) (t : Fin cfg0.N) :
    (iblk m c 0 t : Vec Ideal S1x2 .f32) = m ((c : Thread nD τ).loc main_arg0) := by
  funext y
  obtain ⟨a, k, rfl⟩ : ∃ (a : Fin 1) (k : Fin 2), y = ix2 a k := ⟨y 0, y 1, eq_ix2 y⟩
  obtain rfl : a = 0 := Subsingleton.elim _ _
  exact (Blocks.iblk0_apply m c t k).trans (congrFun (V_main_arg0 m c) _)

theorem h1 (c : Dev nD) (t : Fin cfg0.N) (k : Fin 2) (j : Fin 9) :
    (iblk m c 1 t : Vec Ideal S2x9 .f32) (ix2 k j) = m ((c : Thread nD τ).loc main_arg1) (ix2 j k) :=
  (Blocks.iblk1_apply m c t k j).trans (Host.V_v0_apply m c k j)
theorem h2 (c : Dev nD) (t : Fin cfg0.N) (j : Fin 9) :
    (iblk m c 2 t : Vec Ideal S1x9 .f32) (ix2 (0 : Fin 1) j) = m ((c : Thread nD τ).loc main_arg2) (ix1 j) :=
  (Blocks.iblk2_apply m c t j).trans (Host.V_v3_apply m c j)
theorem h3 (c : Dev nD) (t : Fin cfg0.N) (i : Fin 18) (k j : Fin 9) :
    (iblk m c 3 t : Vec Ideal S18x9x9 .f32) (ix3 i k j) = m ((c : Thread nD τ).loc main_arg3) (ix3 i j k) :=
  (Blocks.iblk3_apply m c t i k j).trans (Host.V_v1_apply m c i k j)
theorem h4 (c : Dev nD) (t : Fin cfg0.N) (i : Fin 18) (j : Fin 9) :
    (iblk m c 4 t : Vec Ideal S18x1x9 .f32) (ix3 i (0 : Fin 1) j) = m ((c : Thread nD τ).loc main_arg4) (ix2 i j) :=
  (Blocks.iblk4_apply m c t i j).trans (Host.V_v4_apply m c i j)
theorem h5 (c : Dev nD) (t : Fin cfg0.N) (k : Fin 9) (j : Fin 3) :
    (iblk m c 5 t : Vec Ideal S9x3 .f32) (ix2 k j) = m ((c : Thread nD τ).loc main_arg5) (ix2 j k) :=
  (Blocks.iblk5_apply m c t k j).trans (Host.V_v2_apply m c k j)
theorem h6 (c : Dev nD) (t : Fin cfg0.N) (j : Fin 3) :
    (iblk m c 6 t : Vec Ideal S1x3 .f32) (ix2 (0 : Fin 1) j) = m ((c : Thread nD τ).loc main_arg6) (ix1 j) :=
  (Blocks.iblk6_apply m c t j).trans (Host.V_v5_apply m c j)

/-- The body's [18,9] result is the table. -/
theorem out7_table (c : Dev nD) (t : Fin cfg0.N) (r : Fin 18) (q : Fin 9) :
    out0_7 (iblk m c 0 t) (iblk m c 1 t) (iblk m c 2 t) (iblk m c 3 t) (iblk m c 4 t) (iblk m c 5 t) (iblk m c 6 t) (ix2 r q)
      = table m c (ix2 r q) :=
  (Pay.out7_apply (iblk m c 0 t) (iblk m c 1 t) (iblk m c 2 t) (iblk m c 3 t) (iblk m c 4 t) (iblk m c 5 t) (iblk m c 6 t)
      (m ((c : Thread nD τ).loc main_arg1)) (m ((c : Thread nD τ).loc main_arg2)) (m ((c : Thread nD τ).loc main_arg3))
      (m ((c : Thread nD τ).loc main_arg4)) (h1 m c t) (h2 m c t) (h3 m c t) (h4 m c t) r q).trans
    (congrArg (fun d => Cert.Mlp.act d (m ((c : Thread nD τ).loc main_arg1)) (m ((c : Thread nD τ).loc main_arg2))
      (m ((c : Thread nD τ).loc main_arg3)) (m ((c : Thread nD τ).loc main_arg4)) r.val q) (iblk0_eq m c t))

/-- The body's [1,3] result is the row. -/
theorem out8_row (c : Dev nD) (t : Fin cfg0.N) (q : Fin 3) :
    out0_8 (iblk m c 0 t) (iblk m c 1 t) (iblk m c 2 t) (iblk m c 3 t) (iblk m c 4 t) (iblk m c 5 t) (iblk m c 6 t) (ix2 (0 : Fin 1) q)
      = row m c (ix2 (0 : Fin 1) q) :=
  (Pay.out8_apply (iblk m c 0 t) (iblk m c 1 t) (iblk m c 2 t) (iblk m c 3 t) (iblk m c 4 t) (iblk m c 5 t) (iblk m c 6 t)
      (m ((c : Thread nD τ).loc main_arg1)) (m ((c : Thread nD τ).loc main_arg2)) (m ((c : Thread nD τ).loc main_arg3))
      (m ((c : Thread nD τ).loc main_arg4)) (h1 m c t) (h2 m c t) (h3 m c t) (h4 m c t)
      (m ((c : Thread nD τ).loc main_arg5)) (m ((c : Thread nD τ).loc main_arg6)) (h5 m c t) (h6 m c t) q).trans
    (congrArg (fun d => Cert.Mlp.biasOut d (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (ix1 q)) (iblk0_eq m c t))

/-- The table reshaped to [3,6,3,3] is `kernelOut`. -/
theorem cast_table_eq (c : Dev nD) :
    shapeCast S3x6x3x3 (table m c) shapeCasts_S18x9_S3x6x3x3
      = Cert.Mlp.kernelOut (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  rw [Run.cast_table]
  rfl

/-- The row reshaped to [3] is `biasOut`. -/
theorem cast_row_eq (c : Dev nD) :
    shapeCast S3 (row m c) shapeCasts_S1x3_S3
      = Cert.Mlp.biasOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext i
  rw [Run.cast_row]
  rfl

/-- The idealized kernel's run: the first result is `kernelOut` of the arguments, the second `biasOut`, the
    arguments unchanged. -/
theorem run : θ_run defs (onTc (τ := τ) (main (F := Ideal))) ⟨m, fun _ => 0, ρ⟩ (fun r => ∀ c : Dev nD,
      r.2.mem ((c.tc : Thread nD τ).loc main_v7)
        = Cert.Mlp.kernelOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_v8)
        = Cert.Mlp.biasOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).1.trans (cast_table_eq m c), (h c).2.1.trans (cast_row_eq m c), (h c).2.2⟩)
    (Run.run m ρ (table m) (row m) (out7_table m) (out8_row m))

end Cert.KernelIdeal.KValue

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.RefRun.lean ====
/-
  The reference's run, read in stretches.

  The reference is a straight line of 211 host operations: the first affine map and layer 0, then for each later
  layer the max(·, 0) of the previous layer's output and the layer itself, then the lines that join the eighteen
  outputs and compute the final three lanes. The contents of the buffers after a list of operations is a fold of
  the operations' results, and the fold of a concatenation is the fold of its second part over the fold of its
  first; so the run is read one layer at a time, the contents between two layers kept as one name. After layer
  n's stretch the arguments are as launched and the outputs of layers 0 … n sit in their buffers, each the stage
  the operations compose (the stages as named operation by operation in RefRead). The closing lines are read in RefTail.
-/
import proofs.«180207_j90924457656423_2_alg».proof.Proof.RefOps
import proofs.«180207_j90924457656423_2_alg».proof.Proof.RefRead
import proofs.«180207_j90924457656423_2_alg».proof.Proof.LibHostFold

noncomputable section

namespace Cert.ReferenceIdeal.RefRun

open Cert.ReferenceIdeal Cert.ReferenceIdeal.Gen Cert.ReferenceIdeal.Ops Cert.ReferenceIdeal.Read
open Idealize.ShloMosaic Idealize.ShloMosaic.TcCoe Idealize.SL.Sem Idealize.ShloMosaic.StableHlo

variable (m : (ℓ : Loc nD τ sig) → Buf (Elt Ideal) ℓ) (c : Dev nD)

/-! ## The contents between the stretches -/

/-- The buffers' contents after layer 0's stretch. -/
def W0 : Valuation τ sig (Elt Ideal) := after ops0 (launchContents m c)
/-- The buffers' contents after layer 1's stretch. -/
def W1 : Valuation τ sig (Elt Ideal) := after ops1 (W0 m c)
/-- The buffers' contents after layer 2's stretch. -/
def W2 : Valuation τ sig (Elt Ideal) := after ops2 (W1 m c)
/-- The buffers' contents after layer 3's stretch. -/
def W3 : Valuation τ sig (Elt Ideal) := after ops3 (W2 m c)
/-- The buffers' contents after layer 4's stretch. -/
def W4 : Valuation τ sig (Elt Ideal) := after ops4 (W3 m c)
/-- The buffers' contents after layer 5's stretch. -/
def W5 : Valuation τ sig (Elt Ideal) := after ops5 (W4 m c)
/-- The buffers' contents after layer 6's stretch. -/
def W6 : Valuation τ sig (Elt Ideal) := after ops6b (after ops6a (W5 m c))
/-- The buffers' contents after layer 7's stretch. -/
def W7 : Valuation τ sig (Elt Ideal) := after ops7 (W6 m c)
/-- The buffers' contents after layer 8's stretch. -/
def W8 : Valuation τ sig (Elt Ideal) := after ops8 (W7 m c)
/-- The buffers' contents after layer 9's stretch. -/
def W9 : Valuation τ sig (Elt Ideal) := after ops9 (W8 m c)
/-- The buffers' contents after layer 10's stretch. -/
def W10 : Valuation τ sig (Elt Ideal) := after ops10 (W9 m c)
/-- The buffers' contents after layer 11's stretch. -/
def W11 : Valuation τ sig (Elt Ideal) := after ops11 (W10 m c)
/-- The buffers' contents after layer 12's stretch. -/
def W12 : Valuation τ sig (Elt Ideal) := after ops12 (W11 m c)
/-- The buffers' contents after layer 13's stretch. -/
def W13 : Valuation τ sig (Elt Ideal) := after ops13 (W12 m c)
/-- The buffers' contents after layer 14's stretch. -/
def W14 : Valuation τ sig (Elt Ideal) := after ops14 (W13 m c)
/-- The buffers' contents after layer 15's stretch. -/
def W15 : Valuation τ sig (Elt Ideal) := after ops15 (W14 m c)
/-- The buffers' contents after layer 16's stretch. -/
def W16 : Valuation τ sig (Elt Ideal) := after ops16 (W15 m c)
/-- The buffers' contents after layer 17's stretch. -/
def W17 : Valuation τ sig (Elt Ideal) := after ops17 (W16 m c)

/-! ## Layer 0 -/

theorem W0_arg0 : W0 m c (Proc.devRef .tc main_arg0) = m ((c.tc : Thread nD τ).loc main_arg0) := by
  unfold W0; after_results; try rfl
theorem W0_arg1 : W0 m c (Proc.devRef .tc main_arg1) = m ((c.tc : Thread nD τ).loc main_arg1) := by
  unfold W0; after_results; try rfl
theorem W0_arg2 : W0 m c (Proc.devRef .tc main_arg2) = m ((c.tc : Thread nD τ).loc main_arg2) := by
  unfold W0; after_results; try rfl
theorem W0_arg3 : W0 m c (Proc.devRef .tc main_arg3) = m ((c.tc : Thread nD τ).loc main_arg3) := by
  unfold W0; after_results; try rfl
theorem W0_arg4 : W0 m c (Proc.devRef .tc main_arg4) = m ((c.tc : Thread nD τ).loc main_arg4) := by
  unfold W0; after_results; try rfl
theorem W0_arg5 : W0 m c (Proc.devRef .tc main_arg5) = m ((c.tc : Thread nD τ).loc main_arg5) := by
  unfold W0; after_results; try rfl
theorem W0_arg6 : W0 m c (Proc.devRef .tc main_arg6) = m ((c.tc : Thread nD τ).loc main_arg6) := by
  unfold W0; after_results; try rfl
/-- Layer 0's output is in its buffer. -/
theorem W0_row0 : W0 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W0; after_results; try rfl

/-! ## Layer 1 -/

theorem W1_arg0 : W1 m c (Proc.devRef .tc main_arg0) = m ((c.tc : Thread nD τ).loc main_arg0) := by
  unfold W1; after_results; exact W0_arg0 m c
theorem W1_arg1 : W1 m c (Proc.devRef .tc main_arg1) = m ((c.tc : Thread nD τ).loc main_arg1) := by
  unfold W1; after_results; exact W0_arg1 m c
theorem W1_arg2 : W1 m c (Proc.devRef .tc main_arg2) = m ((c.tc : Thread nD τ).loc main_arg2) := by
  unfold W1; after_results; exact W0_arg2 m c
theorem W1_arg3 : W1 m c (Proc.devRef .tc main_arg3) = m ((c.tc : Thread nD τ).loc main_arg3) := by
  unfold W1; after_results; exact W0_arg3 m c
theorem W1_arg4 : W1 m c (Proc.devRef .tc main_arg4) = m ((c.tc : Thread nD τ).loc main_arg4) := by
  unfold W1; after_results; exact W0_arg4 m c
theorem W1_arg5 : W1 m c (Proc.devRef .tc main_arg5) = m ((c.tc : Thread nD τ).loc main_arg5) := by
  unfold W1; after_results; exact W0_arg5 m c
theorem W1_arg6 : W1 m c (Proc.devRef .tc main_arg6) = m ((c.tc : Thread nD τ).loc main_arg6) := by
  unfold W1; after_results; exact W0_arg6 m c
theorem W1_row0 : W1 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W1; after_results; exact W0_row0 m c
/-- Layer 1's output is in its buffer. -/
theorem W1_row1 : W1 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W1; after_results
  rw [W0_row0 m c, W0_arg3 m c, W0_arg4 m c]
  rfl

/-! ## Layer 2 -/

theorem W2_arg0 : W2 m c (Proc.devRef .tc main_arg0) = m ((c.tc : Thread nD τ).loc main_arg0) := by
  unfold W2; after_results; exact W1_arg0 m c
theorem W2_arg1 : W2 m c (Proc.devRef .tc main_arg1) = m ((c.tc : Thread nD τ).loc main_arg1) := by
  unfold W2; after_results; exact W1_arg1 m c
theorem W2_arg2 : W2 m c (Proc.devRef .tc main_arg2) = m ((c.tc : Thread nD τ).loc main_arg2) := by
  unfold W2; after_results; exact W1_arg2 m c
theorem W2_arg3 : W2 m c (Proc.devRef .tc main_arg3) = m ((c.tc : Thread nD τ).loc main_arg3) := by
  unfold W2; after_results; exact W1_arg3 m c
theorem W2_arg4 : W2 m c (Proc.devRef .tc main_arg4) = m ((c.tc : Thread nD τ).loc main_arg4) := by
  unfold W2; after_results; exact W1_arg4 m c
theorem W2_arg5 : W2 m c (Proc.devRef .tc main_arg5) = m ((c.tc : Thread nD τ).loc main_arg5) := by
  unfold W2; after_results; exact W1_arg5 m c
theorem W2_arg6 : W2 m c (Proc.devRef .tc main_arg6) = m ((c.tc : Thread nD τ).loc main_arg6) := by
  unfold W2; after_results; exact W1_arg6 m c
theorem W2_row0 : W2 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W2; after_results; exact W1_row0 m c
theorem W2_row1 : W2 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W2; after_results; exact W1_row1 m c
/-- Layer 2's output is in its buffer. -/
theorem W2_row2 : W2 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W2; after_results
  rw [W1_row1 m c, W1_arg3 m c, W1_arg4 m c]
  rfl

/-! ## Layer 3 -/

theorem W3_arg0 : W3 m c (Proc.devRef .tc main_arg0) = m ((c.tc : Thread nD τ).loc main_arg0) := by
  unfold W3; after_results; exact W2_arg0 m c
theorem W3_arg1 : W3 m c (Proc.devRef .tc main_arg1) = m ((c.tc : Thread nD τ).loc main_arg1) := by
  unfold W3; after_results; exact W2_arg1 m c
theorem W3_arg2 : W3 m c (Proc.devRef .tc main_arg2) = m ((c.tc : Thread nD τ).loc main_arg2) := by
  unfold W3; after_results; exact W2_arg2 m c
theorem W3_arg3 : W3 m c (Proc.devRef .tc main_arg3) = m ((c.tc : Thread nD τ).loc main_arg3) := by
  unfold W3; after_results; exact W2_arg3 m c
theorem W3_arg4 : W3 m c (Proc.devRef .tc main_arg4) = m ((c.tc : Thread nD τ).loc main_arg4) := by
  unfold W3; after_results; exact W2_arg4 m c
theorem W3_arg5 : W3 m c (Proc.devRef .tc main_arg5) = m ((c.tc : Thread nD τ).loc main_arg5) := by
  unfold W3; after_results; exact W2_arg5 m c
theorem W3_arg6 : W3 m c (Proc.devRef .tc main_arg6) = m ((c.tc : Thread nD τ).loc main_arg6) := by
  unfold W3; after_results; exact W2_arg6 m c
theorem W3_row0 : W3 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W3; after_results; exact W2_row0 m c
theorem W3_row1 : W3 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W3; after_results; exact W2_row1 m c
theorem W3_row2 : W3 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W3; after_results; exact W2_row2 m c
/-- Layer 3's output is in its buffer. -/
theorem W3_row3 : W3 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W3; after_results
  rw [W2_row2 m c, W2_arg3 m c, W2_arg4 m c]
  rfl

/-! ## Layer 4 -/

theorem W4_arg0 : W4 m c (Proc.devRef .tc main_arg0) = m ((c.tc : Thread nD τ).loc main_arg0) := by
  unfold W4; after_results; exact W3_arg0 m c
theorem W4_arg1 : W4 m c (Proc.devRef .tc main_arg1) = m ((c.tc : Thread nD τ).loc main_arg1) := by
  unfold W4; after_results; exact W3_arg1 m c
theorem W4_arg2 : W4 m c (Proc.devRef .tc main_arg2) = m ((c.tc : Thread nD τ).loc main_arg2) := by
  unfold W4; after_results; exact W3_arg2 m c
theorem W4_arg3 : W4 m c (Proc.devRef .tc main_arg3) = m ((c.tc : Thread nD τ).loc main_arg3) := by
  unfold W4; after_results; exact W3_arg3 m c
theorem W4_arg4 : W4 m c (Proc.devRef .tc main_arg4) = m ((c.tc : Thread nD τ).loc main_arg4) := by
  unfold W4; after_results; exact W3_arg4 m c
theorem W4_arg5 : W4 m c (Proc.devRef .tc main_arg5) = m ((c.tc : Thread nD τ).loc main_arg5) := by
  unfold W4; after_results; exact W3_arg5 m c
theorem W4_arg6 : W4 m c (Proc.devRef .tc main_arg6) = m ((c.tc : Thread nD τ).loc main_arg6) := by
  unfold W4; after_results; exact W3_arg6 m c
theorem W4_row0 : W4 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W4; after_results; exact W3_row0 m c
theorem W4_row1 : W4 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W4; after_results; exact W3_row1 m c
theorem W4_row2 : W4 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W4; after_results; exact W3_row2 m c
theorem W4_row3 : W4 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W4; after_results; exact W3_row3 m c
/-- Layer 4's output is in its buffer. -/
theorem W4_row4 : W4 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W4; after_results
  rw [W3_row3 m c, W3_arg3 m c, W3_arg4 m c]
  rfl

/-! ## Layer 5 -/

theorem W5_arg0 : W5 m c (Proc.devRef .tc main_arg0) = m ((c.tc : Thread nD τ).loc main_arg0) := by
  unfold W5; after_results; exact W4_arg0 m c
theorem W5_arg1 : W5 m c (Proc.devRef .tc main_arg1) = m ((c.tc : Thread nD τ).loc main_arg1) := by
  unfold W5; after_results; exact W4_arg1 m c
theorem W5_arg2 : W5 m c (Proc.devRef .tc main_arg2) = m ((c.tc : Thread nD τ).loc main_arg2) := by
  unfold W5; after_results; exact W4_arg2 m c
theorem W5_arg3 : W5 m c (Proc.devRef .tc main_arg3) = m ((c.tc : Thread nD τ).loc main_arg3) := by
  unfold W5; after_results; exact W4_arg3 m c
theorem W5_arg4 : W5 m c (Proc.devRef .tc main_arg4) = m ((c.tc : Thread nD τ).loc main_arg4) := by
  unfold W5; after_results; exact W4_arg4 m c
theorem W5_arg5 : W5 m c (Proc.devRef .tc main_arg5) = m ((c.tc : Thread nD τ).loc main_arg5) := by
  unfold W5; after_results; exact W4_arg5 m c
theorem W5_arg6 : W5 m c (Proc.devRef .tc main_arg6) = m ((c.tc : Thread nD τ).loc main_arg6) := by
  unfold W5; after_results; exact W4_arg6 m c
theorem W5_row0 : W5 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W5; after_results; exact W4_row0 m c
theorem W5_row1 : W5 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W5; after_results; exact W4_row1 m c
theorem W5_row2 : W5 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W5; after_results; exact W4_row2 m c
theorem W5_row3 : W5 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W5; after_results; exact W4_row3 m c
theorem W5_row4 : W5 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W5; after_results; exact W4_row4 m c
/-- Layer 5's output is in its buffer. -/
theorem W5_row5 : W5 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W5; after_results
  rw [W4_row4 m c, W4_arg3 m c, W4_arg4 m c]
  rfl

/-! ## Layer 6 -/

theorem W6_arg0 : W6 m c (Proc.devRef .tc main_arg0) = m ((c.tc : Thread nD τ).loc main_arg0) := by
  unfold W6; after_results; exact W5_arg0 m c
theorem W6_arg1 : W6 m c (Proc.devRef .tc main_arg1) = m ((c.tc : Thread nD τ).loc main_arg1) := by
  unfold W6; after_results; exact W5_arg1 m c
theorem W6_arg2 : W6 m c (Proc.devRef .tc main_arg2) = m ((c.tc : Thread nD τ).loc main_arg2) := by
  unfold W6; after_results; exact W5_arg2 m c
theorem W6_arg3 : W6 m c (Proc.devRef .tc main_arg3) = m ((c.tc : Thread nD τ).loc main_arg3) := by
  unfold W6; after_results; exact W5_arg3 m c
theorem W6_arg4 : W6 m c (Proc.devRef .tc main_arg4) = m ((c.tc : Thread nD τ).loc main_arg4) := by
  unfold W6; after_results; exact W5_arg4 m c
theorem W6_arg5 : W6 m c (Proc.devRef .tc main_arg5) = m ((c.tc : Thread nD τ).loc main_arg5) := by
  unfold W6; after_results; exact W5_arg5 m c
theorem W6_arg6 : W6 m c (Proc.devRef .tc main_arg6) = m ((c.tc : Thread nD τ).loc main_arg6) := by
  unfold W6; after_results; exact W5_arg6 m c
theorem W6_row0 : W6 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W6; after_results; exact W5_row0 m c
theorem W6_row1 : W6 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W6; after_results; exact W5_row1 m c
theorem W6_row2 : W6 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W6; after_results; exact W5_row2 m c
theorem W6_row3 : W6 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W6; after_results; exact W5_row3 m c
theorem W6_row4 : W6 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W6; after_results; exact W5_row4 m c
theorem W6_row5 : W6 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W6; after_results; exact W5_row5 m c
/-- Layer 6's output is in its buffer. -/
theorem W6_row6 : W6 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W6; after_results
  rw [W5_row5 m c, W5_arg3 m c, W5_arg4 m c]
  rfl

/-! ## Layer 7 -/

theorem W7_arg0 : W7 m c (Proc.devRef .tc main_arg0) = m ((c.tc : Thread nD τ).loc main_arg0) := by
  unfold W7; after_results; exact W6_arg0 m c
theorem W7_arg1 : W7 m c (Proc.devRef .tc main_arg1) = m ((c.tc : Thread nD τ).loc main_arg1) := by
  unfold W7; after_results; exact W6_arg1 m c
theorem W7_arg2 : W7 m c (Proc.devRef .tc main_arg2) = m ((c.tc : Thread nD τ).loc main_arg2) := by
  unfold W7; after_results; exact W6_arg2 m c
theorem W7_arg3 : W7 m c (Proc.devRef .tc main_arg3) = m ((c.tc : Thread nD τ).loc main_arg3) := by
  unfold W7; after_results; exact W6_arg3 m c
theorem W7_arg4 : W7 m c (Proc.devRef .tc main_arg4) = m ((c.tc : Thread nD τ).loc main_arg4) := by
  unfold W7; after_results; exact W6_arg4 m c
theorem W7_arg5 : W7 m c (Proc.devRef .tc main_arg5) = m ((c.tc : Thread nD τ).loc main_arg5) := by
  unfold W7; after_results; exact W6_arg5 m c
theorem W7_arg6 : W7 m c (Proc.devRef .tc main_arg6) = m ((c.tc : Thread nD τ).loc main_arg6) := by
  unfold W7; after_results; exact W6_arg6 m c
theorem W7_row0 : W7 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W7; after_results; exact W6_row0 m c
theorem W7_row1 : W7 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W7; after_results; exact W6_row1 m c
theorem W7_row2 : W7 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W7; after_results; exact W6_row2 m c
theorem W7_row3 : W7 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W7; after_results; exact W6_row3 m c
theorem W7_row4 : W7 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W7; after_results; exact W6_row4 m c
theorem W7_row5 : W7 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W7; after_results; exact W6_row5 m c
theorem W7_row6 : W7 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W7; after_results; exact W6_row6 m c
/-- Layer 7's output is in its buffer. -/
theorem W7_row7 : W7 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W7; after_results
  rw [W6_row6 m c, W6_arg3 m c, W6_arg4 m c]
  rfl

/-! ## Layer 8 -/

theorem W8_arg0 : W8 m c (Proc.devRef .tc main_arg0) = m ((c.tc : Thread nD τ).loc main_arg0) := by
  unfold W8; after_results; exact W7_arg0 m c
theorem W8_arg1 : W8 m c (Proc.devRef .tc main_arg1) = m ((c.tc : Thread nD τ).loc main_arg1) := by
  unfold W8; after_results; exact W7_arg1 m c
theorem W8_arg2 : W8 m c (Proc.devRef .tc main_arg2) = m ((c.tc : Thread nD τ).loc main_arg2) := by
  unfold W8; after_results; exact W7_arg2 m c
theorem W8_arg3 : W8 m c (Proc.devRef .tc main_arg3) = m ((c.tc : Thread nD τ).loc main_arg3) := by
  unfold W8; after_results; exact W7_arg3 m c
theorem W8_arg4 : W8 m c (Proc.devRef .tc main_arg4) = m ((c.tc : Thread nD τ).loc main_arg4) := by
  unfold W8; after_results; exact W7_arg4 m c
theorem W8_arg5 : W8 m c (Proc.devRef .tc main_arg5) = m ((c.tc : Thread nD τ).loc main_arg5) := by
  unfold W8; after_results; exact W7_arg5 m c
theorem W8_arg6 : W8 m c (Proc.devRef .tc main_arg6) = m ((c.tc : Thread nD τ).loc main_arg6) := by
  unfold W8; after_results; exact W7_arg6 m c
theorem W8_row0 : W8 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W8; after_results; exact W7_row0 m c
theorem W8_row1 : W8 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W8; after_results; exact W7_row1 m c
theorem W8_row2 : W8 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W8; after_results; exact W7_row2 m c
theorem W8_row3 : W8 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W8; after_results; exact W7_row3 m c
theorem W8_row4 : W8 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W8; after_results; exact W7_row4 m c
theorem W8_row5 : W8 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W8; after_results; exact W7_row5 m c
theorem W8_row6 : W8 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W8; after_results; exact W7_row6 m c
theorem W8_row7 : W8 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W8; after_results; exact W7_row7 m c
/-- Layer 8's output is in its buffer. -/
theorem W8_row8 : W8 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W8; after_results
  rw [W7_row7 m c, W7_arg3 m c, W7_arg4 m c]
  rfl

/-! ## Layer 9 -/

theorem W9_arg0 : W9 m c (Proc.devRef .tc main_arg0) = m ((c.tc : Thread nD τ).loc main_arg0) := by
  unfold W9; after_results; exact W8_arg0 m c
theorem W9_arg1 : W9 m c (Proc.devRef .tc main_arg1) = m ((c.tc : Thread nD τ).loc main_arg1) := by
  unfold W9; after_results; exact W8_arg1 m c
theorem W9_arg2 : W9 m c (Proc.devRef .tc main_arg2) = m ((c.tc : Thread nD τ).loc main_arg2) := by
  unfold W9; after_results; exact W8_arg2 m c
theorem W9_arg3 : W9 m c (Proc.devRef .tc main_arg3) = m ((c.tc : Thread nD τ).loc main_arg3) := by
  unfold W9; after_results; exact W8_arg3 m c
theorem W9_arg4 : W9 m c (Proc.devRef .tc main_arg4) = m ((c.tc : Thread nD τ).loc main_arg4) := by
  unfold W9; after_results; exact W8_arg4 m c
theorem W9_arg5 : W9 m c (Proc.devRef .tc main_arg5) = m ((c.tc : Thread nD τ).loc main_arg5) := by
  unfold W9; after_results; exact W8_arg5 m c
theorem W9_arg6 : W9 m c (Proc.devRef .tc main_arg6) = m ((c.tc : Thread nD τ).loc main_arg6) := by
  unfold W9; after_results; exact W8_arg6 m c
theorem W9_row0 : W9 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W9; after_results; exact W8_row0 m c
theorem W9_row1 : W9 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W9; after_results; exact W8_row1 m c
theorem W9_row2 : W9 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W9; after_results; exact W8_row2 m c
theorem W9_row3 : W9 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W9; after_results; exact W8_row3 m c
theorem W9_row4 : W9 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W9; after_results; exact W8_row4 m c
theorem W9_row5 : W9 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W9; after_results; exact W8_row5 m c
theorem W9_row6 : W9 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W9; after_results; exact W8_row6 m c
theorem W9_row7 : W9 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W9; after_results; exact W8_row7 m c
theorem W9_row8 : W9 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W9; after_results; exact W8_row8 m c
/-- Layer 9's output is in its buffer. -/
theorem W9_row9 : W9 m c (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W9; after_results
  rw [W8_row8 m c, W8_arg3 m c, W8_arg4 m c]
  rfl

/-! ## Layer 10 -/

theorem W10_arg0 : W10 m c (Proc.devRef .tc main_arg0) = m ((c.tc : Thread nD τ).loc main_arg0) := by
  unfold W10; after_results; exact W9_arg0 m c
theorem W10_arg1 : W10 m c (Proc.devRef .tc main_arg1) = m ((c.tc : Thread nD τ).loc main_arg1) := by
  unfold W10; after_results; exact W9_arg1 m c
theorem W10_arg2 : W10 m c (Proc.devRef .tc main_arg2) = m ((c.tc : Thread nD τ).loc main_arg2) := by
  unfold W10; after_results; exact W9_arg2 m c
theorem W10_arg3 : W10 m c (Proc.devRef .tc main_arg3) = m ((c.tc : Thread nD τ).loc main_arg3) := by
  unfold W10; after_results; exact W9_arg3 m c
theorem W10_arg4 : W10 m c (Proc.devRef .tc main_arg4) = m ((c.tc : Thread nD τ).loc main_arg4) := by
  unfold W10; after_results; exact W9_arg4 m c
theorem W10_arg5 : W10 m c (Proc.devRef .tc main_arg5) = m ((c.tc : Thread nD τ).loc main_arg5) := by
  unfold W10; after_results; exact W9_arg5 m c
theorem W10_arg6 : W10 m c (Proc.devRef .tc main_arg6) = m ((c.tc : Thread nD τ).loc main_arg6) := by
  unfold W10; after_results; exact W9_arg6 m c
theorem W10_row0 : W10 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W10; after_results; exact W9_row0 m c
theorem W10_row1 : W10 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W10; after_results; exact W9_row1 m c
theorem W10_row2 : W10 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W10; after_results; exact W9_row2 m c
theorem W10_row3 : W10 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W10; after_results; exact W9_row3 m c
theorem W10_row4 : W10 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W10; after_results; exact W9_row4 m c
theorem W10_row5 : W10 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W10; after_results; exact W9_row5 m c
theorem W10_row6 : W10 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W10; after_results; exact W9_row6 m c
theorem W10_row7 : W10 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W10; after_results; exact W9_row7 m c
theorem W10_row8 : W10 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W10; after_results; exact W9_row8 m c
theorem W10_row9 : W10 m c (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W10; after_results; exact W9_row9 m c
/-- Layer 10's output is in its buffer. -/
theorem W10_row10 : W10 m c (Proc.devRef .tc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W10; after_results
  rw [W9_row9 m c, W9_arg3 m c, W9_arg4 m c]
  rfl

/-! ## Layer 11 -/

theorem W11_arg0 : W11 m c (Proc.devRef .tc main_arg0) = m ((c.tc : Thread nD τ).loc main_arg0) := by
  unfold W11; after_results; exact W10_arg0 m c
theorem W11_arg1 : W11 m c (Proc.devRef .tc main_arg1) = m ((c.tc : Thread nD τ).loc main_arg1) := by
  unfold W11; after_results; exact W10_arg1 m c
theorem W11_arg2 : W11 m c (Proc.devRef .tc main_arg2) = m ((c.tc : Thread nD τ).loc main_arg2) := by
  unfold W11; after_results; exact W10_arg2 m c
theorem W11_arg3 : W11 m c (Proc.devRef .tc main_arg3) = m ((c.tc : Thread nD τ).loc main_arg3) := by
  unfold W11; after_results; exact W10_arg3 m c
theorem W11_arg4 : W11 m c (Proc.devRef .tc main_arg4) = m ((c.tc : Thread nD τ).loc main_arg4) := by
  unfold W11; after_results; exact W10_arg4 m c
theorem W11_arg5 : W11 m c (Proc.devRef .tc main_arg5) = m ((c.tc : Thread nD τ).loc main_arg5) := by
  unfold W11; after_results; exact W10_arg5 m c
theorem W11_arg6 : W11 m c (Proc.devRef .tc main_arg6) = m ((c.tc : Thread nD τ).loc main_arg6) := by
  unfold W11; after_results; exact W10_arg6 m c
theorem W11_row0 : W11 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results; exact W10_row0 m c
theorem W11_row1 : W11 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results; exact W10_row1 m c
theorem W11_row2 : W11 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results; exact W10_row2 m c
theorem W11_row3 : W11 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results; exact W10_row3 m c
theorem W11_row4 : W11 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results; exact W10_row4 m c
theorem W11_row5 : W11 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results; exact W10_row5 m c
theorem W11_row6 : W11 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results; exact W10_row6 m c
theorem W11_row7 : W11 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results; exact W10_row7 m c
theorem W11_row8 : W11 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results; exact W10_row8 m c
theorem W11_row9 : W11 m c (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results; exact W10_row9 m c
theorem W11_row10 : W11 m c (Proc.devRef .tc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results; exact W10_row10 m c
/-- Layer 11's output is in its buffer. -/
theorem W11_row11 : W11 m c (Proc.devRef .tc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W11; after_results
  rw [W10_row10 m c, W10_arg3 m c, W10_arg4 m c]
  rfl

/-! ## Layer 12 -/

theorem W12_arg0 : W12 m c (Proc.devRef .tc main_arg0) = m ((c.tc : Thread nD τ).loc main_arg0) := by
  unfold W12; after_results; exact W11_arg0 m c
theorem W12_arg1 : W12 m c (Proc.devRef .tc main_arg1) = m ((c.tc : Thread nD τ).loc main_arg1) := by
  unfold W12; after_results; exact W11_arg1 m c
theorem W12_arg2 : W12 m c (Proc.devRef .tc main_arg2) = m ((c.tc : Thread nD τ).loc main_arg2) := by
  unfold W12; after_results; exact W11_arg2 m c
theorem W12_arg3 : W12 m c (Proc.devRef .tc main_arg3) = m ((c.tc : Thread nD τ).loc main_arg3) := by
  unfold W12; after_results; exact W11_arg3 m c
theorem W12_arg4 : W12 m c (Proc.devRef .tc main_arg4) = m ((c.tc : Thread nD τ).loc main_arg4) := by
  unfold W12; after_results; exact W11_arg4 m c
theorem W12_arg5 : W12 m c (Proc.devRef .tc main_arg5) = m ((c.tc : Thread nD τ).loc main_arg5) := by
  unfold W12; after_results; exact W11_arg5 m c
theorem W12_arg6 : W12 m c (Proc.devRef .tc main_arg6) = m ((c.tc : Thread nD τ).loc main_arg6) := by
  unfold W12; after_results; exact W11_arg6 m c
theorem W12_row0 : W12 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row0 m c
theorem W12_row1 : W12 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row1 m c
theorem W12_row2 : W12 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row2 m c
theorem W12_row3 : W12 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row3 m c
theorem W12_row4 : W12 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row4 m c
theorem W12_row5 : W12 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row5 m c
theorem W12_row6 : W12 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row6 m c
theorem W12_row7 : W12 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row7 m c
theorem W12_row8 : W12 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row8 m c
theorem W12_row9 : W12 m c (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row9 m c
theorem W12_row10 : W12 m c (Proc.devRef .tc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row10 m c
theorem W12_row11 : W12 m c (Proc.devRef .tc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results; exact W11_row11 m c
/-- Layer 12's output is in its buffer. -/
theorem W12_row12 : W12 m c (Proc.devRef .tc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W12; after_results
  rw [W11_row11 m c, W11_arg3 m c, W11_arg4 m c]
  rfl

/-! ## Layer 13 -/

theorem W13_arg0 : W13 m c (Proc.devRef .tc main_arg0) = m ((c.tc : Thread nD τ).loc main_arg0) := by
  unfold W13; after_results; exact W12_arg0 m c
theorem W13_arg1 : W13 m c (Proc.devRef .tc main_arg1) = m ((c.tc : Thread nD τ).loc main_arg1) := by
  unfold W13; after_results; exact W12_arg1 m c
theorem W13_arg2 : W13 m c (Proc.devRef .tc main_arg2) = m ((c.tc : Thread nD τ).loc main_arg2) := by
  unfold W13; after_results; exact W12_arg2 m c
theorem W13_arg3 : W13 m c (Proc.devRef .tc main_arg3) = m ((c.tc : Thread nD τ).loc main_arg3) := by
  unfold W13; after_results; exact W12_arg3 m c
theorem W13_arg4 : W13 m c (Proc.devRef .tc main_arg4) = m ((c.tc : Thread nD τ).loc main_arg4) := by
  unfold W13; after_results; exact W12_arg4 m c
theorem W13_arg5 : W13 m c (Proc.devRef .tc main_arg5) = m ((c.tc : Thread nD τ).loc main_arg5) := by
  unfold W13; after_results; exact W12_arg5 m c
theorem W13_arg6 : W13 m c (Proc.devRef .tc main_arg6) = m ((c.tc : Thread nD τ).loc main_arg6) := by
  unfold W13; after_results; exact W12_arg6 m c
theorem W13_row0 : W13 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row0 m c
theorem W13_row1 : W13 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row1 m c
theorem W13_row2 : W13 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row2 m c
theorem W13_row3 : W13 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row3 m c
theorem W13_row4 : W13 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row4 m c
theorem W13_row5 : W13 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row5 m c
theorem W13_row6 : W13 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row6 m c
theorem W13_row7 : W13 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row7 m c
theorem W13_row8 : W13 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row8 m c
theorem W13_row9 : W13 m c (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row9 m c
theorem W13_row10 : W13 m c (Proc.devRef .tc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row10 m c
theorem W13_row11 : W13 m c (Proc.devRef .tc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row11 m c
theorem W13_row12 : W13 m c (Proc.devRef .tc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results; exact W12_row12 m c
/-- Layer 13's output is in its buffer. -/
theorem W13_row13 : W13 m c (Proc.devRef .tc main_v128) = val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W13; after_results
  rw [W12_row12 m c, W12_arg3 m c, W12_arg4 m c]
  rfl

/-! ## Layer 14 -/

theorem W14_arg0 : W14 m c (Proc.devRef .tc main_arg0) = m ((c.tc : Thread nD τ).loc main_arg0) := by
  unfold W14; after_results; exact W13_arg0 m c
theorem W14_arg1 : W14 m c (Proc.devRef .tc main_arg1) = m ((c.tc : Thread nD τ).loc main_arg1) := by
  unfold W14; after_results; exact W13_arg1 m c
theorem W14_arg2 : W14 m c (Proc.devRef .tc main_arg2) = m ((c.tc : Thread nD τ).loc main_arg2) := by
  unfold W14; after_results; exact W13_arg2 m c
theorem W14_arg3 : W14 m c (Proc.devRef .tc main_arg3) = m ((c.tc : Thread nD τ).loc main_arg3) := by
  unfold W14; after_results; exact W13_arg3 m c
theorem W14_arg4 : W14 m c (Proc.devRef .tc main_arg4) = m ((c.tc : Thread nD τ).loc main_arg4) := by
  unfold W14; after_results; exact W13_arg4 m c
theorem W14_arg5 : W14 m c (Proc.devRef .tc main_arg5) = m ((c.tc : Thread nD τ).loc main_arg5) := by
  unfold W14; after_results; exact W13_arg5 m c
theorem W14_arg6 : W14 m c (Proc.devRef .tc main_arg6) = m ((c.tc : Thread nD τ).loc main_arg6) := by
  unfold W14; after_results; exact W13_arg6 m c
theorem W14_row0 : W14 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row0 m c
theorem W14_row1 : W14 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row1 m c
theorem W14_row2 : W14 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row2 m c
theorem W14_row3 : W14 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row3 m c
theorem W14_row4 : W14 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row4 m c
theorem W14_row5 : W14 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row5 m c
theorem W14_row6 : W14 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row6 m c
theorem W14_row7 : W14 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row7 m c
theorem W14_row8 : W14 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row8 m c
theorem W14_row9 : W14 m c (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row9 m c
theorem W14_row10 : W14 m c (Proc.devRef .tc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row10 m c
theorem W14_row11 : W14 m c (Proc.devRef .tc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row11 m c
theorem W14_row12 : W14 m c (Proc.devRef .tc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row12 m c
theorem W14_row13 : W14 m c (Proc.devRef .tc main_v128) = val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results; exact W13_row13 m c
/-- Layer 14's output is in its buffer. -/
theorem W14_row14 : W14 m c (Proc.devRef .tc main_v137) = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W14; after_results
  rw [W13_row13 m c, W13_arg3 m c, W13_arg4 m c]
  rfl

/-! ## Layer 15 -/

theorem W15_arg0 : W15 m c (Proc.devRef .tc main_arg0) = m ((c.tc : Thread nD τ).loc main_arg0) := by
  unfold W15; after_results; exact W14_arg0 m c
theorem W15_arg1 : W15 m c (Proc.devRef .tc main_arg1) = m ((c.tc : Thread nD τ).loc main_arg1) := by
  unfold W15; after_results; exact W14_arg1 m c
theorem W15_arg2 : W15 m c (Proc.devRef .tc main_arg2) = m ((c.tc : Thread nD τ).loc main_arg2) := by
  unfold W15; after_results; exact W14_arg2 m c
theorem W15_arg3 : W15 m c (Proc.devRef .tc main_arg3) = m ((c.tc : Thread nD τ).loc main_arg3) := by
  unfold W15; after_results; exact W14_arg3 m c
theorem W15_arg4 : W15 m c (Proc.devRef .tc main_arg4) = m ((c.tc : Thread nD τ).loc main_arg4) := by
  unfold W15; after_results; exact W14_arg4 m c
theorem W15_arg5 : W15 m c (Proc.devRef .tc main_arg5) = m ((c.tc : Thread nD τ).loc main_arg5) := by
  unfold W15; after_results; exact W14_arg5 m c
theorem W15_arg6 : W15 m c (Proc.devRef .tc main_arg6) = m ((c.tc : Thread nD τ).loc main_arg6) := by
  unfold W15; after_results; exact W14_arg6 m c
theorem W15_row0 : W15 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row0 m c
theorem W15_row1 : W15 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row1 m c
theorem W15_row2 : W15 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row2 m c
theorem W15_row3 : W15 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row3 m c
theorem W15_row4 : W15 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row4 m c
theorem W15_row5 : W15 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row5 m c
theorem W15_row6 : W15 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row6 m c
theorem W15_row7 : W15 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row7 m c
theorem W15_row8 : W15 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row8 m c
theorem W15_row9 : W15 m c (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row9 m c
theorem W15_row10 : W15 m c (Proc.devRef .tc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row10 m c
theorem W15_row11 : W15 m c (Proc.devRef .tc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row11 m c
theorem W15_row12 : W15 m c (Proc.devRef .tc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row12 m c
theorem W15_row13 : W15 m c (Proc.devRef .tc main_v128) = val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row13 m c
theorem W15_row14 : W15 m c (Proc.devRef .tc main_v137) = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results; exact W14_row14 m c
/-- Layer 15's output is in its buffer. -/
theorem W15_row15 : W15 m c (Proc.devRef .tc main_v146) = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W15; after_results
  rw [W14_row14 m c, W14_arg3 m c, W14_arg4 m c]
  rfl

/-! ## Layer 16 -/

theorem W16_arg0 : W16 m c (Proc.devRef .tc main_arg0) = m ((c.tc : Thread nD τ).loc main_arg0) := by
  unfold W16; after_results; exact W15_arg0 m c
theorem W16_arg1 : W16 m c (Proc.devRef .tc main_arg1) = m ((c.tc : Thread nD τ).loc main_arg1) := by
  unfold W16; after_results; exact W15_arg1 m c
theorem W16_arg2 : W16 m c (Proc.devRef .tc main_arg2) = m ((c.tc : Thread nD τ).loc main_arg2) := by
  unfold W16; after_results; exact W15_arg2 m c
theorem W16_arg3 : W16 m c (Proc.devRef .tc main_arg3) = m ((c.tc : Thread nD τ).loc main_arg3) := by
  unfold W16; after_results; exact W15_arg3 m c
theorem W16_arg4 : W16 m c (Proc.devRef .tc main_arg4) = m ((c.tc : Thread nD τ).loc main_arg4) := by
  unfold W16; after_results; exact W15_arg4 m c
theorem W16_arg5 : W16 m c (Proc.devRef .tc main_arg5) = m ((c.tc : Thread nD τ).loc main_arg5) := by
  unfold W16; after_results; exact W15_arg5 m c
theorem W16_arg6 : W16 m c (Proc.devRef .tc main_arg6) = m ((c.tc : Thread nD τ).loc main_arg6) := by
  unfold W16; after_results; exact W15_arg6 m c
theorem W16_row0 : W16 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row0 m c
theorem W16_row1 : W16 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row1 m c
theorem W16_row2 : W16 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row2 m c
theorem W16_row3 : W16 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row3 m c
theorem W16_row4 : W16 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row4 m c
theorem W16_row5 : W16 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row5 m c
theorem W16_row6 : W16 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row6 m c
theorem W16_row7 : W16 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row7 m c
theorem W16_row8 : W16 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row8 m c
theorem W16_row9 : W16 m c (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row9 m c
theorem W16_row10 : W16 m c (Proc.devRef .tc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row10 m c
theorem W16_row11 : W16 m c (Proc.devRef .tc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row11 m c
theorem W16_row12 : W16 m c (Proc.devRef .tc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row12 m c
theorem W16_row13 : W16 m c (Proc.devRef .tc main_v128) = val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row13 m c
theorem W16_row14 : W16 m c (Proc.devRef .tc main_v137) = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row14 m c
theorem W16_row15 : W16 m c (Proc.devRef .tc main_v146) = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results; exact W15_row15 m c
/-- Layer 16's output is in its buffer. -/
theorem W16_row16 : W16 m c (Proc.devRef .tc main_v155) = val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W16; after_results
  rw [W15_row15 m c, W15_arg3 m c, W15_arg4 m c]
  rfl

/-! ## Layer 17 -/

theorem W17_arg0 : W17 m c (Proc.devRef .tc main_arg0) = m ((c.tc : Thread nD τ).loc main_arg0) := by
  unfold W17; after_results; exact W16_arg0 m c
theorem W17_arg1 : W17 m c (Proc.devRef .tc main_arg1) = m ((c.tc : Thread nD τ).loc main_arg1) := by
  unfold W17; after_results; exact W16_arg1 m c
theorem W17_arg2 : W17 m c (Proc.devRef .tc main_arg2) = m ((c.tc : Thread nD τ).loc main_arg2) := by
  unfold W17; after_results; exact W16_arg2 m c
theorem W17_arg3 : W17 m c (Proc.devRef .tc main_arg3) = m ((c.tc : Thread nD τ).loc main_arg3) := by
  unfold W17; after_results; exact W16_arg3 m c
theorem W17_arg4 : W17 m c (Proc.devRef .tc main_arg4) = m ((c.tc : Thread nD τ).loc main_arg4) := by
  unfold W17; after_results; exact W16_arg4 m c
theorem W17_arg5 : W17 m c (Proc.devRef .tc main_arg5) = m ((c.tc : Thread nD τ).loc main_arg5) := by
  unfold W17; after_results; exact W16_arg5 m c
theorem W17_arg6 : W17 m c (Proc.devRef .tc main_arg6) = m ((c.tc : Thread nD τ).loc main_arg6) := by
  unfold W17; after_results; exact W16_arg6 m c
theorem W17_row0 : W17 m c (Proc.devRef .tc main_v11) = val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row0 m c
theorem W17_row1 : W17 m c (Proc.devRef .tc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row1 m c
theorem W17_row2 : W17 m c (Proc.devRef .tc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row2 m c
theorem W17_row3 : W17 m c (Proc.devRef .tc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row3 m c
theorem W17_row4 : W17 m c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row4 m c
theorem W17_row5 : W17 m c (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row5 m c
theorem W17_row6 : W17 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row6 m c
theorem W17_row7 : W17 m c (Proc.devRef .tc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row7 m c
theorem W17_row8 : W17 m c (Proc.devRef .tc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row8 m c
theorem W17_row9 : W17 m c (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row9 m c
theorem W17_row10 : W17 m c (Proc.devRef .tc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row10 m c
theorem W17_row11 : W17 m c (Proc.devRef .tc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row11 m c
theorem W17_row12 : W17 m c (Proc.devRef .tc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row12 m c
theorem W17_row13 : W17 m c (Proc.devRef .tc main_v128) = val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row13 m c
theorem W17_row14 : W17 m c (Proc.devRef .tc main_v137) = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row14 m c
theorem W17_row15 : W17 m c (Proc.devRef .tc main_v146) = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row15 m c
theorem W17_row16 : W17 m c (Proc.devRef .tc main_v155) = val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results; exact W16_row16 m c
/-- Layer 17's output is in its buffer. -/
theorem W17_row17 : W17 m c (Proc.devRef .tc main_v164) = val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W17; after_results
  rw [W16_row16 m c, W16_arg3 m c, W16_arg4 m c]
  rfl

end Cert.ReferenceIdeal.RefRun

end
-- ==== Proof.RefMain.lean ====
/-
  The reference's @main as one straight line of host operations.

  The printed program runs its 176 statements in three parts; a call of the rectifier stands for the three operations
  of its body. With the callee's body unfolded at its eighteen calls and the sequencing reassociated, each part is the
  straight line of its operations, listed in short stretches (RefOps) and joined by concatenation; and a straight line
  run after another is the straight line of the concatenation. So @main is the straight line of all 211 operations
  in order. Every operation touches TensorCore buffers only and allocates nothing: a property of every element of two
  lists holds of every element of their concatenation.
-/
import proofs.«180207_j90924457656423_2_alg».proof.Proof.RefOps

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx => (List.mem_append.mp hx).elim
    (List.forall_iff_forall_mem.mp h₁ x) (List.forall_iff_forall_mem.mp h₂ x)

/-! ## No operation allocates -/

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor
theorem ops5_fresh : (ops5 : List (HloOp τ sig (Elt F))).Forall fun op => op.fresh = ∅ := by
  simp only [List.Forall]; repeat' constructor
theorem ops6a_fresh : (ops6a : List (HloOp τ sig (Elt F))).Forall fun op => op.fresh = ∅ := by
  simp only [List.Forall]; repeat' constructor
theorem ops6b_fresh : (ops6b : List (HloOp τ sig (Elt F))).Forall fun op => op.fresh = ∅ := by
  simp only [List.Forall]; repeat' constructor
theorem ops7_fresh : (ops7 : List (HloOp τ sig (Elt F))).Forall fun op => op.fresh = ∅ := by
  simp only [List.Forall]; repeat' constructor
theorem ops8_fresh : (ops8 : List (HloOp τ sig (Elt F))).Forall fun op => op.fresh = ∅ := by
  simp only [List.Forall]; repeat' constructor
theorem ops9_fresh : (ops9 : List (HloOp τ sig (Elt F))).Forall fun op => op.fresh = ∅ := by
  simp only [List.Forall]; repeat' constructor
theorem ops10_fresh : (ops10 : List (HloOp τ sig (Elt F))).Forall fun op => op.fresh = ∅ := by
  simp only [List.Forall]; repeat' constructor
theorem ops11_fresh : (ops11 : List (HloOp τ sig (Elt F))).Forall fun op => op.fresh = ∅ := by
  simp only [List.Forall]; repeat' constructor
theorem ops12_fresh : (ops12 : List (HloOp τ sig (Elt F))).Forall fun op => op.fresh = ∅ := by
  simp only [List.Forall]; repeat' constructor
theorem ops13_fresh : (ops13 : List (HloOp τ sig (Elt F))).Forall fun op => op.fresh = ∅ := by
  simp only [List.Forall]; repeat' constructor
theorem ops14_fresh : (ops14 : List (HloOp τ sig (Elt F))).Forall fun op => op.fresh = ∅ := by
  simp only [List.Forall]; repeat' constructor
theorem ops15_fresh : (ops15 : List (HloOp τ sig (Elt F))).Forall fun op => op.fresh = ∅ := by
  simp only [List.Forall]; repeat' constructor
theorem ops16_fresh : (ops16 : List (HloOp τ sig (Elt F))).Forall fun op => op.fresh = ∅ := by
  simp only [List.Forall]; repeat' constructor
theorem ops17_fresh : (ops17 : List (HloOp τ sig (Elt F))).Forall fun op => op.fresh = ∅ := by
  simp only [List.Forall]; repeat' constructor
theorem opsT_fresh : (opsT : List (HloOp τ sig (Elt F))).Forall fun op => op.fresh = ∅ := by
  simp only [List.Forall]; repeat' constructor

/-! ## The three printed parts and the whole line -/

/-- The operations of @main's first printed part (statements 1 … 60). -/
abbrev partA : List (HloOp τ sig (Elt F)) := ops0 ++ (ops1 ++ (ops2 ++ (ops3 ++ (ops4 ++ (ops5 ++ (ops6a))))))
/-- The operations of @main's second printed part (statements 61 … 120). -/
abbrev partB : List (HloOp τ sig (Elt F)) := ops6b ++ (ops7 ++ (ops8 ++ (ops9 ++ (ops10 ++ (ops11 ++ (ops12))))))
/-- The operations of @main's third printed part (statements 121 … 176). -/
abbrev partC : List (HloOp τ sig (Elt F)) := ops13 ++ (ops14 ++ (ops15 ++ (ops16 ++ (ops17 ++ (opsT)))))
/-- @main's 211 operations, in order. -/
abbrev all : List (HloOp τ sig (Elt F)) := partA ++ (partB ++ partC)

set_option maxRecDepth 8192 in
set_option maxHeartbeats 4000000 in
theorem partA_eq (c : Dev nD) : main_part0 (F := F) c = seq partA := by
  simp only [main_part0, fn_relu.body, seq, bind_assoc, pure_bind]
  rfl
set_option maxRecDepth 8192 in
set_option maxHeartbeats 4000000 in
theorem partB_eq (c : Dev nD) : main_part1 (F := F) c = seq partB := by
  simp only [main_part1, fn_relu.body, seq, bind_assoc, pure_bind]
  rfl
set_option maxRecDepth 8192 in
set_option maxHeartbeats 4000000 in
theorem partC_eq (c : Dev nD) : main_part2 (F := F) c = seq partC := by
  simp only [main_part2, fn_relu.body, seq, bind_assoc, pure_bind]
  rfl

/-- @main is the straight line of its operations. -/
theorem main_eq (c : Dev nD) : main (F := F) c = seq all := by
  have h : seq all = (main_part0 (F := F) c >>= fun _ => (main_part1 (F := F) c >>= fun _ => main_part2 (F := F) c)) := by
    rw [partA_eq c, partB_eq c, partC_eq c]
    show seq (partA ++ (partB ++ partC)) = _
    rw [seq_append partA (partB ++ partC), seq_append partB partC]
  rw [h]
  rfl

theorem partA_sub : (partA : List (HloOp τ sig (Elt F))).Forall fun op => op.bufs ⊆ tcRefs τ sig :=
  forall_append ops0_sub (forall_append ops1_sub (forall_append ops2_sub (forall_append ops3_sub (forall_append ops4_sub (forall_append ops5_sub (ops6a_sub))))))
theorem partB_sub : (partB : List (HloOp τ sig (Elt F))).Forall fun op => op.bufs ⊆ tcRefs τ sig :=
  forall_append ops6b_sub (forall_append ops7_sub (forall_append ops8_sub (forall_append ops9_sub (forall_append ops10_sub (forall_append ops11_sub (ops12_sub))))))
theorem partC_sub : (partC : List (HloOp τ sig (Elt F))).Forall fun op => op.bufs ⊆ tcRefs τ sig :=
  forall_append ops13_sub (forall_append ops14_sub (forall_append ops15_sub (forall_append ops16_sub (forall_append ops17_sub (opsT_sub)))))
/-- Every operation touches TensorCore references only. -/
theorem all_sub : (all : List (HloOp τ sig (Elt F))).Forall fun op => op.bufs ⊆ tcRefs τ sig :=
  forall_append partA_sub (forall_append partB_sub partC_sub)

theorem partA_fresh : (partA : List (HloOp τ sig (Elt F))).Forall fun op => op.fresh = ∅ :=
  forall_append ops0_fresh (forall_append ops1_fresh (forall_append ops2_fresh (forall_append ops3_fresh (forall_append ops4_fresh (forall_append ops5_fresh (ops6a_fresh))))))
theorem partB_fresh : (partB : List (HloOp τ sig (Elt F))).Forall fun op => op.fresh = ∅ :=
  forall_append ops6b_fresh (forall_append ops7_fresh (forall_append ops8_fresh (forall_append ops9_fresh (forall_append ops10_fresh (forall_append ops11_fresh (ops12_fresh))))))
theorem partC_fresh : (partC : List (HloOp τ sig (Elt F))).Forall fun op => op.fresh = ∅ :=
  forall_append ops13_fresh (forall_append ops14_fresh (forall_append ops15_fresh (forall_append ops16_fresh (forall_append ops17_fresh (opsT_fresh)))))
/-- No operation allocates. -/
theorem all_fresh : ∀ op ∈ (all : List (HloOp τ sig (Elt F))), op.fresh = ∅ :=
  List.forall_iff_forall_mem.mp (forall_append partA_fresh (forall_append partB_fresh partC_fresh))

end Cert.ReferenceIdeal.Ops

end
-- ==== Proof.RefTail.lean ====
/-
  The reference's closing lines and its run.

  After the eighteen layers the reference joins their outputs into one row of 162 (sixteen, two, then the two
  joined), reshapes it to [3,6,3,3], and computes the final three lanes from max(last output, 0). Read over the
  contents the layers left (RefRun), the two results are the last stages of the argument arrays; and the fold over
  all the operations is the fold stretch by stretch.
-/
import proofs.«180207_j90924457656423_2_alg».proof.Proof.RefRun
import proofs.«180207_j90924457656423_2_alg».proof.Proof.RefMain

noncomputable section

namespace Cert.ReferenceIdeal.RefRun

open Cert.ReferenceIdeal Cert.ReferenceIdeal.Gen Cert.ReferenceIdeal.Ops Cert.ReferenceIdeal.Read
open Idealize.ShloMosaic Idealize.ShloMosaic.TcCoe Idealize.SL.Sem Idealize.ShloMosaic.StableHlo

variable (m : (ℓ : Loc nD τ sig) → Buf (Elt Ideal) ℓ) (c : Dev nD)

/-- The buffers' contents after the closing lines. -/
def WT : Valuation τ sig (Elt Ideal) := after opsT (W17 m c)

theorem WT_arg0 : WT m c (Proc.devRef .tc main_arg0) = m ((c.tc : Thread nD τ).loc main_arg0) := by
  unfold WT; after_results; exact W17_arg0 m c
theorem WT_arg1 : WT m c (Proc.devRef .tc main_arg1) = m ((c.tc : Thread nD τ).loc main_arg1) := by
  unfold WT; after_results; exact W17_arg1 m c
theorem WT_arg2 : WT m c (Proc.devRef .tc main_arg2) = m ((c.tc : Thread nD τ).loc main_arg2) := by
  unfold WT; after_results; exact W17_arg2 m c
theorem WT_arg3 : WT m c (Proc.devRef .tc main_arg3) = m ((c.tc : Thread nD τ).loc main_arg3) := by
  unfold WT; after_results; exact W17_arg3 m c
theorem WT_arg4 : WT m c (Proc.devRef .tc main_arg4) = m ((c.tc : Thread nD τ).loc main_arg4) := by
  unfold WT; after_results; exact W17_arg4 m c
theorem WT_arg5 : WT m c (Proc.devRef .tc main_arg5) = m ((c.tc : Thread nD τ).loc main_arg5) := by
  unfold WT; after_results; exact W17_arg5 m c
theorem WT_arg6 : WT m c (Proc.devRef .tc main_arg6) = m ((c.tc : Thread nD τ).loc main_arg6) := by
  unfold WT; after_results; exact W17_arg6 m c

/-- The first result is the stage of the reshape of the joined outputs. -/
theorem WT_v168 : WT m c (Proc.devRef .tc main_v168) = val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold WT; after_results
  unfold val_main_v168 val_main_v167 val_main_v166 val_main_v165
  rw [← W17_row0 m c, ← W17_row1 m c, ← W17_row2 m c, ← W17_row3 m c, ← W17_row4 m c, ← W17_row5 m c, ← W17_row6 m c, ← W17_row7 m c, ← W17_row8 m c, ← W17_row9 m c, ← W17_row10 m c, ← W17_row11 m c, ← W17_row12 m c, ← W17_row13 m c, ← W17_row14 m c, ← W17_row15 m c, ← W17_row16 m c, ← W17_row17 m c]
  rfl

/-- The second result is the stage of the reshape of the final three lanes. -/
theorem WT_v174 : WT m c (Proc.devRef .tc main_v174) = val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold WT; after_results
  rw [W17_row17 m c, W17_arg5 m c, W17_arg6 m c]
  rfl

/-- The fold over all the operations is the fold stretch by stretch. -/
theorem after_all : after all (launchContents m c) = WT m c := by
  simp only [all, partA, partB, partC, Cert.HostFold.after_append]
  rfl

/-- Every weakly fair execution of the reference terminates with its two results at the last stages of the argument
    arrays and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v168) = val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v174) = val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_v168).trans ((congrFun (after_all m c) (Proc.devRef .tc main_v168)).trans (WT_v168 m c)),
      (h c main_v174).trans ((congrFun (after_all m c) (Proc.devRef .tc main_v174)).trans (WT_v174 m c)),
      (h c main_arg0).trans ((congrFun (after_all m c) (Proc.devRef .tc main_arg0)).trans (WT_arg0 m c)),
      (h c main_arg1).trans ((congrFun (after_all m c) (Proc.devRef .tc main_arg1)).trans (WT_arg1 m c)),
      (h c main_arg2).trans ((congrFun (after_all m c) (Proc.devRef .tc main_arg2)).trans (WT_arg2 m c)),
      (h c main_arg3).trans ((congrFun (after_all m c) (Proc.devRef .tc main_arg3)).trans (WT_arg3 m c)),
      (h c main_arg4).trans ((congrFun (after_all m c) (Proc.devRef .tc main_arg4)).trans (WT_arg4 m c)),
      (h c main_arg5).trans ((congrFun (after_all m c) (Proc.devRef .tc main_arg5)).trans (WT_arg5 m c)),
      (h c main_arg6).trans ((congrFun (after_all m c) (Proc.devRef .tc main_arg6)).trans (WT_arg6 m c))⟩)
    (run_seq scopedRefs_eq scopedSems_eq defs main (fun _ => all) main_eq (fun _ => all_sub) m ρ (fun _ => all_fresh))

end Cert.ReferenceIdeal.RefRun

end
-- ==== Proof.RefLayers.lean ====
/-
  The reference program's chain of layers, lane by lane.

  Each of its eighteen stacked layers is a product of the previous [1,9] row with a transposed [9,9] slice of the
  weights plus a broadcast slice of the biases; read at lane j this is Σ_k h[k]·Ws[n,j,k] + bs[n,j], with h the
  previous row passed through max(·,0) (not for layer 0, which reads the first affine map's row as it is). The
  layout operations only rename indices: slice n of the stack at (0,j,k) is entry (n,j,k), the reshape to [9,9]
  reads row-major, the transpose swaps the two coordinates. So every row equals the specification's `act n`
  summand by summand, by induction along the chain.
-/
import proofs.«180207_j90924457656423_2_alg».proof.Proof.RefRead
import proofs.«180207_j90924457656423_2_alg».proof.Proof.Spec

noncomputable section

namespace Cert.ReferenceIdeal.RefValue

open Cert.ReferenceIdeal Cert.ReferenceIdeal.Gen Idealize.ShloMosaic Idealize.ShloMosaic.ValueIdx

/-- Sum of two extended reals, as the host's addition at the ideal instance spells it. -/
theorem addf_eq {a b c d : EReal} (h1 : a = c) (h2 : b = d) :
    (FloatOps.addf (F := Ideal) (φ := .f32) a b : EReal) = c + d := by rw [h1, h2]; rfl

/-- The first affine map: lane j of the stage is Σ_k d[0,k]·W0[j,k] + b0[j]. -/
theorem v3_row (x0 : (⟨S1x2, .f32⟩ : BufTy).Contents (Elt Ideal)) (x1 : (⟨S9x2, .f32⟩ : BufTy).Contents (Elt Ideal))
    (x2 : (⟨S9, .f32⟩ : BufTy).Contents (Elt Ideal)) (j : Fin 9) :
    Read.val_main_v3 (F := Ideal) x0 x1 x2 (ix2 0 j) = Cert.Mlp.fc0 x0 x1 x2 j := by
  rw [Read.val_main_v3_apply, Read.val_main_v1_apply, Read.val_main_v2_apply]
  unfold Cert.Mlp.fc0
  refine addf_eq (Finset.sum_congr rfl fun k _ => ?_) ?_
  · rw [Read.val_main_v0_apply]
    have el : Read.lidx_main_v1 (ix2 0 j) k = ix2 0 k := funext fun a => Fin.ext (by
      match a with
      | ⟨0, _⟩ => rfl
      | ⟨1, _⟩ => rfl)
    have er : Read.idx_main_v0 (Read.ridx_main_v1 (ix2 0 j) k) = ix2 j k := funext fun a => Fin.ext (by
      match a with
      | ⟨0, _⟩ => rfl
      | ⟨1, _⟩ => rfl)
    rw [el, er]
  · have eb : Read.idx_main_v2 (ix2 0 j) = ix1 j := funext fun a => Fin.ext (by
      match a with
      | ⟨0, _⟩ => rfl)
    rw [eb]

/-- Layer 0: the stacked map with slice 0 applied to the first affine map's lanes. -/
theorem row_0 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v11 (F := Ideal) x0 x1 x2 x3 x4 (ix2 0 j) = Cert.Mlp.act x0 x1 x2 x3 x4 0 j := by
  rw [Read.val_main_v11_apply, Read.val_main_v7_apply, Read.val_main_v10_apply, Read.val_main_v9_apply,
    Read.val_main_v8_apply, Cert.Mlp.act_zero]
  unfold Cert.Mlp.dense
  refine addf_eq (Finset.sum_congr rfl fun k _ => ?_) ?_
  · rw [Read.val_main_v6_apply, Read.val_main_v5_apply, Read.val_main_v4_apply]
    have el : Read.lidx_main_v7 (ix2 0 j) k = ix2 0 k := funext fun a => Fin.ext (by
      match a with
      | ⟨0, _⟩ => rfl
      | ⟨1, _⟩ => rfl)
    have ew : Read.idx_main_v4 (Read.idx_main_v5 (Read.idx_main_v6 (Read.ridx_main_v7 (ix2 0 j) k))) = ix3 0 j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, v3_row]
  · have eb : Read.idx_main_v8 (Read.idx_main_v9 (Read.idx_main_v10 (ix2 0 j))) = ix2 0 j := funext fun a => Fin.ext (by
      match a with
      | ⟨0, _⟩ => rfl
      | ⟨1, _⟩ => show j.val % 9 = j.val; omega)
    rw [eb]

/-- Layer 1: the stacked map with slice 1 applied to max(layer 0's lanes, 0). -/
theorem row_1 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v20 (F := Ideal) x0 x1 x2 x3 x4 (ix2 0 j) = Cert.Mlp.act x0 x1 x2 x3 x4 1 j := by
  show _ = Cert.Mlp.dense x3 x4 (Cert.Mlp.layer 1) (Cert.Mlp.relu (Cert.Mlp.act x0 x1 x2 x3 x4 0)) j
  rw [Read.val_main_v20_apply, Read.val_main_v16_apply, Read.val_main_v19_apply, Read.val_main_v18_apply,
    Read.val_main_v17_apply]
  unfold Cert.Mlp.dense
  refine addf_eq (Finset.sum_congr rfl fun k _ => ?_) ?_
  · rw [Read.val_main_v15_apply, Read.val_main_v14_apply, Read.val_main_v13_apply]
    have el : Read.lidx_main_v16 (ix2 0 j) k = ix2 0 k := funext fun a => Fin.ext (by
      match a with
      | ⟨0, _⟩ => rfl
      | ⟨1, _⟩ => rfl)
    have ew : Read.idx_main_v13 (Read.idx_main_v14 (Read.idx_main_v15 (Read.ridx_main_v16 (ix2 0 j) k)))
        = ix3 (Cert.Mlp.layer 1) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v12_apply, row_0, Read.val_main_call0_v0_apply, Read.val_main_call0_cst_apply]
    rfl
  · have eb : Read.idx_main_v17 (Read.idx_main_v18 (Read.idx_main_v19 (ix2 0 j))) = ix2 (Cert.Mlp.layer 1) j :=
      funext fun a => Fin.ext (by
        match a with
        | ⟨0, _⟩ => rfl
        | ⟨1, _⟩ => show j.val % 9 = j.val; omega)
    rw [eb]

/-- Layer 2: the stacked map with slice 2 applied to max(layer 1's lanes, 0). -/
theorem row_2 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v29 (F := Ideal) x0 x1 x2 x3 x4 (ix2 0 j) = Cert.Mlp.act x0 x1 x2 x3 x4 2 j := by
  show _ = Cert.Mlp.dense x3 x4 (Cert.Mlp.layer 2) (Cert.Mlp.relu (Cert.Mlp.act x0 x1 x2 x3 x4 1)) j
  rw [Read.val_main_v29_apply, Read.val_main_v25_apply, Read.val_main_v28_apply, Read.val_main_v27_apply,
    Read.val_main_v26_apply]
  unfold Cert.Mlp.dense
  refine addf_eq (Finset.sum_congr rfl fun k _ => ?_) ?_
  · rw [Read.val_main_v24_apply, Read.val_main_v23_apply, Read.val_main_v22_apply]
    have el : Read.lidx_main_v25 (ix2 0 j) k = ix2 0 k := funext fun a => Fin.ext (by
      match a with
      | ⟨0, _⟩ => rfl
      | ⟨1, _⟩ => rfl)
    have ew : Read.idx_main_v22 (Read.idx_main_v23 (Read.idx_main_v24 (Read.ridx_main_v25 (ix2 0 j) k)))
        = ix3 (Cert.Mlp.layer 2) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v21_apply, row_1, Read.val_main_call1_v0_apply, Read.val_main_call1_cst_apply]
    rfl
  · have eb : Read.idx_main_v26 (Read.idx_main_v27 (Read.idx_main_v28 (ix2 0 j))) = ix2 (Cert.Mlp.layer 2) j :=
      funext fun a => Fin.ext (by
        match a with
        | ⟨0, _⟩ => rfl
        | ⟨1, _⟩ => show j.val % 9 = j.val; omega)
    rw [eb]

/-- Layer 3: the stacked map with slice 3 applied to max(layer 2's lanes, 0). -/
theorem row_3 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v38 (F := Ideal) x0 x1 x2 x3 x4 (ix2 0 j) = Cert.Mlp.act x0 x1 x2 x3 x4 3 j := by
  show _ = Cert.Mlp.dense x3 x4 (Cert.Mlp.layer 3) (Cert.Mlp.relu (Cert.Mlp.act x0 x1 x2 x3 x4 2)) j
  rw [Read.val_main_v38_apply, Read.val_main_v34_apply, Read.val_main_v37_apply, Read.val_main_v36_apply,
    Read.val_main_v35_apply]
  unfold Cert.Mlp.dense
  refine addf_eq (Finset.sum_congr rfl fun k _ => ?_) ?_
  · rw [Read.val_main_v33_apply, Read.val_main_v32_apply, Read.val_main_v31_apply]
    have el : Read.lidx_main_v34 (ix2 0 j) k = ix2 0 k := funext fun a => Fin.ext (by
      match a with
      | ⟨0, _⟩ => rfl
      | ⟨1, _⟩ => rfl)
    have ew : Read.idx_main_v31 (Read.idx_main_v32 (Read.idx_main_v33 (Read.ridx_main_v34 (ix2 0 j) k)))
        = ix3 (Cert.Mlp.layer 3) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v30_apply, row_2, Read.val_main_call2_v0_apply, Read.val_main_call2_cst_apply]
    rfl
  · have eb : Read.idx_main_v35 (Read.idx_main_v36 (Read.idx_main_v37 (ix2 0 j))) = ix2 (Cert.Mlp.layer 3) j :=
      funext fun a => Fin.ext (by
        match a with
        | ⟨0, _⟩ => rfl
        | ⟨1, _⟩ => show j.val % 9 = j.val; omega)
    rw [eb]

/-- Layer 4: the stacked map with slice 4 applied to max(layer 3's lanes, 0). -/
theorem row_4 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v47 (F := Ideal) x0 x1 x2 x3 x4 (ix2 0 j) = Cert.Mlp.act x0 x1 x2 x3 x4 4 j := by
  show _ = Cert.Mlp.dense x3 x4 (Cert.Mlp.layer 4) (Cert.Mlp.relu (Cert.Mlp.act x0 x1 x2 x3 x4 3)) j
  rw [Read.val_main_v47_apply, Read.val_main_v43_apply, Read.val_main_v46_apply, Read.val_main_v45_apply,
    Read.val_main_v44_apply]
  unfold Cert.Mlp.dense
  refine addf_eq (Finset.sum_congr rfl fun k _ => ?_) ?_
  · rw [Read.val_main_v42_apply, Read.val_main_v41_apply, Read.val_main_v40_apply]
    have el : Read.lidx_main_v43 (ix2 0 j) k = ix2 0 k := funext fun a => Fin.ext (by
      match a with
      | ⟨0, _⟩ => rfl
      | ⟨1, _⟩ => rfl)
    have ew : Read.idx_main_v40 (Read.idx_main_v41 (Read.idx_main_v42 (Read.ridx_main_v43 (ix2 0 j) k)))
        = ix3 (Cert.Mlp.layer 4) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v39_apply, row_3, Read.val_main_call3_v0_apply, Read.val_main_call3_cst_apply]
    rfl
  · have eb : Read.idx_main_v44 (Read.idx_main_v45 (Read.idx_main_v46 (ix2 0 j))) = ix2 (Cert.Mlp.layer 4) j :=
      funext fun a => Fin.ext (by
        match a with
        | ⟨0, _⟩ => rfl
        | ⟨1, _⟩ => show j.val % 9 = j.val; omega)
    rw [eb]

/-- Layer 5: the stacked map with slice 5 applied to max(layer 4's lanes, 0). -/
theorem row_5 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v56 (F := Ideal) x0 x1 x2 x3 x4 (ix2 0 j) = Cert.Mlp.act x0 x1 x2 x3 x4 5 j := by
  show _ = Cert.Mlp.dense x3 x4 (Cert.Mlp.layer 5) (Cert.Mlp.relu (Cert.Mlp.act x0 x1 x2 x3 x4 4)) j
  rw [Read.val_main_v56_apply, Read.val_main_v52_apply, Read.val_main_v55_apply, Read.val_main_v54_apply,
    Read.val_main_v53_apply]
  unfold Cert.Mlp.dense
  refine addf_eq (Finset.sum_congr rfl fun k _ => ?_) ?_
  · rw [Read.val_main_v51_apply, Read.val_main_v50_apply, Read.val_main_v49_apply]
    have el : Read.lidx_main_v52 (ix2 0 j) k = ix2 0 k := funext fun a => Fin.ext (by
      match a with
      | ⟨0, _⟩ => rfl
      | ⟨1, _⟩ => rfl)
    have ew : Read.idx_main_v49 (Read.idx_main_v50 (Read.idx_main_v51 (Read.ridx_main_v52 (ix2 0 j) k)))
        = ix3 (Cert.Mlp.layer 5) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v48_apply, row_4, Read.val_main_call4_v0_apply, Read.val_main_call4_cst_apply]
    rfl
  · have eb : Read.idx_main_v53 (Read.idx_main_v54 (Read.idx_main_v55 (ix2 0 j))) = ix2 (Cert.Mlp.layer 5) j :=
      funext fun a => Fin.ext (by
        match a with
        | ⟨0, _⟩ => rfl
        | ⟨1, _⟩ => show j.val % 9 = j.val; omega)
    rw [eb]

/-- Layer 6: the stacked map with slice 6 applied to max(layer 5's lanes, 0). -/
theorem row_6 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v65 (F := Ideal) x0 x1 x2 x3 x4 (ix2 0 j) = Cert.Mlp.act x0 x1 x2 x3 x4 6 j := by
  show _ = Cert.Mlp.dense x3 x4 (Cert.Mlp.layer 6) (Cert.Mlp.relu (Cert.Mlp.act x0 x1 x2 x3 x4 5)) j
  rw [Read.val_main_v65_apply, Read.val_main_v61_apply, Read.val_main_v64_apply, Read.val_main_v63_apply,
    Read.val_main_v62_apply]
  unfold Cert.Mlp.dense
  refine addf_eq (Finset.sum_congr rfl fun k _ => ?_) ?_
  · rw [Read.val_main_v60_apply, Read.val_main_v59_apply, Read.val_main_v58_apply]
    have el : Read.lidx_main_v61 (ix2 0 j) k = ix2 0 k := funext fun a => Fin.ext (by
      match a with
      | ⟨0, _⟩ => rfl
      | ⟨1, _⟩ => rfl)
    have ew : Read.idx_main_v58 (Read.idx_main_v59 (Read.idx_main_v60 (Read.ridx_main_v61 (ix2 0 j) k)))
        = ix3 (Cert.Mlp.layer 6) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v57_apply, row_5, Read.val_main_call5_v0_apply, Read.val_main_call5_cst_apply]
    rfl
  · have eb : Read.idx_main_v62 (Read.idx_main_v63 (Read.idx_main_v64 (ix2 0 j))) = ix2 (Cert.Mlp.layer 6) j :=
      funext fun a => Fin.ext (by
        match a with
        | ⟨0, _⟩ => rfl
        | ⟨1, _⟩ => show j.val % 9 = j.val; omega)
    rw [eb]

/-- Layer 7: the stacked map with slice 7 applied to max(layer 6's lanes, 0). -/
theorem row_7 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v74 (F := Ideal) x0 x1 x2 x3 x4 (ix2 0 j) = Cert.Mlp.act x0 x1 x2 x3 x4 7 j := by
  show _ = Cert.Mlp.dense x3 x4 (Cert.Mlp.layer 7) (Cert.Mlp.relu (Cert.Mlp.act x0 x1 x2 x3 x4 6)) j
  rw [Read.val_main_v74_apply, Read.val_main_v70_apply, Read.val_main_v73_apply, Read.val_main_v72_apply,
    Read.val_main_v71_apply]
  unfold Cert.Mlp.dense
  refine addf_eq (Finset.sum_congr rfl fun k _ => ?_) ?_
  · rw [Read.val_main_v69_apply, Read.val_main_v68_apply, Read.val_main_v67_apply]
    have el : Read.lidx_main_v70 (ix2 0 j) k = ix2 0 k := funext fun a => Fin.ext (by
      match a with
      | ⟨0, _⟩ => rfl
      | ⟨1, _⟩ => rfl)
    have ew : Read.idx_main_v67 (Read.idx_main_v68 (Read.idx_main_v69 (Read.ridx_main_v70 (ix2 0 j) k)))
        = ix3 (Cert.Mlp.layer 7) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v66_apply, row_6, Read.val_main_call6_v0_apply, Read.val_main_call6_cst_apply]
    rfl
  · have eb : Read.idx_main_v71 (Read.idx_main_v72 (Read.idx_main_v73 (ix2 0 j))) = ix2 (Cert.Mlp.layer 7) j :=
      funext fun a => Fin.ext (by
        match a with
        | ⟨0, _⟩ => rfl
        | ⟨1, _⟩ => show j.val % 9 = j.val; omega)
    rw [eb]

/-- Layer 8: the stacked map with slice 8 applied to max(layer 7's lanes, 0). -/
theorem row_8 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v83 (F := Ideal) x0 x1 x2 x3 x4 (ix2 0 j) = Cert.Mlp.act x0 x1 x2 x3 x4 8 j := by
  show _ = Cert.Mlp.dense x3 x4 (Cert.Mlp.layer 8) (Cert.Mlp.relu (Cert.Mlp.act x0 x1 x2 x3 x4 7)) j
  rw [Read.val_main_v83_apply, Read.val_main_v79_apply, Read.val_main_v82_apply, Read.val_main_v81_apply,
    Read.val_main_v80_apply]
  unfold Cert.Mlp.dense
  refine addf_eq (Finset.sum_congr rfl fun k _ => ?_) ?_
  · rw [Read.val_main_v78_apply, Read.val_main_v77_apply, Read.val_main_v76_apply]
    have el : Read.lidx_main_v79 (ix2 0 j) k = ix2 0 k := funext fun a => Fin.ext (by
      match a with
      | ⟨0, _⟩ => rfl
      | ⟨1, _⟩ => rfl)
    have ew : Read.idx_main_v76 (Read.idx_main_v77 (Read.idx_main_v78 (Read.ridx_main_v79 (ix2 0 j) k)))
        = ix3 (Cert.Mlp.layer 8) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v75_apply, row_7, Read.val_main_call7_v0_apply, Read.val_main_call7_cst_apply]
    rfl
  · have eb : Read.idx_main_v80 (Read.idx_main_v81 (Read.idx_main_v82 (ix2 0 j))) = ix2 (Cert.Mlp.layer 8) j :=
      funext fun a => Fin.ext (by
        match a with
        | ⟨0, _⟩ => rfl
        | ⟨1, _⟩ => show j.val % 9 = j.val; omega)
    rw [eb]

/-- Layer 9: the stacked map with slice 9 applied to max(layer 8's lanes, 0). -/
theorem row_9 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v92 (F := Ideal) x0 x1 x2 x3 x4 (ix2 0 j) = Cert.Mlp.act x0 x1 x2 x3 x4 9 j := by
  show _ = Cert.Mlp.dense x3 x4 (Cert.Mlp.layer 9) (Cert.Mlp.relu (Cert.Mlp.act x0 x1 x2 x3 x4 8)) j
  rw [Read.val_main_v92_apply, Read.val_main_v88_apply, Read.val_main_v91_apply, Read.val_main_v90_apply,
    Read.val_main_v89_apply]
  unfold Cert.Mlp.dense
  refine addf_eq (Finset.sum_congr rfl fun k _ => ?_) ?_
  · rw [Read.val_main_v87_apply, Read.val_main_v86_apply, Read.val_main_v85_apply]
    have el : Read.lidx_main_v88 (ix2 0 j) k = ix2 0 k := funext fun a => Fin.ext (by
      match a with
      | ⟨0, _⟩ => rfl
      | ⟨1, _⟩ => rfl)
    have ew : Read.idx_main_v85 (Read.idx_main_v86 (Read.idx_main_v87 (Read.ridx_main_v88 (ix2 0 j) k)))
        = ix3 (Cert.Mlp.layer 9) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v84_apply, row_8, Read.val_main_call8_v0_apply, Read.val_main_call8_cst_apply]
    rfl
  · have eb : Read.idx_main_v89 (Read.idx_main_v90 (Read.idx_main_v91 (ix2 0 j))) = ix2 (Cert.Mlp.layer 9) j :=
      funext fun a => Fin.ext (by
        match a with
        | ⟨0, _⟩ => rfl
        | ⟨1, _⟩ => show j.val % 9 = j.val; omega)
    rw [eb]

/-- Layer 10: the stacked map with slice 10 applied to max(layer 9's lanes, 0). -/
theorem row_10 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v101 (F := Ideal) x0 x1 x2 x3 x4 (ix2 0 j) = Cert.Mlp.act x0 x1 x2 x3 x4 10 j := by
  show _ = Cert.Mlp.dense x3 x4 (Cert.Mlp.layer 10) (Cert.Mlp.relu (Cert.Mlp.act x0 x1 x2 x3 x4 9)) j
  rw [Read.val_main_v101_apply, Read.val_main_v97_apply, Read.val_main_v100_apply, Read.val_main_v99_apply,
    Read.val_main_v98_apply]
  unfold Cert.Mlp.dense
  refine addf_eq (Finset.sum_congr rfl fun k _ => ?_) ?_
  · rw [Read.val_main_v96_apply, Read.val_main_v95_apply, Read.val_main_v94_apply]
    have el : Read.lidx_main_v97 (ix2 0 j) k = ix2 0 k := funext fun a => Fin.ext (by
      match a with
      | ⟨0, _⟩ => rfl
      | ⟨1, _⟩ => rfl)
    have ew : Read.idx_main_v94 (Read.idx_main_v95 (Read.idx_main_v96 (Read.ridx_main_v97 (ix2 0 j) k)))
        = ix3 (Cert.Mlp.layer 10) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v93_apply, row_9, Read.val_main_call9_v0_apply, Read.val_main_call9_cst_apply]
    rfl
  · have eb : Read.idx_main_v98 (Read.idx_main_v99 (Read.idx_main_v100 (ix2 0 j))) = ix2 (Cert.Mlp.layer 10) j :=
      funext fun a => Fin.ext (by
        match a with
        | ⟨0, _⟩ => rfl
        | ⟨1, _⟩ => show j.val % 9 = j.val; omega)
    rw [eb]

/-- Layer 11: the stacked map with slice 11 applied to max(layer 10's lanes, 0). -/
theorem row_11 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v110 (F := Ideal) x0 x1 x2 x3 x4 (ix2 0 j) = Cert.Mlp.act x0 x1 x2 x3 x4 11 j := by
  show _ = Cert.Mlp.dense x3 x4 (Cert.Mlp.layer 11) (Cert.Mlp.relu (Cert.Mlp.act x0 x1 x2 x3 x4 10)) j
  rw [Read.val_main_v110_apply, Read.val_main_v106_apply, Read.val_main_v109_apply, Read.val_main_v108_apply,
    Read.val_main_v107_apply]
  unfold Cert.Mlp.dense
  refine addf_eq (Finset.sum_congr rfl fun k _ => ?_) ?_
  · rw [Read.val_main_v105_apply, Read.val_main_v104_apply, Read.val_main_v103_apply]
    have el : Read.lidx_main_v106 (ix2 0 j) k = ix2 0 k := funext fun a => Fin.ext (by
      match a with
      | ⟨0, _⟩ => rfl
      | ⟨1, _⟩ => rfl)
    have ew : Read.idx_main_v103 (Read.idx_main_v104 (Read.idx_main_v105 (Read.ridx_main_v106 (ix2 0 j) k)))
        = ix3 (Cert.Mlp.layer 11) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v102_apply, row_10, Read.val_main_call10_v0_apply, Read.val_main_call10_cst_apply]
    rfl
  · have eb : Read.idx_main_v107 (Read.idx_main_v108 (Read.idx_main_v109 (ix2 0 j))) = ix2 (Cert.Mlp.layer 11) j :=
      funext fun a => Fin.ext (by
        match a with
        | ⟨0, _⟩ => rfl
        | ⟨1, _⟩ => show j.val % 9 = j.val; omega)
    rw [eb]

/-- Layer 12: the stacked map with slice 12 applied to max(layer 11's lanes, 0). -/
theorem row_12 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v119 (F := Ideal) x0 x1 x2 x3 x4 (ix2 0 j) = Cert.Mlp.act x0 x1 x2 x3 x4 12 j := by
  show _ = Cert.Mlp.dense x3 x4 (Cert.Mlp.layer 12) (Cert.Mlp.relu (Cert.Mlp.act x0 x1 x2 x3 x4 11)) j
  rw [Read.val_main_v119_apply, Read.val_main_v115_apply, Read.val_main_v118_apply, Read.val_main_v117_apply,
    Read.val_main_v116_apply]
  unfold Cert.Mlp.dense
  refine addf_eq (Finset.sum_congr rfl fun k _ => ?_) ?_
  · rw [Read.val_main_v114_apply, Read.val_main_v113_apply, Read.val_main_v112_apply]
    have el : Read.lidx_main_v115 (ix2 0 j) k = ix2 0 k := funext fun a => Fin.ext (by
      match a with
      | ⟨0, _⟩ => rfl
      | ⟨1, _⟩ => rfl)
    have ew : Read.idx_main_v112 (Read.idx_main_v113 (Read.idx_main_v114 (Read.ridx_main_v115 (ix2 0 j) k)))
        = ix3 (Cert.Mlp.layer 12) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v111_apply, row_11, Read.val_main_call11_v0_apply, Read.val_main_call11_cst_apply]
    rfl
  · have eb : Read.idx_main_v116 (Read.idx_main_v117 (Read.idx_main_v118 (ix2 0 j))) = ix2 (Cert.Mlp.layer 12) j :=
      funext fun a => Fin.ext (by
        match a with
        | ⟨0, _⟩ => rfl
        | ⟨1, _⟩ => show j.val % 9 = j.val; omega)
    rw [eb]

/-- Layer 13: the stacked map with slice 13 applied to max(layer 12's lanes, 0). -/
theorem row_13 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v128 (F := Ideal) x0 x1 x2 x3 x4 (ix2 0 j) = Cert.Mlp.act x0 x1 x2 x3 x4 13 j := by
  show _ = Cert.Mlp.dense x3 x4 (Cert.Mlp.layer 13) (Cert.Mlp.relu (Cert.Mlp.act x0 x1 x2 x3 x4 12)) j
  rw [Read.val_main_v128_apply, Read.val_main_v124_apply, Read.val_main_v127_apply, Read.val_main_v126_apply,
    Read.val_main_v125_apply]
  unfold Cert.Mlp.dense
  refine addf_eq (Finset.sum_congr rfl fun k _ => ?_) ?_
  · rw [Read.val_main_v123_apply, Read.val_main_v122_apply, Read.val_main_v121_apply]
    have el : Read.lidx_main_v124 (ix2 0 j) k = ix2 0 k := funext fun a => Fin.ext (by
      match a with
      | ⟨0, _⟩ => rfl
      | ⟨1, _⟩ => rfl)
    have ew : Read.idx_main_v121 (Read.idx_main_v122 (Read.idx_main_v123 (Read.ridx_main_v124 (ix2 0 j) k)))
        = ix3 (Cert.Mlp.layer 13) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v120_apply, row_12, Read.val_main_call12_v0_apply, Read.val_main_call12_cst_apply]
    rfl
  · have eb : Read.idx_main_v125 (Read.idx_main_v126 (Read.idx_main_v127 (ix2 0 j))) = ix2 (Cert.Mlp.layer 13) j :=
      funext fun a => Fin.ext (by
        match a with
        | ⟨0, _⟩ => rfl
        | ⟨1, _⟩ => show j.val % 9 = j.val; omega)
    rw [eb]

/-- Layer 14: the stacked map with slice 14 applied to max(layer 13's lanes, 0). -/
theorem row_14 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v137 (F := Ideal) x0 x1 x2 x3 x4 (ix2 0 j) = Cert.Mlp.act x0 x1 x2 x3 x4 14 j := by
  show _ = Cert.Mlp.dense x3 x4 (Cert.Mlp.layer 14) (Cert.Mlp.relu (Cert.Mlp.act x0 x1 x2 x3 x4 13)) j
  rw [Read.val_main_v137_apply, Read.val_main_v133_apply, Read.val_main_v136_apply, Read.val_main_v135_apply,
    Read.val_main_v134_apply]
  unfold Cert.Mlp.dense
  refine addf_eq (Finset.sum_congr rfl fun k _ => ?_) ?_
  · rw [Read.val_main_v132_apply, Read.val_main_v131_apply, Read.val_main_v130_apply]
    have el : Read.lidx_main_v133 (ix2 0 j) k = ix2 0 k := funext fun a => Fin.ext (by
      match a with
      | ⟨0, _⟩ => rfl
      | ⟨1, _⟩ => rfl)
    have ew : Read.idx_main_v130 (Read.idx_main_v131 (Read.idx_main_v132 (Read.ridx_main_v133 (ix2 0 j) k)))
        = ix3 (Cert.Mlp.layer 14) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v129_apply, row_13, Read.val_main_call13_v0_apply, Read.val_main_call13_cst_apply]
    rfl
  · have eb : Read.idx_main_v134 (Read.idx_main_v135 (Read.idx_main_v136 (ix2 0 j))) = ix2 (Cert.Mlp.layer 14) j :=
      funext fun a => Fin.ext (by
        match a with
        | ⟨0, _⟩ => rfl
        | ⟨1, _⟩ => show j.val % 9 = j.val; omega)
    rw [eb]

/-- Layer 15: the stacked map with slice 15 applied to max(layer 14's lanes, 0). -/
theorem row_15 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v146 (F := Ideal) x0 x1 x2 x3 x4 (ix2 0 j) = Cert.Mlp.act x0 x1 x2 x3 x4 15 j := by
  show _ = Cert.Mlp.dense x3 x4 (Cert.Mlp.layer 15) (Cert.Mlp.relu (Cert.Mlp.act x0 x1 x2 x3 x4 14)) j
  rw [Read.val_main_v146_apply, Read.val_main_v142_apply, Read.val_main_v145_apply, Read.val_main_v144_apply,
    Read.val_main_v143_apply]
  unfold Cert.Mlp.dense
  refine addf_eq (Finset.sum_congr rfl fun k _ => ?_) ?_
  · rw [Read.val_main_v141_apply, Read.val_main_v140_apply, Read.val_main_v139_apply]
    have el : Read.lidx_main_v142 (ix2 0 j) k = ix2 0 k := funext fun a => Fin.ext (by
      match a with
      | ⟨0, _⟩ => rfl
      | ⟨1, _⟩ => rfl)
    have ew : Read.idx_main_v139 (Read.idx_main_v140 (Read.idx_main_v141 (Read.ridx_main_v142 (ix2 0 j) k)))
        = ix3 (Cert.Mlp.layer 15) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v138_apply, row_14, Read.val_main_call14_v0_apply, Read.val_main_call14_cst_apply]
    rfl
  · have eb : Read.idx_main_v143 (Read.idx_main_v144 (Read.idx_main_v145 (ix2 0 j))) = ix2 (Cert.Mlp.layer 15) j :=
      funext fun a => Fin.ext (by
        match a with
        | ⟨0, _⟩ => rfl
        | ⟨1, _⟩ => show j.val % 9 = j.val; omega)
    rw [eb]

/-- Layer 16: the stacked map with slice 16 applied to max(layer 15's lanes, 0). -/
theorem row_16 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v155 (F := Ideal) x0 x1 x2 x3 x4 (ix2 0 j) = Cert.Mlp.act x0 x1 x2 x3 x4 16 j := by
  show _ = Cert.Mlp.dense x3 x4 (Cert.Mlp.layer 16) (Cert.Mlp.relu (Cert.Mlp.act x0 x1 x2 x3 x4 15)) j
  rw [Read.val_main_v155_apply, Read.val_main_v151_apply, Read.val_main_v154_apply, Read.val_main_v153_apply,
    Read.val_main_v152_apply]
  unfold Cert.Mlp.dense
  refine addf_eq (Finset.sum_congr rfl fun k _ => ?_) ?_
  · rw [Read.val_main_v150_apply, Read.val_main_v149_apply, Read.val_main_v148_apply]
    have el : Read.lidx_main_v151 (ix2 0 j) k = ix2 0 k := funext fun a => Fin.ext (by
      match a with
      | ⟨0, _⟩ => rfl
      | ⟨1, _⟩ => rfl)
    have ew : Read.idx_main_v148 (Read.idx_main_v149 (Read.idx_main_v150 (Read.ridx_main_v151 (ix2 0 j) k)))
        = ix3 (Cert.Mlp.layer 16) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v147_apply, row_15, Read.val_main_call15_v0_apply, Read.val_main_call15_cst_apply]
    rfl
  · have eb : Read.idx_main_v152 (Read.idx_main_v153 (Read.idx_main_v154 (ix2 0 j))) = ix2 (Cert.Mlp.layer 16) j :=
      funext fun a => Fin.ext (by
        match a with
        | ⟨0, _⟩ => rfl
        | ⟨1, _⟩ => show j.val % 9 = j.val; omega)
    rw [eb]

/-- Layer 17: the stacked map with slice 17 applied to max(layer 16's lanes, 0). -/
theorem row_17 (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (j : Fin 9) :
    Read.val_main_v164 (F := Ideal) x0 x1 x2 x3 x4 (ix2 0 j) = Cert.Mlp.act x0 x1 x2 x3 x4 17 j := by
  show _ = Cert.Mlp.dense x3 x4 (Cert.Mlp.layer 17) (Cert.Mlp.relu (Cert.Mlp.act x0 x1 x2 x3 x4 16)) j
  rw [Read.val_main_v164_apply, Read.val_main_v160_apply, Read.val_main_v163_apply, Read.val_main_v162_apply,
    Read.val_main_v161_apply]
  unfold Cert.Mlp.dense
  refine addf_eq (Finset.sum_congr rfl fun k _ => ?_) ?_
  · rw [Read.val_main_v159_apply, Read.val_main_v158_apply, Read.val_main_v157_apply]
    have el : Read.lidx_main_v160 (ix2 0 j) k = ix2 0 k := funext fun a => Fin.ext (by
      match a with
      | ⟨0, _⟩ => rfl
      | ⟨1, _⟩ => rfl)
    have ew : Read.idx_main_v157 (Read.idx_main_v158 (Read.idx_main_v159 (Read.ridx_main_v160 (ix2 0 j) k)))
        = ix3 (Cert.Mlp.layer 17) j k :=
      funext fun a => Fin.ext (by
        match a with
        | ⟨0, _⟩ => rfl
        | ⟨1, _⟩ => show (j.val * 9 + k.val) / 9 % 9 = j.val; omega
        | ⟨2, _⟩ => show (j.val * 9 + k.val) % 9 = k.val; omega)
    rw [el, ew, Read.val_main_v156_apply, row_16, Read.val_main_call16_v0_apply, Read.val_main_call16_cst_apply]
    rfl
  · have eb : Read.idx_main_v161 (Read.idx_main_v162 (Read.idx_main_v163 (ix2 0 j))) = ix2 (Cert.Mlp.layer 17) j :=
      funext fun a => Fin.ext (by
        match a with
        | ⟨0, _⟩ => rfl
        | ⟨1, _⟩ => show j.val % 9 = j.val; omega)
    rw [eb]

end Cert.ReferenceIdeal.RefValue

end
-- ==== Proof.RefOut.lean ====
/-
  The reference program's two results.

  The first result joins the eighteen [1,9] rows end to end (sixteen of them, then the last two, then the two
  joins) into one [1,162] row and reads it row-major as [3,6,3,3]. Entry 9n+l of the joined row is lane l of
  layer n, and the row-major position of (a,b,c,e) in [3,6,3,3] is 9(6a+b) + (3c+e): so entry (a,b,c,e) is lane
  3c+e of layer 6a+b, the specification's table. The second result is one more product-plus-bias of
  max(layer 17's row, 0) with the transposed [3,9] weights, read lane by lane as for the stacked layers.
-/
import proofs.«180207_j90924457656423_2_alg».proof.Proof.RefRead
import proofs.«180207_j90924457656423_2_alg».proof.Proof.Spec
import proofs.«180207_j90924457656423_2_alg».proof.Proof.RefLayers

noncomputable section

namespace Cert.ReferenceIdeal.RefValue

open Cert.ReferenceIdeal Cert.ReferenceIdeal.Gen Idealize.ShloMosaic Idealize.ShloMosaic.ValueIdx

/-- A [1,9] array is its row of nine lanes: the first coordinate has one value only. -/
theorem fn_of_row {v : S1x9.Idx → EReal} {r : Fin 9 → EReal} (h : ∀ j : Fin 9, v (ix2 0 j) = r j) :
    v = fun i => r (i 1) := funext fun i => by
  have e : i = ix2 0 (i 1) := funext fun a => by
    match a with
    | ⟨0, h0⟩ =>
      exact Fin.ext (by
        have h1 : (i ⟨0, h0⟩).val < 1 := (i ⟨0, h0⟩).isLt
        show (i ⟨0, h0⟩).val = 0
        omega)
    | ⟨1, _⟩ => rfl
  conv_lhs => rw [e]
  exact h (i 1)

/-- The first sixteen rows laid end to end: entry 9n+l of the [1,144] row is lane l of layer n. -/
theorem v165_at (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (f : Fin 144) (n : Nat) (l : Fin 9) (hf : f.val = 9 * n + l.val) :
    Read.val_main_v165 (F := Ideal) x0 x1 x2 x3 x4 (ix2 0 f) = Cert.Mlp.act x0 x1 x2 x3 x4 n l := by
  have hn : n < 16 := by have := f.isLt; omega
  unfold Read.val_main_v165
  rw [fn_of_row (row_0 x0 x1 x2 x3 x4),
    fn_of_row (row_1 x0 x1 x2 x3 x4),
    fn_of_row (row_2 x0 x1 x2 x3 x4),
    fn_of_row (row_3 x0 x1 x2 x3 x4),
    fn_of_row (row_4 x0 x1 x2 x3 x4),
    fn_of_row (row_5 x0 x1 x2 x3 x4),
    fn_of_row (row_6 x0 x1 x2 x3 x4),
    fn_of_row (row_7 x0 x1 x2 x3 x4),
    fn_of_row (row_8 x0 x1 x2 x3 x4),
    fn_of_row (row_9 x0 x1 x2 x3 x4),
    fn_of_row (row_10 x0 x1 x2 x3 x4),
    fn_of_row (row_11 x0 x1 x2 x3 x4),
    fn_of_row (row_12 x0 x1 x2 x3 x4),
    fn_of_row (row_13 x0 x1 x2 x3 x4),
    fn_of_row (row_14 x0 x1 x2 x3 x4),
    fn_of_row (row_15 x0 x1 x2 x3 x4)]
  exact concatenate_ofFn_apply (t := S1x144) (s₁ := S1x9) (1 : Fin S1x144.rank)
    (fun m : Fin 16 => fun i : S1x9.Idx => Cert.Mlp.act x0 x1 x2 x3 x4 m.val (i 1)) _ rfl 9 rfl (ix2 0 f) ⟨n, hn⟩
    (by show f.val / 9 = n; omega) (ix2 0 l) (by show l.val = f.val % 9; omega)
    (fun b hb => by
      match b with
      | ⟨0, _⟩ => rfl
      | ⟨1, _⟩ => exact absurd rfl hb)

/-- The last two rows laid end to end: entry g of the [1,18] row, with g + 144 = 9n+l, is lane l of layer n. -/
theorem v166_at (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (g : Fin 18) (n : Nat) (l : Fin 9) (hg : g.val + 144 = 9 * n + l.val) :
    Read.val_main_v166 (F := Ideal) x0 x1 x2 x3 x4 (ix2 0 g) = Cert.Mlp.act x0 x1 x2 x3 x4 n l := by
  obtain ⟨m, rfl⟩ : ∃ m, n = 16 + m := ⟨n - 16, by have := g.isLt; omega⟩
  have hm : m < 2 := by have := g.isLt; omega
  unfold Read.val_main_v166
  rw [fn_of_row (row_16 x0 x1 x2 x3 x4),
    fn_of_row (row_17 x0 x1 x2 x3 x4)]
  exact concatenate_ofFn_apply (t := S1x18) (s₁ := S1x9) (1 : Fin S1x18.rank)
    (fun m : Fin 2 => fun i : S1x9.Idx => Cert.Mlp.act x0 x1 x2 x3 x4 (16 + m.val) (i 1)) _ rfl 9 rfl (ix2 0 g) ⟨m, hm⟩
    (by show g.val / 9 = m; omega) (ix2 0 l) (by show l.val = g.val % 9; omega)
    (fun b hb => by
      match b with
      | ⟨0, _⟩ => rfl
      | ⟨1, _⟩ => exact absurd rfl hb)

/-- All eighteen rows laid end to end: entry 9n+l of the [1,162] row is lane l of layer n. -/
theorem v167_at (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) (f : Fin 162) (n : Nat) (l : Fin 9) (hf : f.val = 9 * n + l.val) :
    Read.val_main_v167 (F := Ideal) x0 x1 x2 x3 x4 (ix2 0 f) = Cert.Mlp.act x0 x1 x2 x3 x4 n l := by
  unfold Read.val_main_v167
  by_cases h : f.val < 144
  · refine (concatenate_pair_apply_left (t := S1x162) (s₁ := S1x144) (s₂ := S1x18) (1 : Fin S1x162.rank) _ _ _
      (ix2 0 f) rfl (ix2 0 ⟨f.val, h⟩) (fun b => by
        match b with
        | ⟨0, _⟩ => rfl
        | ⟨1, _⟩ => rfl)).trans ?_
    exact v165_at x0 x1 x2 x3 x4 ⟨f.val, h⟩ n l hf
  · have h2 : f.val - 144 < 18 := by have := f.isLt; omega
    refine (concatenate_pair_apply_right (t := S1x162) (s₁ := S1x144) (s₂ := S1x18) (1 : Fin S1x162.rank) _ _ _
      (ix2 0 f) rfl rfl (ix2 0 ⟨f.val - 144, h2⟩) (fun b hb => by
        match b with
        | ⟨0, _⟩ => rfl
        | ⟨1, _⟩ => exact absurd rfl hb) (by show f.val - 144 + 144 = f.val; omega)).trans ?_
    exact v166_at x0 x1 x2 x3 x4 ⟨f.val - 144, h2⟩ n l (by show f.val - 144 + 144 = 9 * n + l.val; omega)

/-- The first result: the [1,162] row read row-major as [3,6,3,3] is the table of the eighteen layers' lanes. -/
theorem v168_eq (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal)) :
    Read.val_main_v168 (F := Ideal) x0 x1 x2 x3 x4 = Cert.Mlp.kernelOut x0 x1 x2 x3 x4 := by
  funext i
  rw [Read.val_main_v168_apply]
  have h0 : (i 0).val < 3 := (i 0).isLt
  have h1 : (i 1).val < 6 := (i 1).isLt
  have h2 : (i 2).val < 3 := (i 2).isLt
  have h3 : (i 3).val < 3 := (i 3).isLt
  have hlt : ((((i 0).val * 6 + (i 1).val) * 3 + (i 2).val) * 3 + (i 3).val) % 162 < 162 := by omega
  have e : Read.idx_main_v168 i = ix2 0 ⟨((((i 0).val * 6 + (i 1).val) * 3 + (i 2).val) * 3 + (i 3).val) % 162, hlt⟩ :=
    funext fun a => Fin.ext (by
      match a with
      | ⟨0, _⟩ => rfl
      | ⟨1, _⟩ => rfl)
  rw [e]
  exact v167_at x0 x1 x2 x3 x4 _ (6 * (i 0).val + (i 1).val) ⟨3 * (i 2).val + (i 3).val, by omega⟩
    (by show ((((i 0).val * 6 + (i 1).val) * 3 + (i 2).val) * 3 + (i 3).val) % 162
          = 9 * (6 * (i 0).val + (i 1).val) + (3 * (i 2).val + (i 3).val); omega)

/-- The second result: the last affine map, three lanes, of max(layer 17's lanes, 0). -/
theorem v174_eq (x0 : (⟨S1x2, .f32⟩ : BufTy).Contents (Elt Ideal)) (x1 : (⟨S9x2, .f32⟩ : BufTy).Contents (Elt Ideal))
    (x2 : (⟨S9, .f32⟩ : BufTy).Contents (Elt Ideal)) (x3 : (⟨S18x9x9, .f32⟩ : BufTy).Contents (Elt Ideal))
    (x4 : (⟨S18x9, .f32⟩ : BufTy).Contents (Elt Ideal))
    (x5 : (⟨S3x9, .f32⟩ : BufTy).Contents (Elt Ideal)) (x6 : (⟨S3, .f32⟩ : BufTy).Contents (Elt Ideal)) :
    Read.val_main_v174 (F := Ideal) x0 x1 x2 x3 x4 x5 x6 = Cert.Mlp.biasOut x0 x1 x2 x3 x4 x5 x6 := by
  funext i
  rw [Read.val_main_v174_apply, Read.val_main_v173_apply, Read.val_main_v171_apply, Read.val_main_v172_apply]
  unfold Cert.Mlp.biasOut
  have hi : (i 0).val < 3 := (i 0).isLt
  refine addf_eq (Finset.sum_congr rfl fun k _ => ?_) ?_
  · rw [Read.val_main_v170_apply]
    have el : Read.lidx_main_v171 (Read.idx_main_v174 i) k = ix2 0 k := funext fun a => Fin.ext (by
      match a with
      | ⟨0, _⟩ => rfl
      | ⟨1, _⟩ => rfl)
    have er : Read.idx_main_v170 (Read.ridx_main_v171 (Read.idx_main_v174 i) k) = ix2 (i 0) k :=
      funext fun a => Fin.ext (by
        match a with
        | ⟨0, _⟩ => show (i 0).val % 3 = (i 0).val; omega
        | ⟨1, _⟩ => rfl)
    rw [el, er, Read.val_main_v169_apply, row_17, Read.val_main_call17_v0_apply, Read.val_main_call17_cst_apply]
    rfl
  · have eb : Read.idx_main_v172 (Read.idx_main_v174 i) = ix1 (i 0) := funext fun a => Fin.ext (by
      match a with
      | ⟨0, _⟩ => show (i 0).val % 3 = (i 0).val; omega)
    exact congrArg x6 eb

end Cert.ReferenceIdeal.RefValue

end
-- ==== Proof.lean ====
/-
  The certificate of the nineteen-layer perceptron kernel against its jnp reference.

  Both programs compute one function of the seven argument arrays (Proof/Spec.lean): a chain of affine maps on a
  row of nine lanes — lane j of a layer's output is Σ_k h[k]·W[j,k] + b[j], with h the previous output passed through
  max(·,0) from the second stacked layer on — whose eighteen stacked outputs, laid out row-major as [3,6,3,3], are
  the first result, and one more affine map of max(last output, 0) to three lanes the second.

  The kernel transposes the weights and adds a unit axis to the biases before its one call, computes every layer
  inside the call on whole arrays (a matrix product into a zero accumulator plus a bias row, the eighteen rows stored
  one by one into an [18,9] table), and reshapes the table and the three lanes afterwards: Proof/KHost.lean (the
  arrays the call finds), KLayer / KChain / KPay (the body's values are the specification's layers), KBlocks (with
  one grid point and whole-array windows the output arrays are the body's results), KRun (the reshapes after the
  call), KValue (the two results). The reference computes the same layers as host operations — slice, reshape and
  transpose of the stacked weights, a contraction, a broadcast bias — joins the eighteen rows into one row of 162
  and reshapes it: Proof/RefRun.lean and RefTail.lean (its run, read one layer at a time), RefLayers / RefOut (its stages are the
  specification's layers, the joined row read by position).

  On the extended reals the two are equal term by term: the same sums of the same products in the same order, so no
  finiteness of the inputs is used. The idealization rewrote nothing in the kernel, so that conjunct is trivial; the
  two kernels' frames are the generated ones, and the reference's frame is its run with the results dropped.
-/
import proofs.«180207_j90924457656423_2_alg».proof.Defs
import proofs.«180207_j90924457656423_2_alg».proof.Proof.Gen.Kernel
import proofs.«180207_j90924457656423_2_alg».proof.Proof.Gen.Kernel.Frame
import proofs.«180207_j90924457656423_2_alg».proof.Proof.Gen.KernelIdeal
import proofs.«180207_j90924457656423_2_alg».proof.Proof.Gen.KernelIdeal.Frame
import proofs.«180207_j90924457656423_2_alg».proof.Proof.Gen.ReferenceIdeal
import proofs.«180207_j90924457656423_2_alg».proof.Proof.Gen.Pre_finite_inputs
import proofs.«180207_j90924457656423_2_alg».proof.Proof.KValue
import proofs.«180207_j90924457656423_2_alg».proof.Proof.RefTail
import proofs.«180207_j90924457656423_2_alg».proof.Proof.RefOut
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefRun.run m ρ)

/-- The idealization rewrote no operation of the kernel. -/
theorem preserves : Cert.preserves_Kernel_KernelIdeal := trivial

/-- From memories agreeing on the arguments, the idealized kernel ends with its two results at the specification's
    functions of its arguments, and the reference with its two results at the same functions of its own, which are
    the same arrays. -/
theorem algebraic : Cert.algebraic_KernelIdeal_ReferenceIdeal := by
  intro m ρ m' ρ' _ hagree
  refine ⟨fun c => Cert.Mlp.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Mlp.biasOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.RefRun.run m' ρ')
  · rw [Cert.ReferenceIdeal.RefValue.v168_eq, (hagree c).1, (hagree c).2.1, (hagree c).2.2.1, (hagree c).2.2.2.1,
      (hagree c).2.2.2.2.1]
  · rw [Cert.ReferenceIdeal.RefValue.v174_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
